-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S256 .f32) (main_arg6 : FVec F S256x64 .f32) (main_arg7 : FVec F S64 .f32) (main_arg8 : FVec F S64x64 .f32) (main_arg9 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x64 .f32) (main_arg7 : FVec F S64 .f32) (main_arg8 : FVec F S64x64 .f32) (main_arg9 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x256 : Shape := ⟨2, ![1, 256]⟩
abbrev S1x64 : Shape := ⟨2, ![1, 64]⟩
abbrev S2000x256 : Shape := ⟨2, ![2000, 256]⟩
abbrev S50000x1 : Shape := ⟨2, ![50000, 1]⟩
abbrev S800000x256 : Shape := ⟨2, ![800000, 256]⟩
abbrev S50000x64 : Shape := ⟨2, ![50000, 64]⟩
abbrev S2000x64 : Shape := ⟨2, ![2000, 64]⟩
abbrev S800000x64 : Shape := ⟨2, ![800000, 64]⟩

abbrev nBuf : Space → Nat
  | .hbm => 188
  | .vmem => 42
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x64, .f32⟩
  | 7 => ⟨S64, .f32⟩
  | 8 => ⟨S64x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S1x256, .f32⟩
  | 34 => ⟨S1x256, .f32⟩
  | 35 => ⟨S1x64, .f32⟩
  | 36 => ⟨S1x64, .f32⟩
  | 37 => ⟨S50000x256, .f32⟩
  | 38 => ⟨S50000x1, .f32⟩
  | 39 => ⟨S50000x256, .f32⟩
  | 40 => ⟨S50000x256, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x256, .f32⟩
  | 50 => ⟨S_, .f32⟩
  | 51 => ⟨S50000x256, .f32⟩
  | 52 => ⟨S800000x1, .i32⟩
  | 53 => ⟨S50000x256, .f32⟩
  | 54 => ⟨S50000x1, .f32⟩
  | 55 => ⟨S50000x256, .f32⟩
  | 56 => ⟨S50000x256, .f32⟩
  | 57 => ⟨S50000, .f32⟩
  | 58 => ⟨S50000x1, .f32⟩
  | 59 => ⟨S50000x256, .f32⟩
  | 60 => ⟨S50000x256, .f32⟩
  | 61 => ⟨S50000x256, .f32⟩
  | 62 => ⟨S50000x256, .f32⟩
  | 63 => ⟨S50000x1, .f32⟩
  | 64 => ⟨S50000x256, .f32⟩
  | 65 => ⟨S50000x256, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x256, .f32⟩
  | 75 => ⟨S_, .f32⟩
  | 76 => ⟨S50000x256, .f32⟩
  | 77 => ⟨S800000x1, .i32⟩
  | 78 => ⟨S50000x256, .f32⟩
  | 79 => ⟨S50000x1, .f32⟩
  | 80 => ⟨S50000x256, .f32⟩
  | 81 => ⟨S50000x256, .f32⟩
  | 82 => ⟨S50000, .f32⟩
  | 83 => ⟨S50000x1, .f32⟩
  | 84 => ⟨S50000x256, .f32⟩
  | 85 => ⟨S50000x256, .f32⟩
  | 86 => ⟨S50000x256, .f32⟩
  | 87 => ⟨S50000x256, .f32⟩
  | 88 => ⟨S50000x1, .f32⟩
  | 89 => ⟨S50000x256, .f32⟩
  | 90 => ⟨S50000x256, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x256, .f32⟩
  | 100 => ⟨S_, .f32⟩
  | 101 => ⟨S50000x256, .f32⟩
  | 102 => ⟨S800000x1, .i32⟩
  | 103 => ⟨S50000x256, .f32⟩
  | 104 => ⟨S50000x1, .f32⟩
  | 105 => ⟨S50000x256, .f32⟩
  | 106 => ⟨S50000x256, .f32⟩
  | 107 => ⟨S50000, .f32⟩
  | 108 => ⟨S50000x1, .f32⟩
  | 109 => ⟨S50000x256, .f32⟩
  | 110 => ⟨S50000x256, .f32⟩
  | 111 => ⟨S50000x256, .f32⟩
  | 112 => ⟨S50000x256, .f32⟩
  | 113 => ⟨S50000x1, .f32⟩
  | 114 => ⟨S50000x256, .f32⟩
  | 115 => ⟨S50000x256, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x256, .f32⟩
  | 125 => ⟨S_, .f32⟩
  | 126 => ⟨S50000x256, .f32⟩
  | 127 => ⟨S800000x1, .i32⟩
  | _ => ⟨S50000x256, .f32⟩

abbrev hbmTy0_1 (i : Nat) : BufTy := match i % 128 with
  | 0 => ⟨S50000x256, .f32⟩
  | 1 => ⟨S50000x1, .f32⟩
  | 2 => ⟨S50000x256, .f32⟩
  | 3 => ⟨S50000x256, .f32⟩
  | 4 => ⟨S50000, .f32⟩
  | 5 => ⟨S50000x1, .f32⟩
  | 6 => ⟨S50000x256, .f32⟩
  | 7 => ⟨S50000x256, .f32⟩
  | 8 => ⟨S50000x256, .f32⟩
  | 9 => ⟨S50000x256, .f32⟩
  | 10 => ⟨S50000x1, .f32⟩
  | 11 => ⟨S50000x256, .f32⟩
  | 12 => ⟨S50000x256, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x256, .f32⟩
  | 22 => ⟨S_, .f32⟩
  | 23 => ⟨S50000x256, .f32⟩
  | 24 => ⟨S800000x1, .i32⟩
  | 25 => ⟨S50000x256, .f32⟩
  | 26 => ⟨S50000x1, .f32⟩
  | 27 => ⟨S50000x256, .f32⟩
  | 28 => ⟨S50000x256, .f32⟩
  | 29 => ⟨S50000, .f32⟩
  | 30 => ⟨S50000x1, .f32⟩
  | 31 => ⟨S50000x256, .f32⟩
  | 32 => ⟨S50000x256, .f32⟩
  | 33 => ⟨S50000x256, .f32⟩
  | 34 => ⟨S50000x64, .f32⟩
  | 35 => ⟨S50000x1, .f32⟩
  | 36 => ⟨S50000x64, .f32⟩
  | 37 => ⟨S50000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S50000x1, .f32⟩
  | 52 => ⟨S50000x64, .f32⟩
  | 53 => ⟨S50000x64, .f32⟩
  | 54 => ⟨S50000, .f32⟩
  | 55 => ⟨S50000x1, .f32⟩
  | 56 => ⟨S50000x64, .f32⟩
  | 57 => ⟨S50000x64, .f32⟩
  | 58 => ⟨S50000x64, .f32⟩
  | 59 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S256x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S1x256, .f32⟩
  | .local _ .vmem, ⟨26, _⟩ => ⟨S256x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S1x256, .f32⟩
  | .local _ .vmem, ⟨32, _⟩ => ⟨S256x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_10 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_13 : Ref sig .tc := ⟨.hbm, 116, rfl⟩
abbrev main_v89 : Ref sig .tc := ⟨.hbm, 117, rfl⟩
abbrev main_v90 : Ref sig .tc := ⟨.hbm, 118, rfl⟩
abbrev main_c_14 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_c_16 : Ref sig .tc := ⟨.hbm, 141, rfl⟩
abbrev main_v111 : Ref sig .tc := ⟨.hbm, 142, rfl⟩
abbrev main_v112 : Ref sig .tc := ⟨.hbm, 143, rfl⟩
abbrev main_c_17 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_18 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_c_19 : Ref sig .tc := ⟨.hbm, 166, rfl⟩
abbrev main_v133 : Ref sig .tc := ⟨.hbm, 167, rfl⟩
abbrev main_v134 : Ref sig .tc := ⟨.hbm, 168, rfl⟩
abbrev main_c_20 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_21 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg4_0 : Ref sig .tc := ⟨.vmem, 40, rfl⟩
abbrev cc6_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem3_0 : DmaSem sig := 39
abbrev cc6_sem4_0 : DmaSem sig := 40
abbrev cc6_sem4_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S256_S1x256 : S256.ShapeCasts S1x256
  shapeCasts_S64_S1x64 : S64.ShapeCasts S1x64
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x64.size a ≤ S256x64.size a
  hwx5_2 : ∀ i : grid5.Coords, EltTy.bits .f32 = 32 ∨ (Rect.block (s := S256x64) S256x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S50000x64.size a
  hwx6_4 : ∀ i : grid6.Coords, EltTy.bits .f32 = 32 ∨ (Rect.block (s := S50000x64) S2000x64.size (cc6_transform_4 i) (hinb6_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v84) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v106) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v128) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg6) S256x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v129) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v150) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v17) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg8) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v18) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v151) S2000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 395
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x64, .f32⟩
  | 7 => ⟨S64, .f32⟩
  | 8 => ⟨S64x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x256, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S1x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S50000x256, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x256, .f32⟩
  | 125 => ⟨S850000x1, .f32⟩
  | 126 => ⟨S850000x256, .f32⟩
  | 127 => ⟨S850000x256, .f32⟩
  | _ => ⟨S50000x256, .f32⟩

abbrev hbmTy0_1 (i : Nat) : BufTy := match i % 128 with
  | 0 => ⟨S_, .f32⟩
  | 1 => ⟨S50000x256, .f32⟩
  | 2 => ⟨S850000x1, .i32⟩
  | 3 => ⟨S50000x256, .f32⟩
  | 4 => ⟨S1x256, .f32⟩
  | 5 => ⟨S50000x256, .f32⟩
  | 6 => ⟨S50000x256, .f32⟩
  | 7 => ⟨S_, .f32⟩
  | 8 => ⟨S50000x256, .f32⟩
  | 9 => ⟨S50000x256, .f32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x256, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S_, .f32⟩
  | 85 => ⟨S50000, .f32⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S50000x256, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x256, .f32⟩
  | 121 => ⟨S850000x1, .f32⟩
  | 122 => ⟨S850000x256, .f32⟩
  | 123 => ⟨S850000x256, .f32⟩
  | 124 => ⟨S_, .f32⟩
  | 125 => ⟨S50000x256, .f32⟩
  | 126 => ⟨S850000x1, .i32⟩
  | 127 => ⟨S50000x256, .f32⟩
  | _ => ⟨S50000x256, .f32⟩

abbrev hbmTy0_2 (i : Nat) : BufTy := match i % 128 with
  | 0 => ⟨S1x256, .f32⟩
  | 1 => ⟨S50000x256, .f32⟩
  | 2 => ⟨S50000x256, .f32⟩
  | 3 => ⟨S_, .f32⟩
  | 4 => ⟨S50000x256, .f32⟩
  | 5 => ⟨S50000x256, .f32⟩
  | 6 => ⟨S50000, .i32⟩
  | 7 => ⟨S850000, .i32⟩
  | 8 => ⟨S850000, .i32⟩
  | 9 => ⟨S_, .f32⟩
  | 10 => ⟨S850000, .f32⟩
  | 11 => ⟨S_, .f32⟩
  | 12 => ⟨S50000, .f32⟩
  | 13 => ⟨S850000x1, .i32⟩
  | 14 => ⟨S50000, .f32⟩
  | 15 => ⟨S_, .f32⟩
  | 16 => ⟨S50000, .f32⟩
  | 17 => ⟨S50000, .i1⟩
  | 18 => ⟨S_, .f32⟩
  | 19 => ⟨S50000, .f32⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S50000x256, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x256, .f32⟩
  | 55 => ⟨S850000x1, .f32⟩
  | 56 => ⟨S850000x256, .f32⟩
  | 57 => ⟨S850000x256, .f32⟩
  | 58 => ⟨S_, .f32⟩
  | 59 => ⟨S50000x256, .f32⟩
  | 60 => ⟨S850000x1, .i32⟩
  | 61 => ⟨S50000x256, .f32⟩
  | 62 => ⟨S1x256, .f32⟩
  | 63 => ⟨S50000x256, .f32⟩
  | 64 => ⟨S50000x256, .f32⟩
  | 65 => ⟨S_, .f32⟩
  | 66 => ⟨S50000x256, .f32⟩
  | 67 => ⟨S50000x256, .f32⟩
  | 68 => ⟨S50000, .i32⟩
  | 69 => ⟨S850000, .i32⟩
  | 70 => ⟨S850000, .i32⟩
  | 71 => ⟨S_, .f32⟩
  | 72 => ⟨S850000, .f32⟩
  | 73 => ⟨S_, .f32⟩
  | 74 => ⟨S50000, .f32⟩
  | 75 => ⟨S850000x1, .i32⟩
  | 76 => ⟨S50000, .f32⟩
  | 77 => ⟨S_, .f32⟩
  | 78 => ⟨S50000, .f32⟩
  | 79 => ⟨S50000, .i1⟩
  | 80 => ⟨S_, .f32⟩
  | 81 => ⟨S50000, .f32⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S50000x64, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x64, .f32⟩
  | 117 => ⟨S850000x1, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S50000x64, .f32⟩
  | 126 => ⟨S50000x64, .f32⟩
  | 127 => ⟨S50000x64, .f32⟩
  | _ => ⟨S50000x256, .f32⟩

abbrev hbmTy0_3 (i : Nat) : BufTy := match i % 128 with
  | 0 => ⟨S1x64, .f32⟩
  | 1 => ⟨S50000x64, .f32⟩
  | 2 => ⟨S50000x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S_, .f32⟩
  | 9 => ⟨S50000x64, .f32⟩
  | 10 => ⟨S50000x64, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v61 : Ref sig .tc := ⟨.hbm, 94, rfl⟩
abbrev main_c_15 : Ref sig .tc := ⟨.hbm, 95, rfl⟩
abbrev main_v62 : Ref sig .tc := ⟨.hbm, 96, rfl⟩
abbrev main_v63 : Ref sig .tc := ⟨.hbm, 97, rfl⟩
abbrev main_c_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_17 : Ref sig .tc := ⟨.hbm, 105, rfl⟩
abbrev main_v70 : Ref sig .tc := ⟨.hbm, 106, rfl⟩
abbrev main_v71 : Ref sig .tc := ⟨.hbm, 107, rfl⟩
abbrev main_c_18 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_19 : Ref sig .tc := ⟨.hbm, 116, rfl⟩
abbrev main_v79 : Ref sig .tc := ⟨.hbm, 117, rfl⟩
abbrev main_v80 : Ref sig .tc := ⟨.hbm, 118, rfl⟩
abbrev main_c_20 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_21 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call3_cst : Ref sig .tc := ⟨.hbm, 135, rfl⟩
abbrev main_call3_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_cst_23 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_24 : Ref sig .tc := ⟨.hbm, 147, rfl⟩
abbrev main_v103 : Ref sig .tc := ⟨.hbm, 148, rfl⟩
abbrev main_v104 : Ref sig .tc := ⟨.hbm, 149, rfl⟩
abbrev main_cst_25 : Ref sig .tc := ⟨.hbm, 150, rfl⟩
abbrev main_v105 : Ref sig .tc := ⟨.hbm, 151, rfl⟩
abbrev main_v106 : Ref sig .tc := ⟨.hbm, 152, rfl⟩
abbrev main_cst_26 : Ref sig .tc := ⟨.hbm, 153, rfl⟩
abbrev main_call4_v0 : Ref sig .tc := ⟨.hbm, 154, rfl⟩
abbrev main_call4_v1 : Ref sig .tc := ⟨.hbm, 155, rfl⟩
abbrev main_v107 : Ref sig .tc := ⟨.hbm, 156, rfl⟩
abbrev main_c_27 : Ref sig .tc := ⟨.hbm, 157, rfl⟩
abbrev main_v108 : Ref sig .tc := ⟨.hbm, 158, rfl⟩
abbrev main_v109 : Ref sig .tc := ⟨.hbm, 159, rfl⟩
abbrev main_c_28 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_29 : Ref sig .tc := ⟨.hbm, 167, rfl⟩
abbrev main_v116 : Ref sig .tc := ⟨.hbm, 168, rfl⟩
abbrev main_v117 : Ref sig .tc := ⟨.hbm, 169, rfl⟩
abbrev main_c_30 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_31 : Ref sig .tc := ⟨.hbm, 178, rfl⟩
abbrev main_v125 : Ref sig .tc := ⟨.hbm, 179, rfl⟩
abbrev main_v126 : Ref sig .tc := ⟨.hbm, 180, rfl⟩
abbrev main_c_32 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_33 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_call5_cst : Ref sig .tc := ⟨.hbm, 197, rfl⟩
abbrev main_call5_v0 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_34 : Ref sig .tc := ⟨.hbm, 203, rfl⟩
abbrev main_v145 : Ref sig .tc := ⟨.hbm, 204, rfl⟩
abbrev main_cst_35 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_36 : Ref sig .tc := ⟨.hbm, 209, rfl⟩
abbrev main_v149 : Ref sig .tc := ⟨.hbm, 210, rfl⟩
abbrev main_v150 : Ref sig .tc := ⟨.hbm, 211, rfl⟩
abbrev main_cst_37 : Ref sig .tc := ⟨.hbm, 212, rfl⟩
abbrev main_v151 : Ref sig .tc := ⟨.hbm, 213, rfl⟩
abbrev main_v152 : Ref sig .tc := ⟨.hbm, 214, rfl⟩
abbrev main_cst_38 : Ref sig .tc := ⟨.hbm, 215, rfl⟩
abbrev main_call6_v0 : Ref sig .tc := ⟨.hbm, 216, rfl⟩
abbrev main_call6_v1 : Ref sig .tc := ⟨.hbm, 217, rfl⟩
abbrev main_v153 : Ref sig .tc := ⟨.hbm, 218, rfl⟩
abbrev main_c_39 : Ref sig .tc := ⟨.hbm, 219, rfl⟩
abbrev main_v154 : Ref sig .tc := ⟨.hbm, 220, rfl⟩
abbrev main_v155 : Ref sig .tc := ⟨.hbm, 221, rfl⟩
abbrev main_c_40 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_c_41 : Ref sig .tc := ⟨.hbm, 229, rfl⟩
abbrev main_v162 : Ref sig .tc := ⟨.hbm, 230, rfl⟩
abbrev main_v163 : Ref sig .tc := ⟨.hbm, 231, rfl⟩
abbrev main_c_42 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_c_43 : Ref sig .tc := ⟨.hbm, 240, rfl⟩
abbrev main_v171 : Ref sig .tc := ⟨.hbm, 241, rfl⟩
abbrev main_v172 : Ref sig .tc := ⟨.hbm, 242, rfl⟩
abbrev main_c_44 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_cst_45 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_call7_cst : Ref sig .tc := ⟨.hbm, 259, rfl⟩
abbrev main_call7_v0 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_cst_46 : Ref sig .tc := ⟨.hbm, 265, rfl⟩
abbrev main_v191 : Ref sig .tc := ⟨.hbm, 266, rfl⟩
abbrev main_cst_47 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_cst_48 : Ref sig .tc := ⟨.hbm, 271, rfl⟩
abbrev main_v195 : Ref sig .tc := ⟨.hbm, 272, rfl⟩
abbrev main_v196 : Ref sig .tc := ⟨.hbm, 273, rfl⟩
abbrev main_cst_49 : Ref sig .tc := ⟨.hbm, 274, rfl⟩
abbrev main_v197 : Ref sig .tc := ⟨.hbm, 275, rfl⟩
abbrev main_v198 : Ref sig .tc := ⟨.hbm, 276, rfl⟩
abbrev main_cst_50 : Ref sig .tc := ⟨.hbm, 277, rfl⟩
abbrev main_call8_v0 : Ref sig .tc := ⟨.hbm, 278, rfl⟩
abbrev main_call8_v1 : Ref sig .tc := ⟨.hbm, 279, rfl⟩
abbrev main_v199 : Ref sig .tc := ⟨.hbm, 280, rfl⟩
abbrev main_c_51 : Ref sig .tc := ⟨.hbm, 281, rfl⟩
abbrev main_v200 : Ref sig .tc := ⟨.hbm, 282, rfl⟩
abbrev main_v201 : Ref sig .tc := ⟨.hbm, 283, rfl⟩
abbrev main_c_52 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_c_53 : Ref sig .tc := ⟨.hbm, 291, rfl⟩
abbrev main_v208 : Ref sig .tc := ⟨.hbm, 292, rfl⟩
abbrev main_v209 : Ref sig .tc := ⟨.hbm, 293, rfl⟩
abbrev main_c_54 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_c_55 : Ref sig .tc := ⟨.hbm, 302, rfl⟩
abbrev main_v217 : Ref sig .tc := ⟨.hbm, 303, rfl⟩
abbrev main_v218 : Ref sig .tc := ⟨.hbm, 304, rfl⟩
abbrev main_c_56 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_cst_57 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_call9_cst : Ref sig .tc := ⟨.hbm, 321, rfl⟩
abbrev main_call9_v0 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_cst_58 : Ref sig .tc := ⟨.hbm, 327, rfl⟩
abbrev main_v237 : Ref sig .tc := ⟨.hbm, 328, rfl⟩
abbrev main_cst_59 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_cst_60 : Ref sig .tc := ⟨.hbm, 333, rfl⟩
abbrev main_v241 : Ref sig .tc := ⟨.hbm, 334, rfl⟩
abbrev main_v242 : Ref sig .tc := ⟨.hbm, 335, rfl⟩
abbrev main_cst_61 : Ref sig .tc := ⟨.hbm, 336, rfl⟩
abbrev main_v243 : Ref sig .tc := ⟨.hbm, 337, rfl⟩
abbrev main_v244 : Ref sig .tc := ⟨.hbm, 338, rfl⟩
abbrev main_cst_62 : Ref sig .tc := ⟨.hbm, 339, rfl⟩
abbrev main_call10_v0 : Ref sig .tc := ⟨.hbm, 340, rfl⟩
abbrev main_call10_v1 : Ref sig .tc := ⟨.hbm, 341, rfl⟩
abbrev main_v245 : Ref sig .tc := ⟨.hbm, 342, rfl⟩
abbrev main_c_63 : Ref sig .tc := ⟨.hbm, 343, rfl⟩
abbrev main_v246 : Ref sig .tc := ⟨.hbm, 344, rfl⟩
abbrev main_v247 : Ref sig .tc := ⟨.hbm, 345, rfl⟩
abbrev main_c_64 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_c_65 : Ref sig .tc := ⟨.hbm, 353, rfl⟩
abbrev main_v254 : Ref sig .tc := ⟨.hbm, 354, rfl⟩
abbrev main_v255 : Ref sig .tc := ⟨.hbm, 355, rfl⟩
abbrev main_c_66 : Ref sig .tc := ⟨.hbm, 356, rfl⟩
abbrev main_v256 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_v261 : Ref sig .tc := ⟨.hbm, 362, rfl⟩
abbrev main_v262 : Ref sig .tc := ⟨.hbm, 363, rfl⟩
abbrev main_c_67 : Ref sig .tc := ⟨.hbm, 364, rfl⟩
abbrev main_v263 : Ref sig .tc := ⟨.hbm, 365, rfl⟩
abbrev main_v264 : Ref sig .tc := ⟨.hbm, 366, rfl⟩
abbrev main_c_68 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_v269 : Ref sig .tc := ⟨.hbm, 372, rfl⟩
abbrev main_v270 : Ref sig .tc := ⟨.hbm, 373, rfl⟩
abbrev main_v271 : Ref sig .tc := ⟨.hbm, 374, rfl⟩
abbrev main_v272 : Ref sig .tc := ⟨.hbm, 375, rfl⟩
abbrev main_cst_69 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_v284 : Ref sig .tc := ⟨.hbm, 388, rfl⟩
abbrev main_cst_70 : Ref sig .tc := ⟨.hbm, 389, rfl⟩
abbrev main_v285 : Ref sig .tc := ⟨.hbm, 390, rfl⟩
abbrev main_v286 : Ref sig .tc := ⟨.hbm, 391, rfl⟩
abbrev main_cst_71 : Ref sig .tc := ⟨.hbm, 392, rfl⟩
abbrev main_v287 : Ref sig .tc := ⟨.hbm, 393, rfl⟩
abbrev main_v288 : Ref sig .tc := ⟨.hbm, 394, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The mathematics both programs compute, by coordinates, over the extended reals.

  A graph on 50000 nodes is given by 800000 edge words: edge e has a source word and a target word (signed 32-bit
  integers, unconstrained). A source word is read as a node the way both programs gather: a negative word is
  shifted up by 50000, and the result is clamped into the node range ("pos"). A target word w "hits" node n
  when its signed value is n; an edge whose target hits no node contributes nowhere (scatter-add drops it).

  deg n  = (number of edges whose target hits n) + 1,  dinv n = deg n ^ (-1/2)  (0 where deg n is not positive).
  One graph convolution of a feature matrix h, with the self-loop split off the edge sum:
      agg h n d = dinv n * (sum over edges e hitting n of h (src e) d * dinv (src e)) + (dinv n * dinv n) * h n d.
  The network: six such convolutions of row-by-weight products (bias and relu between them), then a dense layer
  and the logistic function.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The number of nodes and of edges. -/
abbrev NN : Nat := 50000
abbrev EE : Nat := 800000

/-- The three float literals the degree normalisation uses, as the words both programs print: 0, 1 and -1/2. -/
def zeroW : EReal := Ideal.ofBits .f32 0x00000000#32
def oneW : EReal := Ideal.ofBits .f32 0x3F800000#32
def mhalfW : EReal := Ideal.ofBits .f32 0xBF000000#32

/-- A negative index word is shifted up by the number of nodes; any other word is kept. -/
def wrapW (w : BitVec 32) : BitVec 32 := Scalar.select (IntOp.cmpi .slt w 0#32) (IntOp.addi w 50000#32) w

/-- The node a (wrapped) index word is gathered from: its signed value clamped into the node range. -/
def pos (w : BitVec 32) : Fin NN :=
  ⟨min (wrapW w).toInt.toNat 49999, by
    have := Nat.min_le_right (wrapW w).toInt.toNat 49999
    show _ < 50000
    omega⟩

section Graph

variable (rw cw : Fin EE → BitVec 32)

/-- One more than the number of edges whose target word hits node n. -/
def deg (n : Fin NN) : EReal :=
  (zeroW + ∑ e : Fin EE, if (cw e).toInt = (n.val : Int) then oneW else 0) + oneW

/-- The inverse square root of the degree where it is positive, else 0. -/
def dinv (n : Fin NN) : EReal :=
  Scalar.select (Ideal.cmp .ogt (deg cw n) zeroW) (Ideal.pow (deg cw n) mhalfW) zeroW

/-- One normalised aggregation of h over the graph, the self-loop as its own term. -/
def agg {D : Nat} (h : Fin NN → Fin D → EReal) (n : Fin NN) (d : Fin D) : EReal :=
  dinv cw n * (zeroW + ∑ e : Fin EE, if (cw e).toInt = (n.val : Int) then h (pos (rw e)) d * dinv cw (pos (rw e)) else 0)
    + (dinv cw n * dinv cw n) * h n d

end Graph

/-- Rows of x against the columns of w. -/
def mm {A K D : Nat} (x : Fin A → Fin K → EReal) (w : Fin K → Fin D → EReal) (n : Fin A) (d : Fin D) : EReal :=
  ∑ k : Fin K, x n k * w k d

/-- A bias added along the rows, then the positive part. -/
def biasRelu {A K : Nat} (a : Fin A → Fin K → EReal) (b : Fin K → EReal) (n : Fin A) (k : Fin K) : EReal :=
  max (a n k + b k) zeroW

section Chain

variable (X : Fin NN → Fin 256 → EReal) (W1 : Fin 256 → Fin 256 → EReal) (b1 : Fin 256 → EReal)
  (W2 : Fin 256 → Fin 256 → EReal) (b2 : Fin 256 → EReal) (W3 : Fin 256 → Fin 64 → EReal) (b3 : Fin 64 → EReal)
  (W4 : Fin 64 → Fin 64 → EReal) (b4 : Fin 64 → EReal) (rw cw : Fin EE → BitVec 32)

/-- The six convolutions' results before their own bias: a1 from the inputs, each later one from the previous
    one with its bias and relu applied, the middle four sharing one weight matrix. -/
def a1 : Fin NN → Fin 256 → EReal := agg rw cw (mm X W1)
def a2 : Fin NN → Fin 256 → EReal := agg rw cw (mm (biasRelu (a1 X W1 rw cw) b1) W2)
def a3 : Fin NN → Fin 256 → EReal := agg rw cw (mm (biasRelu (a2 X W1 b1 W2 rw cw) b2) W2)
def a4 : Fin NN → Fin 256 → EReal := agg rw cw (mm (biasRelu (a3 X W1 b1 W2 b2 rw cw) b2) W2)
def a5 : Fin NN → Fin 256 → EReal := agg rw cw (mm (biasRelu (a4 X W1 b1 W2 b2 rw cw) b2) W2)
def a6 : Fin NN → Fin 64 → EReal := agg rw cw (mm (biasRelu (a5 X W1 b1 W2 b2 rw cw) b2) W3)

/-- The network's result: the last convolution with its bias (no relu), a dense layer with its bias, the logistic
    function. -/
def out (n : Fin NN) (d : Fin 64) : EReal :=
  Ideal.logistic (mm (fun p k => a6 X W1 b1 W2 b2 W3 rw cw p k + b3 k) W4 n d + b4 d)

end Chain

end Cert.Spec

end
-- ==== Proof.LibERealFactor.lean ====
/-
  A general lemma file: moving a factor across a finite sum of EXTENDED reals without knowing the summands are real.

  On the extended reals `(a + b) · v = a · v + b · v` fails in general (`(⊤ + ⊥) · v`), and the usual road to
  distributivity goes through the reals, which asks every summand to be finite. When the FACTOR is nonnegative and
  finite the law holds for arbitrary summands, hence for any finite sum (`sum_mul_nonneg`, `mul_sum_nonneg`). Such a
  factor is, for instance, an inverse square root of a positive extended real (`rsqrt_nonneg_fin`: `1/√x` for a
  positive real, `0` at `+∞`), the degree normalisation of a graph convolution.
-/
import Idealize.ShloMosaic.PureOps.Ideal

noncomputable section

open scoped BigOperators

namespace Cert.LibERealFactor

open Idealize.ShloMosaic

/-- A nonnegative finite factor on the right moves across a finite sum of extended reals, whatever the summands. -/
theorem sum_mul_nonneg {ι : Type*} (s : Finset ι) (f : ι → EReal) (v : EReal) (h0 : 0 ≤ v) (ht : v ≠ ⊤) :
    (∑ e ∈ s, f e) * v = ∑ e ∈ s, f e * v := by
  classical
  induction s using Finset.induction_on with
  | empty => simp
  | insert a s ha ih =>
    rw [Finset.sum_insert ha, Finset.sum_insert ha, ← ih]
    exact EReal.right_distrib_of_nonneg_of_ne_top h0 ht _ _

/-- The same with the factor on the left. -/
theorem mul_sum_nonneg {ι : Type*} (s : Finset ι) (f : ι → EReal) (v : EReal) (h0 : 0 ≤ v) (ht : v ≠ ⊤) :
    v * ∑ e ∈ s, f e = ∑ e ∈ s, v * f e := by
  rw [mul_comm, sum_mul_nonneg s f v h0 ht]
  exact Finset.sum_congr rfl fun e _ => mul_comm _ _

/-- The inverse square root of a positive extended real is nonnegative and finite (`0` at `+∞`). -/
theorem rsqrt_nonneg_fin (x : EReal) (hx : 0 < x) : 0 ≤ Ideal.rsqrt x ∧ Ideal.rsqrt x ≠ ⊤ := by
  induction x using EReal.rec with
  | bot => exact absurd hx (by simp)
  | top => exact ⟨le_refl _, by simp⟩
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

end Cert.LibERealFactor

end
-- ==== Proof.Law.lean ====
/-
  The law that joins the two programs.

  The reference appends one self-loop per node to the edge list and weights edge e by dinv (src e) * 1 * dinv (tgt e);
  its degree counts the appended loops. Splitting the sum over the appended list into the edges and the loops:
  the loops contribute exactly the node's own term (loop j hits n iff j = n), and on an edge that hits n the target's
  weight is dinv n, a nonnegative real, which therefore moves out of the edge sum whatever the summands are. Nothing
  else is used: sums and products of extended reals are commutative and associative everywhere.
-/
import proofs.«152131_j81492709475036_2_alg».proof.Proof.Spec
import proofs.«152131_j81492709475036_2_alg».proof.Proof.LibERealFactor

noncomputable section

open scoped BigOperators

namespace Cert.Spec

open Idealize.ShloMosaic

/-! ## The literals -/

theorem zeroW_eq : zeroW = 0 := Ideal.ofBits_zero_f32

theorem oneW_eq : oneW = 1 := by
  unfold oneW; simp [Ideal.ofBits, Ideal.ieee, -EReal.coe_mul]; norm_num

theorem mhalfW_eq : mhalfW = ((-(1 / 2) : ℝ) : EReal) := by
  unfold mhalfW; simp [Ideal.ofBits, Ideal.ieee, -EReal.coe_mul]; norm_num

/-! ## Index words -/

/-- A word whose signed value is a node is gathered from that node: it is not negative, so it is kept, and it is
    inside the node range, so the clamp does nothing. -/
theorem pos_of_hit (w : BitVec 32) (n : Fin NN) (h : w.toInt = (n.val : Int)) : pos w = n := by
  have hn : n.val < 50000 := n.isLt
  have hnot : ¬ w.slt 0#32 := by
    simp only [BitVec.slt, BitVec.toInt_zero, decide_eq_true_eq]; omega
  have hw : wrapW w = w := by
    unfold wrapW Scalar.select IntOp.cmpi
    simp [hnot]
  apply Fin.ext
  show min (wrapW w).toInt.toNat 49999 = n.val
  rw [hw, h]; simp; omega

/-- The word of a node number is that node. -/
theorem toInt_ofNat_node (j : Fin NN) : (BitVec.ofNat 32 j.val).toInt = (j.val : Int) := by
  have hj : j.val < 50000 := j.isLt
  have hm : j.val % 2 ^ 32 = j.val := Nat.mod_eq_of_lt (by omega)
  rw [BitVec.toInt_eq_toNat_cond, BitVec.toNat_ofNat, hm]
  split <;> omega

/-! ## The degree is a nonnegative real, so its inverse square root is one -/

theorem count_real_on {ι : Type} (s : Finset ι) (p : ι → Prop) [DecidablePred p] :
    ∃ r : ℝ, 0 ≤ r ∧ (∑ e ∈ s, if p e then oneW else 0) = (r : EReal) := by
  classical
  induction s using Finset.induction_on with
  | empty => exact ⟨0, le_refl _, by simp⟩
  | insert a s ha ih =>
    obtain ⟨r, hr, hs⟩ := ih
    rw [Finset.sum_insert ha, hs]
    by_cases hp : p a
    · refine ⟨1 + r, by linarith, ?_⟩
      rw [if_pos hp, oneW_eq, EReal.coe_add, EReal.coe_one]
    · refine ⟨r, hr, ?_⟩
      rw [if_neg hp, zero_add]

/-- A count of indicator terms over a finite type is a nonnegative real. -/
theorem count_real {ι : Type} [Fintype ι] (p : ι → Prop) [DecidablePred p] :
    ∃ r : ℝ, 0 ≤ r ∧ (∑ e : ι, if p e then oneW else 0) = (r : EReal) := count_real_on Finset.univ p

/-- A single index picked out of a sum over the nodes. -/
theorem sum_pick (f : Fin NN → EReal) (n : Fin NN) : (∑ j : Fin NN, if j = n then f j else 0) = f n := by
  rw [Finset.sum_ite_eq' Finset.univ n f, if_pos (Finset.mem_univ _)]

theorem dinv_nonneg_fin (cw : Fin EE → BitVec 32) (n : Fin NN) : 0 ≤ dinv cw n ∧ dinv cw n ≠ ⊤ := by
  obtain ⟨r, hr, hs⟩ := count_real (fun e : Fin EE => (cw e).toInt = (n.val : Int))
  have hdeg : deg cw n = ((r + 1 : ℝ) : EReal) := by
    unfold deg; rw [hs, zeroW_eq, oneW_eq, zero_add, EReal.coe_add, EReal.coe_one]
  unfold dinv Scalar.select
  rw [hdeg]
  split
  · rw [mhalfW_eq]
    show 0 ≤ ((Real.rpow (r + 1) (-(1 / 2)) : ℝ) : EReal) ∧ ((Real.rpow (r + 1) (-(1 / 2)) : ℝ) : EReal) ≠ ⊤
    exact ⟨by exact_mod_cast Real.rpow_nonneg (by linarith) _, EReal.coe_ne_top _⟩
  · rw [zeroW_eq]; exact ⟨le_refl _, EReal.zero_ne_top⟩

/-! ## The reference's form: self-loops appended to the edge list -/

section Appended

variable (rw cw : Fin EE → BitVec 32)

/-- The edge words with the node numbers appended (one loop per node). -/
def app (f : Fin EE → BitVec 32) (e : Fin (EE + NN)) : BitVec 32 :=
  if h : e.val < EE then f ⟨e.val, h⟩ else BitVec.ofNat 32 (e.val - EE)

theorem app_edge (f : Fin EE → BitVec 32) (e : Fin EE) : app f (Fin.castAdd NN e) = f e := by
  unfold app; rw [dif_pos (by simpa using e.isLt)]; rfl

theorem app_loop (f : Fin EE → BitVec 32) (j : Fin NN) : app f (Fin.natAdd EE j) = BitVec.ofNat 32 j.val := by
  unfold app; rw [dif_neg (by simp)]; simp

/-- The degree counted over the appended list. -/
def degR (n : Fin NN) : EReal :=
  zeroW + ∑ e : Fin (EE + NN), if (app cw e).toInt = (n.val : Int) then oneW else 0

def dinvR (n : Fin NN) : EReal :=
  Scalar.select (Ideal.cmp .ogt (degR cw n) zeroW) (Ideal.pow (degR cw n) mhalfW) zeroW

/-- One aggregation over the appended list, each edge weighted by both ends' inverse square roots. -/
def aggR {D : Nat} (h : Fin NN → Fin D → EReal) (n : Fin NN) (d : Fin D) : EReal :=
  zeroW + ∑ e : Fin (EE + NN), if (app cw e).toInt = (n.val : Int)
    then h (pos (app rw e)) d * ((dinvR cw (pos (app rw e)) * oneW) * dinvR cw (pos (app cw e))) else 0

/-- Loop j hits node n exactly when j = n. -/
theorem loop_hit (j n : Fin NN) : ((BitVec.ofNat 32 j.val).toInt = (n.val : Int)) ↔ j = n := by
  rw [toInt_ofNat_node]; constructor
  · intro h; exact Fin.ext (by exact_mod_cast h)
  · intro h; rw [h]

theorem degR_eq (n : Fin NN) : degR cw n = deg cw n := by
  unfold degR deg
  rw [Fin.sum_univ_add]
  simp only [app_edge, app_loop, loop_hit]
  rw [sum_pick (fun _ => oneW) n, add_assoc]

theorem dinvR_eq (n : Fin NN) : dinvR cw n = dinv cw n := by
  unfold dinvR dinv; rw [degR_eq]

theorem aggR_eq {D : Nat} (h : Fin NN → Fin D → EReal) (n : Fin NN) (d : Fin D) :
    aggR rw cw h n d = agg rw cw h n d := by
  obtain ⟨h0, ht⟩ := dinv_nonneg_fin cw n
  unfold aggR agg
  rw [Fin.sum_univ_add]
  simp only [app_edge, app_loop, loop_hit, dinvR_eq]
  rw [sum_pick, pos_of_hit _ n (toInt_ofNat_node n)]
  rw [zeroW_eq, oneW_eq, zero_add, zero_add, LibERealFactor.mul_sum_nonneg _ _ _ h0 ht]
  refine congrArg₂ (· + ·) ?_ ?_
  · refine Finset.sum_congr rfl fun e _ => ?_
    by_cases hh : (cw e).toInt = (n.val : Int)
    · rw [if_pos hh, if_pos hh, pos_of_hit _ n hh, mul_one]
      generalize h (pos (rw e)) d = a
      generalize dinv cw (pos (rw e)) = b
      generalize dinv cw n = c
      rw [← mul_assoc, mul_comm]
    · rw [if_neg hh, if_neg hh, mul_zero]
  · rw [mul_one, mul_comm]

end Appended

end Cert.Spec

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.RWords.lean ====
/-
  The reference's index words, by coordinates: the source and target words of the edges are rows 0 and 1 of the edge
  array; the reference appends the node numbers to both lists (one self-loop per node) and wraps a negative word by
  the number of nodes before it gathers with it.
-/
import proofs.«152131_j81492709475036_2_alg».proof.ReferenceIdeal
import proofs.«152131_j81492709475036_2_alg».proof.Proof.Gen.ReferenceIdeal
import proofs.«152131_j81492709475036_2_alg».proof.Proof.Law
import proofs.«152131_j81492709475036_2_alg».proof.Proof.LibHostKeepdims
import Idealize.ShloMosaic.Lib.Pipeline.Value
import Idealize.ShloMosaic.Lib.ValueIdx

noncomputable section

namespace Cert.ReferenceIdeal.RForm

open Cert.ReferenceIdeal Cert.ReferenceIdeal.Gen
open Idealize.ShloMosaic Idealize.ShloMosaic.ValueIdx

abbrev I2E := IVec S2x800000 32
abbrev IE := IVec S800000 32
abbrev IEN := IVec S850000 32
abbrev IEN1 := IVec S850000x1 32

variable (x1 : I2E)

/-- Row 0 and row 1 of the edge array, as vectors. -/
def rowV : IE :=
  shapeCast _ (extractStridedSlice S1x800000 ![0, 0] x1 slices_S2x800000_S1x800000_0_0) shapeCasts_S1x800000_S800000
def colV : IE :=
  shapeCast _ (extractStridedSlice S1x800000 ![1, 0] x1 slices_S2x800000_S1x800000_1_0) shapeCasts_S1x800000_S800000

theorem rowV_apply (e : Fin 800000) : rowV x1 (ix1 e) = x1 (ix2 (0 : Fin 2) e) := by
  unfold rowV
  generalize hy : extractStridedSlice S1x800000 ![0, 0] x1 slices_S2x800000_S1x800000_0_0 = y
  rw [shapeCast_apply y shapeCasts_S1x800000_S800000 (ix1 e) (ix2 (0 : Fin 1) e)
    (by rewrite [Shape.rowMajor_val_two, Shape.rowMajor_val_one]; show 0 * 800000 + e.val = e.val; omega)]
  subst hy
  exact extractStridedSlice_apply ![0, 0] x1 slices_S2x800000_S1x800000_0_0 (ix2 (0 : Fin 1) e) (ix2 (0 : Fin 2) e)
    (fun a => match a with
      | ⟨0, _⟩ => by show (0 : Nat) = 0 + 0; rfl
      | ⟨1, _⟩ => by show e.val = 0 + e.val; omega)

theorem colV_apply (e : Fin 800000) : colV x1 (ix1 e) = x1 (ix2 (1 : Fin 2) e) := by
  unfold colV
  generalize hy : extractStridedSlice S1x800000 ![1, 0] x1 slices_S2x800000_S1x800000_1_0 = y
  rw [shapeCast_apply y shapeCasts_S1x800000_S800000 (ix1 e) (ix2 (0 : Fin 1) e)
    (by rewrite [Shape.rowMajor_val_two, Shape.rowMajor_val_one]; show 0 * 800000 + e.val = e.val; omega)]
  subst hy
  exact extractStridedSlice_apply ![1, 0] x1 slices_S2x800000_S1x800000_1_0 (ix2 (0 : Fin 1) e) (ix2 (1 : Fin 2) e)
    (fun a => match a with
      | ⟨0, _⟩ => by show (1 : Nat) = 1 + 0; rfl
      | ⟨1, _⟩ => by show e.val = 0 + e.val; omega)

/-- A vector of edge words with the node numbers appended. -/
def cat (v : IE) : IEN :=
  concatenate S850000 0 [⟨S800000, v⟩, ⟨S50000, iotaInDim S50000 32 0⟩] concatenates_S800000_S50000_S850000_d0

theorem cat_apply (v : IE) (f : Fin 800000 → BitVec 32) (hv : ∀ e, v (ix1 e) = f e) (e : Fin 850000) :
    cat v (ix1 e) = Cert.Spec.app f e := by
  unfold cat Cert.Spec.app
  by_cases h : e.val < 800000
  · rw [dif_pos h]
    rw [concatenate_pair_apply_left (t := S850000) (s₁ := S800000) (s₂ := S50000) (0 : Fin 1) v (iotaInDim S50000 32 0) concatenates_S800000_S50000_S850000_d0 (ix1 e) rfl (ix1 ⟨e.val, h⟩)
      (fun b => by match b with | ⟨0, _⟩ => rfl)]
    exact hv _
  · rw [dif_neg h]
    have he : e.val < 850000 := e.isLt
    rw [concatenate_pair_apply_right (t := S850000) (s₁ := S800000) (s₂ := S50000) (0 : Fin 1) v (iotaInDim S50000 32 0) concatenates_S800000_S50000_S850000_d0 (ix1 e) rfl rfl
      (ix1 ⟨e.val - 800000, by omega⟩) (fun b hb => absurd (Subsingleton.elim _ _) hb)
      (by show (e.val - 800000) + 800000 = e.val; omega)]
    rfl

/-- A negative word shifted up by the number of nodes, elementwise. -/
def wrapV (v : IEN) : IEN :=
  select (cmpi .slt v (broadcastInDim S850000 ![] bcast_S_S850000 (constantI S_ 32 0#32)))
    (addi v (broadcastInDim S850000 ![] bcast_S_S850000 (constantI S_ 32 50000#32))) v

theorem wrapV_apply (v : IEN) (i : S850000.Idx) : wrapV v i = Cert.Spec.wrapW (v i) := by
  unfold wrapV Cert.Spec.wrapW
  rw [select_apply]
  show Scalar.select (IntOp.cmpi .slt (v i) (broadcastInDim S850000 ![] bcast_S_S850000 (constantI S_ 32 0#32) i))
    (IntOp.addi (v i) (broadcastInDim S850000 ![] bcast_S_S850000 (constantI S_ 32 50000#32) i)) (v i) = _
  rw [broadcastInDim_scalar_apply, broadcastInDim_scalar_apply]
  rfl

/-- A vector as a one-column matrix of start indices. -/
def col1 (v : IEN) : IEN1 := broadcastInDim S850000x1 ![0] bcast_S850000_S850000x1_0 v

theorem col1_apply (v : IEN) (e : Fin 850000) : col1 v (ix2 e (0 : Fin 1)) = v (ix1 e) := by
  unfold col1
  exact broadcastInDim_a_a1_apply _ bcast_S850000_S850000x1_0 rfl v e 0

end Cert.ReferenceIdeal.RForm

end
-- ==== Proof.LibScatterAdd.lean ====
/-
  A float scatter-add on the host (jax's `.at[idx].add(v)`, `jax.ops.segment_sum`), read at the exact instance by
  coordinates.

  The exact instance gives a scatter-add as: each operand element plus the sum of the update elements whose
  result index is that element, the start index read signed and not clamped, an update that lands outside the
  operand dropped. For the two layouts a segment sum prints in — a vector of updates `[E]` added into a vector
  `[N]`, and rows `[E, C]` added into a matrix `[N, C]`, both at start indices `[E, 1]` along axis 0 — this file
  says when update `e` lands on element `n` (exactly when the signed start index of `e` is `n`), and reads the
  scatter at an index as the operand there plus `∑ e, if start e = n then update e else 0`.

  The last lemma is the counting fact a full sum over segments rests on: when every key lies in `[0, N)`, the
  segment sums over all `N` segments add up to the plain sum of the updates.

  Everything is stated for any dimension-number record with the printed list fields (each hypothesis is closed
  by `rfl` at a printed record) and any extents `N`, `E`, `C`.
-/
import Idealize.ShloMosaic.PureOps.Ideal
import Idealize.ShloMosaic.PureOps.Ideal.Laws
import Idealize.ShloMosaic.Lib.ValueIdx

noncomputable section
open Idealize.ShloMosaic Idealize.ShloMosaic.ValueIdx

namespace Cert.LibScatterAdd

variable {N E C : Nat}

/-! ## A vector operand: updates `[E]` added into `[N]` at `[E, 1]` start indices -/

section Vec

variable (d : ScatterDims ⟨1, ![N]⟩ ⟨2, ![E, 1]⟩ ⟨1, ![E]⟩)
  (huw : d.updateWindowDims = []) (hiw : d.insertedWindowDims = [0]) (hsd : d.scatterDimsToOperandDims = [0])
  (hiv : d.indexVectorDim = 1)
include huw hiw hsd hiv

/-- The window of update `j` starts at the signed value of start index `(j, 0)`. -/
theorem start_vec {w : Nat} (j : (⟨1, ![E]⟩ : Shape).Idx) (idx : IVec ⟨2, ![E, 1]⟩ w) (a : Fin 1) :
    d.start j idx a = (idx (ix2 (j 0) 0)).toInt := by
  obtain ⟨uw, iw, sdto, ivd, wf⟩ := d
  simp only at huw hiw hsd hiv
  subst huw hiw hsd hiv
  have ha : a = 0 := Subsingleton.elim _ _
  subst ha
  unfold ScatterDims.start
  simp only [List.mem_singleton, dite_true]
  refine congrArg (fun k => (idx k).toInt) ?_
  funext b
  match b with
  | ⟨0, _⟩ => rfl
  | ⟨1, _⟩ => rfl

/-- The operand's one axis is an inserted window axis: the window coordinate on it is zero. -/
theorem window_vec (j : (⟨1, ![E]⟩ : Shape).Idx) (a : Fin 1) : d.window j a = 0 := by
  obtain ⟨uw, iw, sdto, ivd, wf⟩ := d
  simp only at huw hiw hsd hiv
  subst huw hiw hsd hiv
  have ha : a = 0 := Subsingleton.elim _ _
  subst ha
  unfold ScatterDims.window
  rw [dif_neg]
  simp [ScatterDims.sKept, Shape.kept]

/-- Update `j` lands on element `i` exactly when its signed start index is `i` (an index outside `[0, N)` lands
    nowhere). -/
theorem resultIdx?_vec {w : Nat} (j : (⟨1, ![E]⟩ : Shape).Idx) (idx : IVec ⟨2, ![E, 1]⟩ w) (i : (⟨1, ![N]⟩ : Shape).Idx) :
    d.resultIdx? j idx = some i ↔ (idx (ix2 (j 0) 0)).toInt = ((i 0).val : Int) := by
  have hs := start_vec d huw hiw hsd hiv j idx
  have hw := window_vec d huw hiw hsd hiv j
  unfold ScatterDims.resultIdx?
  split
  · rename_i h
    rw [Option.some.injEq]
    constructor
    · intro hf
      have h0 := congrArg (fun f => ((f 0 : Fin N) : Nat)) hf
      simp only [hs, hw] at h0 h
      have := (h 0).1
      omega
    · intro hv
      funext a
      have ha : a = 0 := Subsingleton.elim _ _
      subst ha
      apply Fin.ext
      simp only [hs, hw]
      omega
  · rename_i h
    constructor
    · intro hf; exact absurd hf (by simp)
    · intro hv
      exfalso; apply h
      intro a
      have ha : a = 0 := Subsingleton.elim _ _
      subst ha
      rw [hs, hw]
      have hlt : ((i 0).val : Nat) < N := (i 0).isLt
      constructor
      · omega
      · show _ < ((N : Nat) : Int)
        omega

/-- Rank-1 indices are the positions. -/
def idx1Equiv (n : Nat) : (⟨1, ![n]⟩ : Shape).Idx ≃ Fin n where
  toFun j := j 0
  invFun := ix1
  left_inv j := (eq_ix1 j).symm
  right_inv _ := rfl

/-- The scatter-add of a vector of updates, at element `i`: the operand there plus the updates whose signed start
    index is `i`. -/
theorem scatterAdd_vec_apply {w : Nat} {φ : FTy} (x : FVec Ideal ⟨1, ![N]⟩ φ) (idx : IVec ⟨2, ![E, 1]⟩ w)
    (upd : FVec Ideal ⟨1, ![E]⟩ φ) (i : (⟨1, ![N]⟩ : Shape).Idx) :
    Host.scatterAdd (F := Ideal) d x idx upd i
      = x i + ∑ e : Fin E, if (idx (ix2 e 0)).toInt = ((i 0).val : Int) then upd (ix1 e) else 0 := by
  unfold Host.scatterAdd
  rw [Ideal.hostScatterAdd_def]
  unfold Ideal.hostScatterAdd
  congr 1
  rw [Finset.sum_filter]
  refine Fintype.sum_equiv (idx1Equiv E) _ _ (fun j => ?_)
  simp only [resultIdx?_vec d huw hiw hsd hiv j idx i]
  rw [eq_ix1 j]
  rfl

end Vec

/-! ## A matrix operand: rows `[E, C]` added into `[N, C]` at `[E, 1]` start rows -/

section Rows

variable (d : ScatterDims ⟨2, ![N, C]⟩ ⟨2, ![E, 1]⟩ ⟨2, ![E, C]⟩)
  (huw : d.updateWindowDims = [1]) (hiw : d.insertedWindowDims = [0]) (hsd : d.scatterDimsToOperandDims = [0])
  (hiv : d.indexVectorDim = 1)
include huw hiw hsd hiv

/-- On the row axis the window of update `j` starts at the signed value of start index `(j 0, 0)`. -/
theorem start_rows0 {w : Nat} (j : (⟨2, ![E, C]⟩ : Shape).Idx) (idx : IVec ⟨2, ![E, 1]⟩ w) :
    d.start j idx 0 = (idx (ix2 (j 0) 0)).toInt := by
  obtain ⟨uw, iw, sdto, ivd, wf⟩ := d
  simp only at huw hiw hsd hiv
  subst huw hiw hsd hiv
  unfold ScatterDims.start
  simp only [List.mem_singleton, dite_true]
  refine congrArg (fun k => (idx k).toInt) ?_
  funext b
  match b with
  | ⟨0, _⟩ => rfl
  | ⟨1, _⟩ => rfl

/-- On the column axis, which the start indices do not name, the window starts at zero. -/
theorem start_rows1 {w : Nat} (j : (⟨2, ![E, C]⟩ : Shape).Idx) (idx : IVec ⟨2, ![E, 1]⟩ w) :
    d.start j idx 1 = 0 := by
  obtain ⟨uw, iw, sdto, ivd, wf⟩ := d
  simp only at huw hiw hsd hiv
  subst huw hiw hsd hiv
  unfold ScatterDims.start
  rw [dif_neg]
  simp

/-- The row axis is an inserted window axis: the window coordinate on it is zero. -/
theorem window_rows0 (j : (⟨2, ![E, C]⟩ : Shape).Idx) : d.window j 0 = 0 := by
  obtain ⟨uw, iw, sdto, ivd, wf⟩ := d
  simp only at huw hiw hsd hiv
  subst huw hiw hsd hiv
  unfold ScatterDims.window
  rw [dif_neg]
  simp [ScatterDims.sKept, Shape.kept]

/-- The column axis carries the update's window: the window coordinate on it is the update's column. -/
theorem window_rows1 (j : (⟨2, ![E, C]⟩ : Shape).Idx) : d.window j 1 = (j 1).val := by
  obtain ⟨uw, iw, sdto, ivd, wf⟩ := d
  simp only at huw hiw hsd hiv
  subst huw hiw hsd hiv
  unfold ScatterDims.window
  rw [dif_pos (by simp [ScatterDims.sKept, Shape.kept])]
  rfl

/-- Update `(e, q)` lands on element `(n, c)` exactly when the signed start index of row `e` is `n` and `q = c`. -/
theorem resultIdx?_rows {w : Nat} (j : (⟨2, ![E, C]⟩ : Shape).Idx) (idx : IVec ⟨2, ![E, 1]⟩ w)
    (i : (⟨2, ![N, C]⟩ : Shape).Idx) :
    d.resultIdx? j idx = some i ↔ (idx (ix2 (j 0) 0)).toInt = ((i 0).val : Int) ∧ j 1 = i 1 := by
  have hs0 := start_rows0 d huw hiw hsd hiv j idx
  have hs1 := start_rows1 d huw hiw hsd hiv j idx
  have hw0 := window_rows0 d huw hiw hsd hiv j
  have hw1 := window_rows1 d huw hiw hsd hiv j
  have hi0 : ((i 0).val : Nat) < N := (i 0).isLt
  have hj1 : ((j 1).val : Nat) < C := (j 1).isLt
  unfold ScatterDims.resultIdx?
  split
  · rename_i h
    rw [Option.some.injEq]
    constructor
    · intro hf
      have h0 := congrArg (fun f => ((f 0 : Fin N) : Nat)) hf
      have h1 := congrArg (fun f => ((f 1 : Fin C) : Nat)) hf
      simp only [hs0, hs1, hw0, hw1] at h0 h1
      have := (h 0).1
      rw [hs0, hw0] at this
      refine ⟨by omega, Fin.ext ?_⟩
      show ((j 1).val : Nat) = (i 1).val
      omega
    · rintro ⟨hv, h1⟩
      have h1' : ((j 1).val : Nat) = (i 1).val := congrArg Fin.val h1
      funext a
      match a with
      | ⟨0, _⟩ =>
        apply Fin.ext
        show (d.start j idx 0 + ((d.window j 0 : Nat) : Int)).toNat = (i 0).val
        rw [hs0, hw0]; omega
      | ⟨1, _⟩ =>
        apply Fin.ext
        show (d.start j idx 1 + ((d.window j 1 : Nat) : Int)).toNat = (i 1).val
        rw [hs1, hw1]; omega
  · rename_i h
    constructor
    · intro hf; exact absurd hf (by simp)
    · rintro ⟨hv, h1⟩
      exfalso; apply h
      intro a
      match a with
      | ⟨0, _⟩ =>
        show 0 ≤ d.start j idx 0 + ((d.window j 0 : Nat) : Int) ∧ d.start j idx 0 + ((d.window j 0 : Nat) : Int) < ((N : Nat) : Int)
        rw [hs0, hw0]; omega
      | ⟨1, _⟩ =>
        show 0 ≤ d.start j idx 1 + ((d.window j 1 : Nat) : Int) ∧ d.start j idx 1 + ((d.window j 1 : Nat) : Int) < ((C : Nat) : Int)
        rw [hs1, hw1]; omega

/-- The scatter-add of rows, at element `(n, c)`: the operand there plus column `c` of the update rows whose signed
    start index is `n`. -/
theorem scatterAdd_rows_apply {w : Nat} {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl (fun e _ => ?_)
  have hiff := fun b : Fin C => resultIdx?_rows d huw hiw hsd hiv (ix2 e b) idx (ix2 n c)
  by_cases hA : (idx (ix2 e 0)).toInt = (n.val : Int)
  · rw [if_pos hA, Finset.sum_eq_single c]
    · exact if_pos ((hiff c).2 ⟨hA, rfl⟩)
    · intro b _ hbc
      exact if_neg (fun h => hbc ((hiff b).1 h).2)
    · intro h; exact absurd (Finset.mem_univ c) h
  · rw [if_neg hA]
    exact Finset.sum_eq_zero (fun b _ => if_neg (fun h => hA ((hiff b).1 h).1))

end Rows

/-! ## Summing a segment sum over all segments -/

/-- When every key lies in `[0, N)`, the segment sums over all `N` segments add up to the sum of all the
    updates: each update is counted in exactly one segment. -/
theorem sum_segments {M : Type*} [AddCommMonoid M] (k : Fin E → Int) (u : Fin E → M)
    (hk : ∀ e, 0 ≤ k e ∧ k e < (N : Int)) :
    ∑ n : Fin N, ∑ e : Fin E, (if k e = (n.val : Int) then u e else 0) = ∑ e : Fin E, u e := by
  rw [Finset.sum_comm]
  refine Finset.sum_congr rfl (fun e _ => ?_)
  obtain ⟨h0, h1⟩ := hk e
  have hlt : (k e).toNat < N := by omega
  have hiff : ∀ n : Fin N, (k e = (n.val : Int)) ↔ n = ⟨(k e).toNat, hlt⟩ := fun n =>
    ⟨fun h => Fin.ext (by show n.val = (k e).toNat; omega), fun h => by rw [h]; show k e = (((k e).toNat : Nat) : Int); omega⟩
  simp only [hiff, Finset.sum_ite_eq', Finset.mem_univ, if_true]

end Cert.LibScatterAdd
-- ==== Proof.LibGatherVec.lean ====
/-
  A general lemma: `stablehlo.gather` of single ELEMENTS of a rank-1 operand, read at an index.

  What `v[idx]` / `jnp.take(v, idx)` of a vector `v : [N]` at an integer vector `idx : [R]` lowers to: a gather with
  offset_dims `[]`, collapsed_slice_dims `[0]`, start_index_map `[0]`, index_vector_dim `1` and slice sizes `[1]` over
  the indices as a column `[R, 1]`. Result element `t` is `v` at `idx[t, 0]` — read as a signed integer and clamped
  into `[0, N − 1]`, as the gather clamps every start index: the operand's one axis is collapsed, so the clamped start
  index is the whole coordinate.
-/
import Idealize.ShloMosaic.PureOps
import Idealize.ShloMosaic.Lib.ValueIdx

noncomputable section

namespace Cert.LibGatherVec

open Idealize.ShloMosaic Idealize.ShloMosaic.ValueIdx

variable {α : Type}

/-- Those dimension numbers for an operand `[N]`, start indices `[R, 1]` and result `[R]`; their conditions `wf` are
    decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER OF ELEMENTS READ AT `t`: the operand at `r`, the start index `idx[t, 0]` read signed and clamped into
    `[0, N − 1]`. The position is a variable with its defining equation, so that a user substitutes the position it has
    computed without rewriting under an index's bound proof. -/
theorem gather_vec_apply {N R w : Nat}
    (wf : GatherDims.WF ⟨1, ![N]⟩ ⟨2, ![R, 1]⟩ ⟨1, ![R]⟩ [] [0] [] [0] [] 1 ![1])
    (v : (⟨1, ![N]⟩ : Shape).Idx → α) (idx : IVec ⟨2, ![R, 1]⟩ w) (t : Fin R) (r : Fin N)
    (hr : r.val = min (idx (ix2 t (0 : Fin 1))).toInt.toNat (N - 1)) :
    Host.gather (vecDims N R wf) v idx (ix1 t) = v (ix1 r) := by
  unfold Host.gather
  refine congrArg v (funext fun a => Fin.ext ?_)
  obtain rfl : a = 0 := Subsingleton.elim _ _
  show (vecDims N R wf).start (ix1 t) idx 0 + (vecDims N R wf).batchCoord (ix1 t) 0 + (vecDims N R wf).offCoord (ix1 t) 0 = r.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 t) ⟨List.idxOf (0 : Fin 1) (vecDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi, hr]
  rfl

end Cert.LibGatherVec

end
-- ==== Proof.RDeg.lean ====
/-
  The reference's degree and its inverse square root, by coordinates: the scatter-add of ones at the appended target
  list counts, at node n, the edges and the one loop whose word hits n.
-/
import proofs.«152131_j81492709475036_2_alg».proof.Proof.RWords
import proofs.«152131_j81492709475036_2_alg».proof.Proof.LibScatterAdd
import proofs.«152131_j81492709475036_2_alg».proof.Proof.LibGatherVec

noncomputable section

open scoped BigOperators

namespace Cert.ReferenceIdeal.RForm

open Cert.ReferenceIdeal Cert.ReferenceIdeal.Gen
open Idealize.ShloMosaic Idealize.ShloMosaic.ValueIdx

abbrev FN := FVec Ideal S50000 .f32
abbrev FEN := FVec Ideal S850000 .f32

variable (x1 : I2E)

/-- The edges' source and target words by edge number. -/
abbrev rwOf (e : Fin 800000) : BitVec 32 := x1 (ix2 (0 : Fin 2) e)
abbrev cwOf (e : Fin 800000) : BitVec 32 := x1 (ix2 (1 : Fin 2) e)

def onesV : FEN := broadcastInDim S850000 ![] bcast_S_S850000 (constant (F := Ideal) S_ .f32 0x3F800000#32)
def zerosN : FN := broadcastInDim S50000 ![] bcast_S_S50000 (constant (F := Ideal) S_ .f32 0x00000000#32)

theorem onesV_apply (e : Fin 850000) : onesV (ix1 e) = Cert.Spec.oneW := by
  unfold onesV; rw [broadcastInDim_scalar_apply]; rfl

theorem zerosN_apply (n : Fin 50000) : zerosN (ix1 n) = Cert.Spec.zeroW := by
  unfold zerosN; rw [broadcastInDim_scalar_apply]; rfl

/-- The appended target words as start indices. -/
theorem tgt_apply (e : Fin 850000) : col1 (cat (colV x1)) (ix2 e (0 : Fin 1)) = Cert.Spec.app (cwOf x1) e := by
  rw [col1_apply, cat_apply _ _ (colV_apply x1)]

/-- The appended, wrapped source words as start indices. -/
theorem src_apply (e : Fin 850000) :
    col1 (wrapV (cat (rowV x1))) (ix2 e (0 : Fin 1)) = Cert.Spec.wrapW (Cert.Spec.app (rwOf x1) e) := by
  rw [col1_apply, wrapV_apply, cat_apply _ _ (rowV_apply x1)]

theorem tgtw_apply (e : Fin 850000) :
    col1 (wrapV (cat (colV x1))) (ix2 e (0 : Fin 1)) = Cert.Spec.wrapW (Cert.Spec.app (cwOf x1) e) := by
  rw [col1_apply, wrapV_apply, cat_apply _ _ (colV_apply x1)]

def degV : FN := Host.scatterAdd (F := Ideal) scatter_S50000_S850000x1_S850000_n_0_0_1 zerosN (col1 (cat (colV x1))) onesV

theorem degV_apply (n : Fin 50000) : degV x1 (ix1 n) = Cert.Spec.degR (cwOf x1) n := by
  unfold degV Cert.Spec.degR
  rw [Cert.LibScatterAdd.scatterAdd_vec_apply scatter_S50000_S850000x1_S850000_n_0_0_1 rfl rfl rfl rfl, zerosN_apply]
  refine congrArg (Cert.Spec.zeroW + ·) (Finset.sum_congr rfl fun e _ => ?_)
  rw [tgt_apply, onesV_apply]

def dinvV : FN :=
  select (cmpf (F := Ideal) .ogt (degV x1) zerosN)
    (Host.powf (F := Ideal) (degV x1) (broadcastInDim S50000 ![] bcast_S_S50000 (constant (F := Ideal) S_ .f32 0xBF000000#32)))
    (broadcastInDim S50000 ![] bcast_S_S50000 (id (constant (F := Ideal) S_ .f32 0x00000000#32)))

/-- The select / compare / power of the normalisation, at one index, over any operands. -/
theorem dinv_point (dg zr mh z2 : FVec Ideal S50000 .f32) (i : S50000.Idx) :
    select (cmpf (F := Ideal) .ogt dg zr) (Host.powf (F := Ideal) dg mh) z2 i
      = Scalar.select (Ideal.cmp .ogt (dg i) (zr i)) (Ideal.pow (dg i) (mh i)) (z2 i) := rfl

theorem mhalf_const : constant (F := Ideal) S_ .f32 0xBF000000#32 ix0 = Cert.Spec.mhalfW := rfl
theorem zero_const_id : (id (constant (F := Ideal) S_ .f32 0x00000000#32)) ix0 = Cert.Spec.zeroW := rfl

theorem dinvV_apply (n : Fin 50000) : dinvV x1 (ix1 n) = Cert.Spec.dinvR (cwOf x1) n := by
  unfold dinvV Cert.Spec.dinvR
  rw [dinv_point, degV_apply, zerosN_apply, broadcastInDim_scalar_apply, broadcastInDim_scalar_apply,
    mhalf_const, zero_const_id]

/-- The weight of an appended edge: the source's and the target's inverse square roots (a factor one between). -/
def normV : FEN :=
  mulf (mulf (Host.gather gather_S50000_S850000x1_S850000_n_0_n_n_0_1_1 (dinvV x1) (col1 (wrapV (cat (rowV x1))))) onesV)
    (Host.gather gather_S50000_S850000x1_S850000_n_0_n_n_0_1_1 (dinvV x1) (col1 (wrapV (cat (colV x1)))))

theorem gatherDinv_apply (idx : IEN1) (w : BitVec 32) (e : Fin 850000) (hw : idx (ix2 e (0 : Fin 1)) = Cert.Spec.wrapW w) :
    Host.gather gather_S50000_S850000x1_S850000_n_0_n_n_0_1_1 (dinvV x1) idx (ix1 e) = Cert.Spec.dinvR (cwOf x1) (Cert.Spec.pos w) := by
  rw [← dinvV_apply]
  exact Cert.LibGatherVec.gather_vec_apply (N := 50000) (R := 850000) gather_S50000_S850000x1_S850000_n_0_n_n_0_1_1.wf (dinvV x1) idx e (Cert.Spec.pos w)
    (by rw [hw]; rfl)

theorem normV_apply (e : Fin 850000) :
    normV x1 (ix1 e) = (Cert.Spec.dinvR (cwOf x1) (Cert.Spec.pos (Cert.Spec.app (rwOf x1) e)) * Cert.Spec.oneW)
      * Cert.Spec.dinvR (cwOf x1) (Cert.Spec.pos (Cert.Spec.app (cwOf x1) e)) := by
  unfold normV
  rw [mulf_apply, mulf_apply, gatherDinv_apply x1 _ _ e (src_apply x1 e), gatherDinv_apply x1 _ _ e (tgtw_apply x1 e), onesV_apply]

end Cert.ReferenceIdeal.RForm

end
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.RAgg.lean ====
/-
  One graph convolution of the reference, by coordinates: the rows gathered at the appended, wrapped source words,
  each scaled by its edge's weight, are added into the node its target word hits.
-/
import proofs.«152131_j81492709475036_2_alg».proof.Proof.RDeg
import proofs.«152131_j81492709475036_2_alg».proof.Proof.LibGatherRows

noncomputable section

open scoped BigOperators

namespace Cert.ReferenceIdeal.RForm

open Cert.ReferenceIdeal Cert.ReferenceIdeal.Gen
open Idealize.ShloMosaic Idealize.ShloMosaic.ValueIdx

abbrev FN256 := FVec Ideal S50000x256 .f32
abbrev FN64 := FVec Ideal S50000x64 .f32

variable (x1 : I2E)

/-- The rows gather of the printed record: the row at the wrapped, clamped start word. -/
theorem gatherRows256_apply (h : FN256) (idx : IEN1) (w : BitVec 32) (e : Fin 850000) (d : Fin 256)
    (hw : idx (ix2 e (0 : Fin 1)) = Cert.Spec.wrapW w) :
    Host.gather gather_S50000x256_S850000x1_S850000x256_1_0_n_n_0_1_1256 h idx (ix2 e d) = h (ix2 (Cert.Spec.pos w) d) :=
  Cert.Lib.GatherRows.gather_rows_apply (N := 50000) (C := 256) (R := 850000)
    gather_S50000x256_S850000x1_S850000x256_1_0_n_n_0_1_1256.wf h idx e d (Cert.Spec.pos w) (by rw [hw]; rfl)

def aggV256 (h : FN256) : FN256 :=
  Host.scatterAdd (F := Ideal) scatter_S50000x256_S850000x1_S850000x256_1_0_0_1
    (broadcastInDim S50000x256 ![] bcast_S_S50000x256 (constant (F := Ideal) S_ .f32 0x00000000#32))
    (col1 (cat (colV x1)))
    (mulf (Host.gather gather_S50000x256_S850000x1_S850000x256_1_0_n_n_0_1_1256 h (col1 (wrapV (cat (rowV x1)))))
      (broadcastInDim S850000x256 ![0, 1] bcast_S850000x1_S850000x256_0_1
        (broadcastInDim S850000x1 ![0] bcast_S850000_S850000x1_0 (normV x1))))

/-- At node n and column d the scatter adds, over the appended edges whose target hits n, the gathered source row's
    entry times the edge's weight. -/
theorem aggV256_apply (h : FN256) (n : Fin 50000) (d : Fin 256) :
    aggV256 x1 h (ix2 n d) = Cert.Spec.aggR (rwOf x1) (cwOf x1) (fun p q => h (ix2 p q)) n d := by
  unfold aggV256 Cert.Spec.aggR
  rw [Cert.LibScatterAdd.scatterAdd_rows_apply scatter_S50000x256_S850000x1_S850000x256_1_0_0_1 rfl rfl rfl rfl,
    broadcastInDim_scalar_apply]
  refine congrArg₂ (· + ·) rfl (Finset.sum_congr rfl fun e _ => ?_)
  rw [tgt_apply, mulf_apply,
    gatherRows256_apply h _ _ e d (src_apply x1 e),
    broadcastInDim_a1_ab_apply _ bcast_S850000x1_S850000x256_0_1 rfl _ e d,
    broadcastInDim_a_a1_apply _ bcast_S850000_S850000x1_0 rfl _ e 0, normV_apply]

/-- The rows gather of the printed record: the row at the wrapped, clamped start word. -/
theorem gatherRows64_apply (h : FN64) (idx : IEN1) (w : BitVec 32) (e : Fin 850000) (d : Fin 64)
    (hw : idx (ix2 e (0 : Fin 1)) = Cert.Spec.wrapW w) :
    Host.gather gather_S50000x64_S850000x1_S850000x64_1_0_n_n_0_1_164 h idx (ix2 e d) = h (ix2 (Cert.Spec.pos w) d) :=
  Cert.Lib.GatherRows.gather_rows_apply (N := 50000) (C := 64) (R := 850000)
    gather_S50000x64_S850000x1_S850000x64_1_0_n_n_0_1_164.wf h idx e d (Cert.Spec.pos w) (by rw [hw]; rfl)

def aggV64 (h : FN64) : FN64 :=
  Host.scatterAdd (F := Ideal) scatter_S50000x64_S850000x1_S850000x64_1_0_0_1
    (broadcastInDim S50000x64 ![] bcast_S_S50000x64 (constant (F := Ideal) S_ .f32 0x00000000#32))
    (col1 (cat (colV x1)))
    (mulf (Host.gather gather_S50000x64_S850000x1_S850000x64_1_0_n_n_0_1_164 h (col1 (wrapV (cat (rowV x1)))))
      (broadcastInDim S850000x64 ![0, 1] bcast_S850000x1_S850000x64_0_1
        (broadcastInDim S850000x1 ![0] bcast_S850000_S850000x1_0 (normV x1))))

/-- At node n and column d the scatter adds, over the appended edges whose target hits n, the gathered source row's
    entry times the edge's weight. -/
theorem aggV64_apply (h : FN64) (n : Fin 50000) (d : Fin 64) :
    aggV64 x1 h (ix2 n d) = Cert.Spec.aggR (rwOf x1) (cwOf x1) (fun p q => h (ix2 p q)) n d := by
  unfold aggV64 Cert.Spec.aggR
  rw [Cert.LibScatterAdd.scatterAdd_rows_apply scatter_S50000x64_S850000x1_S850000x64_1_0_0_1 rfl rfl rfl rfl,
    broadcastInDim_scalar_apply]
  refine congrArg₂ (· + ·) rfl (Finset.sum_congr rfl fun e _ => ?_)
  rw [tgt_apply, mulf_apply,
    gatherRows64_apply h _ _ e d (src_apply x1 e),
    broadcastInDim_a1_ab_apply _ bcast_S850000x1_S850000x64_0_1 rfl _ e d,
    broadcastInDim_a_a1_apply _ bcast_S850000_S850000x1_0 rfl _ e 0, normV_apply]

end Cert.ReferenceIdeal.RForm

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RLayers.lean ====
/-
  The reference's layers, by coordinates: each graph convolution with its bias and positive part, the dense products,
  the last layer's bias, dense layer, bias and logistic function; composed, the reference's result is the network of
  the specification at every node and column.
-/
import proofs.«152131_j81492709475036_2_alg».proof.Proof.RAgg
import proofs.«152131_j81492709475036_2_alg».proof.Proof.Law
import proofs.«152131_j81492709475036_2_alg».proof.Proof.LibHostKeepdims
import proofs.«152131_j81492709475036_2_alg».proof.Proof.LibHostMatmulNN

noncomputable section

open scoped BigOperators

namespace Cert.ReferenceIdeal.RForm

open Cert.ReferenceIdeal Cert.ReferenceIdeal.Gen
open Idealize.ShloMosaic Idealize.ShloMosaic.ValueIdx

variable (x1 : I2E)

/-! ## The scalar literals, read at the one index of a rank-0 array -/

theorem zero_lit : constant (F := Ideal) S_ .f32 0x00000000#32 ix0 = Cert.Spec.zeroW := rfl
theorem one_lit : constant (F := Ideal) S_ .f32 0x3F800000#32 ix0 = Cert.Spec.oneW := rfl

/-! ## One convolution with its bias and positive part -/

/-- The aggregation of h, a bias vector added along the rows, the positive part. -/
def convR (h : FN256) (b : FVec Ideal S256 .f32) : FN256 :=
  maximumf
    (addf (aggV256 x1 h)
      (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

/-- The positive part of a sum against a zero array, at one index, over any operands. -/
theorem relu_point (a bb z : FN256) (i : S50000x256.Idx) : maximumf (addf a bb) z i = max (a i + bb i) (z i) := rfl

theorem convR_apply (h : FN256) (b : FVec Ideal S256 .f32) (n : Fin 50000) (k : Fin 256) :
    convR x1 h b (ix2 n k)
      = Cert.Spec.biasRelu (Cert.Spec.agg (rwOf x1) (cwOf x1) (fun p q => h (ix2 p q))) (fun j => b (ix1 j)) n k := by
  unfold convR Cert.Spec.biasRelu
  rw [relu_point, aggV256_apply, Cert.Spec.aggR_eq,
    broadcastInDim_1b_ab_apply _ bcast_S1x256_S50000x256_0_1 rfl _ n k,
    broadcastInDim_b_1b_apply _ bcast_S256_S1x256_1 rfl _ 0 k,
    broadcastInDim_scalar_apply, zero_lit]

/-! ## The dense products -/

def dot256 (x : FN256) (w : FVec Ideal S256x256 .f32) : FN256 :=
  Host.dotGeneral (F := Ideal) dot_S50000x256_S256x256_S50000x256_1_0_0_1_n_n none x w

def dot256x64 (x : FN256) (w : FVec Ideal S256x64 .f32) : FN64 :=
  Host.dotGeneral (F := Ideal) dot_S50000x256_S256x64_S50000x64_1_0_0_1_n_n none x w

def dot64 (x : FN64) (w : FVec Ideal S64x64 .f32) : FN64 :=
  Host.dotGeneral (F := Ideal) dot_S50000x64_S64x64_S50000x64_1_0_0_1_n_n none x w

theorem dot256_apply (x : FN256) (w : FVec Ideal S256x256 .f32) (n : Fin 50000) (d : Fin 256) :
    dot256 x w (ix2 n d) = Cert.Spec.mm (fun p k => x (ix2 p k)) (fun k j => w (ix2 k j)) n d := by
  unfold dot256 Cert.Spec.mm
  exact Cert.LibHostMatmulNN.hostDot_nn_apply dot_S50000x256_S256x256_S50000x256_1_0_0_1_n_n rfl rfl rfl rfl rfl rfl none x w n d

theorem dot256x64_apply (x : FN256) (w : FVec Ideal S256x64 .f32) (n : Fin 50000) (d : Fin 64) :
    dot256x64 x w (ix2 n d) = Cert.Spec.mm (fun p k => x (ix2 p k)) (fun k j => w (ix2 k j)) n d := by
  unfold dot256x64 Cert.Spec.mm
  exact Cert.LibHostMatmulNN.hostDot_nn_apply dot_S50000x256_S256x64_S50000x64_1_0_0_1_n_n rfl rfl rfl rfl rfl rfl none x w n d

theorem dot64_apply (x : FN64) (w : FVec Ideal S64x64 .f32) (n : Fin 50000) (d : Fin 64) :
    dot64 x w (ix2 n d) = Cert.Spec.mm (fun p k => x (ix2 p k)) (fun k j => w (ix2 k j)) n d := by
  unfold dot64 Cert.Spec.mm
  exact Cert.LibHostMatmulNN.hostDot_nn_apply dot_S50000x64_S64x64_S50000x64_1_0_0_1_n_n rfl rfl rfl rfl rfl rfl none x w n d

/-! ## The last layer's bias, the dense layer with its bias, the logistic function -/

/-- A 64-wide bias vector added along the rows. -/
def addBias64 (a : FN64) (b : FVec Ideal S64 .f32) : FN64 :=
  addf a (broadcastInDim S50000x64 ![0, 1] bcast_S1x64_S50000x64_0_1 (broadcastInDim S1x64 ![1] bcast_S64_S1x64_1 b))

theorem addBias64_apply (a : FN64) (b : FVec Ideal S64 .f32) (n : Fin 50000) (k : Fin 64) :
    addBias64 a b (ix2 n k) = a (ix2 n k) + b (ix1 k) := by
  unfold addBias64
  rw [addf_apply, broadcastInDim_1b_ab_apply _ bcast_S1x64_S50000x64_0_1 rfl _ n k,
    broadcastInDim_b_1b_apply _ bcast_S64_S1x64_1 rfl _ 0 k]

/-- One over one plus the exponential of the negated argument, as the reference spells the logistic function. -/
def sigmV (z : FN64) : FN64 :=
  Host.divf (broadcastInDim S50000x64 ![] bcast_S_S50000x64 (constant (F := Ideal) S_ .f32 0x3F800000#32))
    (addf (broadcastInDim S50000x64 ![] bcast_S_S50000x64 (constant (F := Ideal) S_ .f32 0x3F800000#32))
      (Host.exp (Host.negf z)))

/-- The quotient, sum, exponential and negation at one index, over any operands. -/
theorem sigm_point (o1 o2 z : FN64) (i : S50000x64.Idx) :
    Host.divf o1 (addf o2 (Host.exp (Host.negf z))) i = Ideal.div (o1 i) (o2 i + Ideal.exp (-(z i))) := rfl

theorem sigmV_apply (z : FN64) (i : S50000x64.Idx) : sigmV z i = Ideal.logistic (z i) := by
  unfold sigmV Ideal.logistic
  rw [sigm_point, broadcastInDim_scalar_apply, one_lit, Cert.Spec.oneW_eq]

/-- The head: the dense layer with its bias on the biased last convolution, then the logistic function. -/
def headV (y : FN64) (w : FVec Ideal S64x64 .f32) (b : FVec Ideal S64 .f32) : FN64 :=
  sigmV (addBias64 (dot64 y w) b)

theorem headV_apply (y : FN64) (w : FVec Ideal S64x64 .f32) (b : FVec Ideal S64 .f32) (n : Fin 50000) (d : Fin 64) :
    headV y w b (ix2 n d)
      = Ideal.logistic (Cert.Spec.mm (fun p k => y (ix2 p k)) (fun k j => w (ix2 k j)) n d + b (ix1 d)) := by
  unfold headV
  rw [sigmV_apply, addBias64_apply, dot64_apply]

/-! ## The layers composed -/

/-- One hidden layer on h: the dense product, the convolution, bias and positive part; as a function of coordinates it is
    the specification's, whatever function of coordinates h is. -/
theorem conv_layer (h : FN256) (w : FVec Ideal S256x256 .f32) (b : FVec Ideal S256 .f32)
    (A : Fin Cert.Spec.NN → Fin 256 → EReal) (hA : (fun p q => h (ix2 p q)) = A) :
    (fun p q => convR x1 (dot256 h w) b (ix2 p q))
      = Cert.Spec.biasRelu (Cert.Spec.agg (rwOf x1) (cwOf x1) (Cert.Spec.mm A (fun k j => w (ix2 k j)))) (fun j => b (ix1 j)) := by
  subst hA
  funext p q
  rw [convR_apply]
  have e : (fun p q => dot256 h w (ix2 p q)) = Cert.Spec.mm (fun p k => h (ix2 p k)) (fun k j => w (ix2 k j)) :=
    funext fun p => funext fun q => dot256_apply h w p q
  rw [e]

end Cert.ReferenceIdeal.RForm

namespace Cert.ReferenceIdeal.RForm

open Cert.ReferenceIdeal Cert.ReferenceIdeal.Gen
open Idealize.ShloMosaic Idealize.ShloMosaic.ValueIdx

section Net

variable (x0 : FN256) (x1 : I2E) (x2 : FVec Ideal S256x256 .f32) (x3 : FVec Ideal S256 .f32)
  (x4 : FVec Ideal S256x256 .f32) (x5 : FVec Ideal S256 .f32) (x6 : FVec Ideal S256x64 .f32)
  (x7 : FVec Ideal S64 .f32) (x8 : FVec Ideal S64x64 .f32) (x9 : FVec Ideal S64 .f32)

/-- The five hidden layers' results. -/
def h1R : FN256 := convR x1 (dot256 x0 x2) x3
def h2R : FN256 := convR x1 (dot256 (h1R x0 x1 x2 x3) x4) x5
def h3R : FN256 := convR x1 (dot256 (h2R x0 x1 x2 x3 x4 x5) x4) x5
def h4R : FN256 := convR x1 (dot256 (h3R x0 x1 x2 x3 x4 x5) x4) x5
def h5R : FN256 := convR x1 (dot256 (h4R x0 x1 x2 x3 x4 x5) x4) x5

/-- The reference's result as one term of its ten arguments. -/
def refOut : FN64 :=
  headV (addBias64 (aggV64 x1 (dot256x64 (h5R x0 x1 x2 x3 x4 x5) x6)) x7) x8 x9

local notation "X" => (fun (p : Fin Cert.Spec.NN) (k : Fin 256) => x0 (ix2 p k))
local notation "W1" => (fun (k : Fin 256) (j : Fin 256) => x2 (ix2 k j))
local notation "B1" => (fun (j : Fin 256) => x3 (ix1 j))
local notation "W2" => (fun (k : Fin 256) (j : Fin 256) => x4 (ix2 k j))
local notation "B2" => (fun (j : Fin 256) => x5 (ix1 j))
local notation "W3" => (fun (k : Fin 256) (j : Fin 64) => x6 (ix2 k j))

theorem h1R_eq : (fun p q => h1R x0 x1 x2 x3 (ix2 p q))
    = Cert.Spec.biasRelu (Cert.Spec.a1 X W1 (rwOf x1) (cwOf x1)) B1 := by
  unfold h1R Cert.Spec.a1
  exact conv_layer x1 x0 x2 x3 _ rfl

theorem h2R_eq : (fun p q => h2R x0 x1 x2 x3 x4 x5 (ix2 p q))
    = Cert.Spec.biasRelu (Cert.Spec.a2 X W1 B1 W2 (rwOf x1) (cwOf x1)) B2 := by
  unfold h2R Cert.Spec.a2
  exact conv_layer x1 _ x4 x5 _ (h1R_eq x0 x1 x2 x3)

theorem h3R_eq : (fun p q => h3R x0 x1 x2 x3 x4 x5 (ix2 p q))
    = Cert.Spec.biasRelu (Cert.Spec.a3 X W1 B1 W2 B2 (rwOf x1) (cwOf x1)) B2 := by
  unfold h3R Cert.Spec.a3
  exact conv_layer x1 _ x4 x5 _ (h2R_eq x0 x1 x2 x3 x4 x5)

theorem h4R_eq : (fun p q => h4R x0 x1 x2 x3 x4 x5 (ix2 p q))
    = Cert.Spec.biasRelu (Cert.Spec.a4 X W1 B1 W2 B2 (rwOf x1) (cwOf x1)) B2 := by
  unfold h4R Cert.Spec.a4
  exact conv_layer x1 _ x4 x5 _ (h3R_eq x0 x1 x2 x3 x4 x5)

theorem h5R_eq : (fun p q => h5R x0 x1 x2 x3 x4 x5 (ix2 p q))
    = Cert.Spec.biasRelu (Cert.Spec.a5 X W1 B1 W2 B2 (rwOf x1) (cwOf x1)) B2 := by
  unfold h5R Cert.Spec.a5
  exact conv_layer x1 _ x4 x5 _ (h4R_eq x0 x1 x2 x3 x4 x5)

/-- The last convolution, of the 64-column product of the fifth hidden layer. -/
theorem a6R_eq : (fun p q => aggV64 x1 (dot256x64 (h5R x0 x1 x2 x3 x4 x5) x6) (ix2 p q))
    = Cert.Spec.a6 X W1 B1 W2 B2 W3 (rwOf x1) (cwOf x1) := by
  unfold Cert.Spec.a6
  funext p q
  rw [aggV64_apply, Cert.Spec.aggR_eq]
  have e : (fun p q => dot256x64 (h5R x0 x1 x2 x3 x4 x5) x6 (ix2 p q))
      = Cert.Spec.mm (fun p k => h5R x0 x1 x2 x3 x4 x5 (ix2 p k)) W3 :=
    funext fun p => funext fun q => dot256x64_apply _ x6 p q
  rw [e, h5R_eq]

/-- THE REFERENCE'S RESULT at node n and column d is the specification's network there. -/
theorem refOut_apply (n : Fin 50000) (d : Fin 64) :
    refOut x0 x1 x2 x3 x4 x5 x6 x7 x8 x9 (ix2 n d)
      = Cert.Spec.out X W1 B1 W2 B2 W3 (fun k => x7 (ix1 k)) (fun k j => x8 (ix2 k j)) (fun k => x9 (ix1 k))
          (rwOf x1) (cwOf x1) n d := by
  unfold refOut Cert.Spec.out
  rw [headV_apply]
  have e : (fun p k => addBias64 (aggV64 x1 (dot256x64 (h5R x0 x1 x2 x3 x4 x5) x6)) x7 (ix2 p k))
      = fun p k => Cert.Spec.a6 X W1 B1 W2 B2 W3 (rwOf x1) (cwOf x1) p k + x7 (ix1 k) := by
    funext p k
    rw [addBias64_apply]
    exact congrArg (· + x7 (ix1 k)) (congrFun (congrFun (a6R_eq x0 x1 x2 x3 x4 x5 x6) p) k)
  rw [e]

end Net

end Cert.ReferenceIdeal.RForm

end
-- ==== Proof.KAIdx.lean ====
import Idealize.ShloMosaic.PureOps.Ideal.Laws
import Idealize.ShloMosaic.Lib.ValueIdx

noncomputable section

namespace Cert.KernelIdeal.KA

open Idealize.ShloMosaic Idealize.ShloMosaic.ValueIdx

/-- An array of shape [a, b] over the extended reals, read at its two coordinates. -/
abbrev at2 {a b : Nat} (A : (⟨2, ![a, b]⟩ : Shape).Idx → EReal) (i : Fin a) (j : Fin b) : EReal := A (ix2 i j)

end Cert.KernelIdeal.KA

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KAPay.lean ====
import proofs.«152131_j81492709475036_2_alg».proof.Proof.Gen.KernelIdeal.Frame
import Idealize.ShloMosaic.PureOps.Ideal.Laws
import Idealize.ShloMosaic.Lib.ValueIdx
import Idealize.ShloMosaic.Lib.Pipeline.Value
import proofs.«152131_j81492709475036_2_alg».proof.Proof.LibMatmulNN

set_option maxRecDepth 16384

noncomputable section

open scoped BigOperators

namespace Cert.KernelIdeal.KA

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The kernels' payloads read at a coordinate, over the extended reals -/

/-- The plain product's payload: entry (p, q) is the sum over k of x0(p, k) · x1(k, q). -/
theorem pay0_apply (x0 : Vec Ideal S2000x256 .f32) (x1 : Vec Ideal S256x256 .f32) (p : Fin 2000) (q : Fin 256) :
    k0_pay1 x0 x1 (ix2 p q) = ∑ k : Fin 256, x0 (ix2 p k) * x1 (ix2 k q) := by
  unfold k0_pay1
  exact Cert.LibMatmulNN.matmul_nn_apply dot_S2000x256_S256x256_S2000x256_1_0_0_1_n_n rfl rfl rfl rfl rfl rfl none _ _ p q

/-- The bias row broadcast over the rows, read at (p, k). -/
theorem bias_row_apply (x1 : Vec Ideal S1x256 .f32) (p : Fin 2000) (k : Fin 256) :
    broadcastTo S2000x256 (shapeCast S1x256 (shapeCast S1x256 x1 shapeCasts_S1x256_S1x256) shapeCasts_S1x256_S1x256) broadcasts_S1x256_S2000x256 (ix2 p k)
      = x1 (ix2 (0 : Fin 1) k) := by
  rw [shapeCast_self, shapeCast_self]
  refine broadcastTo_apply _ _ _ _ fun a => ?_
  match a with
  | ⟨0, _⟩ => rfl
  | ⟨1, _⟩ => rfl

/-- The fused bias + relu + product payload: entry (p, q) is the sum over k of max (x0(p, k) + x1(0, k)) 0 · x2(k, q). -/
theorem pay1_apply (x0 : Vec Ideal S2000x256 .f32) (x1 : Vec Ideal S1x256 .f32) (x2 : Vec Ideal S256x256 .f32) (p : Fin 2000) (q : Fin 256) :
    k1_pay1 x0 x1 x2 (ix2 p q) = ∑ k : Fin 256, max (x0 (ix2 p k) + x1 (ix2 (0 : Fin 1) k)) (Ideal.ofBits .f32 0x00000000#32) * x2 (ix2 k q) := by
  unfold k1_pay1
  refine (Cert.LibMatmulNN.matmul_nn_apply dot_S2000x256_S256x256_S2000x256_1_0_0_1_n_n rfl rfl rfl rfl rfl rfl none _ _ p q).trans ?_
  refine Finset.sum_congr rfl fun k _ => ?_
  refine congrArg (· * x2 (ix2 k q)) ?_
  show max (shapeCast S2000x256 x0 shapeCasts_S2000x256_S2000x256 (ix2 p k) + _) _ = _
  rw [shapeCast_self, bias_row_apply]
  rfl

theorem pay2_eq : @k2_pay1 Ideal _ = @k1_pay1 Ideal _ := rfl
theorem pay3_eq : @k3_pay1 Ideal _ = @k1_pay1 Ideal _ := rfl
theorem pay4_eq : @k4_pay1 Ideal _ = @k1_pay1 Ideal _ := rfl

end Cert.KernelIdeal.KA

end
-- ==== Proof.KA0.lean ====
import proofs.«152131_j81492709475036_2_alg».proof.Proof.Gen.KernelIdeal.Frame
import Idealize.ShloMosaic.PureOps.Ideal.Laws
import Idealize.ShloMosaic.Lib.ValueIdx
import Idealize.ShloMosaic.Lib.Pipeline.Value
import proofs.«152131_j81492709475036_2_alg».proof.Proof.KAPay
import proofs.«152131_j81492709475036_2_alg».proof.Proof.KAIdx

set_option maxRecDepth 16384

noncomputable section

open scoped BigOperators

namespace Cert.KernelIdeal.KA

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 0: the plain product, from the blocks the grid points write back to the whole result array -/

variable (V : (c : Dev nD) → (b : Ref sig .tc) → Buf (Elt Ideal) ((c : Thread nD τ).loc b))

theorem hz : (![0, 0] : Fin 2 → Nat) = fun _ => 0 := funext fun a => by fin_cases a <;> rfl

/-- The product array of a [50000, 256] array and a [256, 256] array, by coordinates. -/
def mmArr (A : S50000x256.Idx → EReal) (B : S256x256.Idx → EReal) : S50000x256.Idx → EReal := fun i =>
  ∑ k : Fin 256, A (ix2 (i 0) k) * B (ix2 k (i 1))

/-- The result array: entry (n, d) is the sum over k of the left array's (n, k) times the right array's (k, d). -/
def G0 (c : Dev nD) : S50000x256.Idx → Elt Ideal .f32 := mmArr (V c main_arg0) (V c main_arg2)

/-- The printed index maps over the 25 grid points: the row-tile windows sit at tile t, column block 0; the whole-array
    window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 1000000 in
/-- What grid point t writes back is block t of the result array. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨e00, e01, e10, e11, e20, e21⟩ := idx_facts0 t
  funext j
  obtain ⟨p, q, rfl⟩ : ∃ (p : Fin 2000) (q : Fin 256), j = ix2 p q := ⟨j 0, j 1, eq_ix2 j⟩
  refine (pay0_apply (iblk0 V c 0 t) (iblk0 V c 1 t) p q).trans ?_
  show _ = mmArr (V c main_arg0) (V c main_arg2) (((cfg0.win 2).blk t).view.emb (ix2 p q))
  unfold mmArr
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  refine Eq.trans (b := (fun (A : S50000x256.Idx → EReal) (B : S256x256.Idx → EReal) => A (((cfg0.win 0).blk t).view.emb (ix2 p k)) * B (((cfg0.win 1).blk t).view.emb (ix2 k q))) (V c main_arg0) (V c main_arg2)) rfl ?_
  dsimp only
  rw [h0, h1]
  rfl

/-- An index of the array is in point t's block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v19).slice (win0_2.rect t)).set ↔ _
  rw [View.set_slice_whole, Rect.mem_set_unit]
  exact Iff.rfl

/-- Every index of the result array is in the block of the grid point its row's tile names. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e00, e01, e10, e11, e20, e21⟩ := idx_facts0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The result array after the region, for any entry contents. -/
theorem final0 (c : Dev nD) : (dat0 V c).arrAt 2 cfg0.N = G0 V c :=
  (dat0 V c).arrAt_eq_of_cover 2 (G0 V c) (fun t _ => flushed0_eq V c t) cover0

variable (m : (ℓ : Loc nD τ sig) → Buf (Elt Ideal) ℓ) (ρ : Dev nD → PrngReg)

/-- Region 0's result array by coordinates, from the region's entry contents. -/
theorem reg0 (c : Dev nD) (n : Fin 50000) (d : Fin 256) :
    at2 (V4 m ρ c main_v19) n d = ∑ k : Fin 256, at2 (V3 m ρ c main_arg0) n k * at2 (V3 m ρ c main_arg2) k d :=
  congrFun ((hF0 m ρ c 2).symm.trans (final0 (V3 m ρ) c)) (ix2 n d)

end Cert.KernelIdeal.KA

end
-- ==== Proof.KAPay2.lean ====
import proofs.«152131_j81492709475036_2_alg».proof.Proof.Gen.KernelIdeal.Frame
import Idealize.ShloMosaic.PureOps.Ideal.Laws
import Idealize.ShloMosaic.Lib.ValueIdx
import Idealize.ShloMosaic.Lib.Pipeline.Value
import proofs.«152131_j81492709475036_2_alg».proof.Proof.LibMatmulNN
import proofs.«152131_j81492709475036_2_alg».proof.Proof.KAPay

set_option maxRecDepth 16384

noncomputable section

open scoped BigOperators

namespace Cert.KernelIdeal.KA

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The remaining payloads at a coordinate, and the regions' result arrays as functions of their input arrays -/

theorem pay2_apply (x0 : Vec Ideal S2000x256 .f32) (x1 : Vec Ideal S1x256 .f32) (x2 : Vec Ideal S256x256 .f32) (p : Fin 2000) (q : Fin 256) :
    k2_pay1 x0 x1 x2 (ix2 p q) = ∑ k : Fin 256, max (x0 (ix2 p k) + x1 (ix2 (0 : Fin 1) k)) (Ideal.ofBits .f32 0x00000000#32) * x2 (ix2 k q) :=
  pay1_apply x0 x1 x2 p q
theorem pay3_apply (x0 : Vec Ideal S2000x256 .f32) (x1 : Vec Ideal S1x256 .f32) (x2 : Vec Ideal S256x256 .f32) (p : Fin 2000) (q : Fin 256) :
    k3_pay1 x0 x1 x2 (ix2 p q) = ∑ k : Fin 256, max (x0 (ix2 p k) + x1 (ix2 (0 : Fin 1) k)) (Ideal.ofBits .f32 0x00000000#32) * x2 (ix2 k q) :=
  pay1_apply x0 x1 x2 p q
theorem pay4_apply (x0 : Vec Ideal S2000x256 .f32) (x1 : Vec Ideal S1x256 .f32) (x2 : Vec Ideal S256x256 .f32) (p : Fin 2000) (q : Fin 256) :
    k4_pay1 x0 x1 x2 (ix2 p q) = ∑ k : Fin 256, max (x0 (ix2 p k) + x1 (ix2 (0 : Fin 1) k)) (Ideal.ofBits .f32 0x00000000#32) * x2 (ix2 k q) :=
  pay1_apply x0 x1 x2 p q

/-- The same fused payload into 64 columns. -/
theorem pay5_apply (x0 : Vec Ideal S2000x256 .f32) (x1 : Vec Ideal S1x256 .f32) (x2 : Vec Ideal S256x64 .f32) (p : Fin 2000) (q : Fin 64) :
    k5_pay1 x0 x1 x2 (ix2 p q) = ∑ k : Fin 256, max (x0 (ix2 p k) + x1 (ix2 (0 : Fin 1) k)) (Ideal.ofBits .f32 0x00000000#32) * x2 (ix2 k q) := by
  unfold k5_pay1
  refine (Cert.LibMatmulNN.matmul_nn_apply dot_S2000x256_S256x64_S2000x64_1_0_0_1_n_n rfl rfl rfl rfl rfl rfl none _ _ p q).trans ?_
  refine Finset.sum_congr rfl fun k _ => ?_
  refine congrArg (· * x2 (ix2 k q)) ?_
  show max (shapeCast S2000x256 x0 shapeCasts_S2000x256_S2000x256 (ix2 p k) + _) _ = _
  rw [shapeCast_self, bias_row_apply]
  rfl

/-- A 64-wide bias row broadcast over the rows, read at (p, k). -/
theorem bias_row64_apply (x1 : Vec Ideal S1x64 .f32) (p : Fin 2000) (k : Fin 64) :
    broadcastTo S2000x64 (shapeCast S1x64 (shapeCast S1x64 x1 shapeCasts_S1x64_S1x64) shapeCasts_S1x64_S1x64) broadcasts_S1x64_S2000x64 (ix2 p k)
      = x1 (ix2 (0 : Fin 1) k) := by
  rw [shapeCast_self, shapeCast_self]
  refine broadcastTo_apply _ _ _ _ fun a => ?_
  match a with
  | ⟨0, _⟩ => rfl
  | ⟨1, _⟩ => rfl

/-- The last kernel's payload: the logistic function of ((x0 + bias row) · x2 + second bias row), at (p, q). -/
theorem pay6_apply (x0 : Vec Ideal S2000x64 .f32) (x1 : Vec Ideal S1x64 .f32) (x2 : Vec Ideal S64x64 .f32) (x3 : Vec Ideal S1x64 .f32) (p : Fin 2000) (q : Fin 64) :
    k6_pay1 x0 x1 x2 x3 (ix2 p q)
      = Ideal.logistic ((∑ k : Fin 64, (x0 (ix2 p k) + x1 (ix2 (0 : Fin 1) k)) * x2 (ix2 k q)) + x3 (ix2 (0 : Fin 1) q)) := by
  unfold k6_pay1
  show Ideal.logistic (_ + _) = _
  refine congrArg Ideal.logistic ?_
  rw [bias_row64_apply]
  refine congrArg (· + x3 (ix2 (0 : Fin 1) q)) ?_
  refine (Cert.LibMatmulNN.matmul_nn_apply dot_S2000x64_S64x64_S2000x64_1_0_0_1_n_n rfl rfl rfl rfl rfl rfl none _ _ p q).trans ?_
  refine Finset.sum_congr rfl fun k _ => ?_
  refine congrArg (· * x2 (ix2 k q)) ?_
  show shapeCast S2000x64 x0 shapeCasts_S2000x64_S2000x64 (ix2 p k) + _ = _
  rw [shapeCast_self, bias_row64_apply]

/-! ## The result arrays -/

/-- Bias, positive part, product: a [50000, 256] array, a [1, 256] bias row and a [256, D] weight array. -/
def brmArr {D : Nat} (A : S50000x256.Idx → EReal) (b : S1x256.Idx → EReal) (W : (⟨2, ![256, D]⟩ : Shape).Idx → EReal) :
    (⟨2, ![50000, D]⟩ : Shape).Idx → EReal := fun i =>
  ∑ k : Fin 256, max (A (ix2 (i 0) k) + b (ix2 (0 : Fin 1) k)) (Ideal.ofBits .f32 0x00000000#32) * W (ix2 k (i 1))

/-- Bias, product, bias, logistic function: a [50000, 64] array, two [1, 64] bias rows and a [64, 64] weight array. -/
def bmbsArr (A : S50000x64.Idx → EReal) (b : S1x64.Idx → EReal) (W : S64x64.Idx → EReal) (b' : S1x64.Idx → EReal) :
    S50000x64.Idx → EReal := fun i =>
  Ideal.logistic ((∑ k : Fin 64, (A (ix2 (i 0) k) + b (ix2 (0 : Fin 1) k)) * W (ix2 k (i 1))) + b' (ix2 (0 : Fin 1) (i 1)))

end Cert.KernelIdeal.KA

end
-- ==== Proof.KAReg1.lean ====
import proofs.«152131_j81492709475036_2_alg».proof.Proof.Gen.KernelIdeal.Frame
import Idealize.ShloMosaic.PureOps.Ideal.Laws
import Idealize.ShloMosaic.Lib.ValueIdx
import Idealize.ShloMosaic.Lib.Pipeline.Value
import proofs.«152131_j81492709475036_2_alg».proof.Proof.KAPay2
import proofs.«152131_j81492709475036_2_alg».proof.Proof.KAIdx

set_option maxRecDepth 16384

noncomputable section

open scoped BigOperators

namespace Cert.KernelIdeal.KA

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 1: bias, positive part and product, from the blocks the grid points write back to the whole result array -/

variable (V : (c : Dev nD) → (b : Ref sig .tc) → Buf (Elt Ideal) ((c : Thread nD τ).loc b))

theorem hz1 : (![0, 0] : Fin 2 → Nat) = fun _ => 0 := funext fun a => by fin_cases a <;> rfl

/-- The result array from the region's entry contents. -/
def G1 (c : Dev nD) : S50000x256.Idx → Elt Ideal .f32 := brmArr (D := 256) (V c main_v40) (V c main_v15) (V c main_arg4)

/-- The printed index maps over the 25 grid points: the row-tile windows sit at tile t, column block 0; the whole-array
    windows at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 1000000 in
/-- What grid point t writes back is block t of the result array. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S2000x256) hz1, View.ld_unit_zero (S := S1x256) hz1, View.ld_unit_zero (S := S256x256) hz1]
  obtain ⟨e00, e01, e10, e11, e20, e21, e30, e31⟩ := idx_facts1 t
  funext j
  obtain ⟨p, q, rfl⟩ : ∃ (p : Fin 2000) (q : Fin 256), j = ix2 p q := ⟨j 0, j 1, eq_ix2 j⟩
  refine (pay1_apply (iblk1 V c 0 t) (iblk1 V c 1 t) (iblk1 V c 2 t) p q).trans ?_
  show _ = brmArr (D := 256) (V c main_v40) (V c main_v15) (V c main_arg4) (((cfg1.win 3).blk t).view.emb (ix2 p q))
  unfold brmArr
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 256 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 256 + 1 * k.val = k.val; omega
  have h2 : ((cfg1.win 2).blk t).view.emb (ix2 k q) = ix2 k ((((cfg1.win 3).blk t).view.emb (ix2 p q)) 1) := by
    funext a; apply Fin.ext
    match a with
    | ⟨0, _⟩ => show win1_2.index t (0 : Fin 2) * 256 + 1 * k.val = k.val; omega
    | ⟨1, _⟩ => show win1_2.index t (1 : Fin 2) * 256 + 1 * q.val = win1_3.index t (1 : Fin 2) * 256 + 1 * q.val; omega
  refine Eq.trans (b := (fun (A : S50000x256.Idx → EReal) (b : S1x256.Idx → EReal) (W : S256x256.Idx → EReal) =>
    max (A (((cfg1.win 0).blk t).view.emb (ix2 p k)) + b (((cfg1.win 1).blk t).view.emb (ix2 (0 : Fin 1) k))) (Ideal.ofBits .f32 0x00000000#32)
      * W (((cfg1.win 2).blk t).view.emb (ix2 k q))) (V c main_v40) (V c main_v15) (V c main_arg4)) rfl ?_
  dsimp only
  rw [h0, h1, h2]
  rfl

/-- An index of the array is in point t's block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v41).slice (win1_3.rect t)).set ↔ _
  rw [View.set_slice_whole, Rect.mem_set_unit]
  exact Iff.rfl

/-- Every index of the result array is in the block of the grid point its row's tile names. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e00, e01, e10, e11, e20, e21, e30, e31⟩ := idx_facts1 t
  have ht : t.val = (i 0).val / 2000 := rfl
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- The result array after the region, for any entry contents. -/
theorem final1 (c : Dev nD) : (dat1 V c).arrAt 3 cfg1.N = G1 V c :=
  (dat1 V c).arrAt_eq_of_cover 3 (G1 V c) (fun t _ => flushed1_eq V c t) cover1

variable (m : (ℓ : Loc nD τ sig) → Buf (Elt Ideal) ℓ) (ρ : Dev nD → PrngReg)

/-- Region 1's result array by coordinates, from the region's entry contents. -/
theorem reg1 (c : Dev nD) (n : Fin 50000) (d : Fin 256) :
    at2 (V6 m ρ c main_v41) n d = ∑ k : Fin 256, max (at2 (V5 m ρ c main_v40) n k + at2 (V5 m ρ c main_v15) (0 : Fin 1) k) (Ideal.ofBits .f32 0x00000000#32) * at2 (V5 m ρ c main_arg4) k d :=
  congrFun ((hF1 m ρ c 3).symm.trans (final1 (V5 m ρ) c)) (ix2 n d)

end Cert.KernelIdeal.KA

end
-- ==== Proof.KAReg2.lean ====
import proofs.«152131_j81492709475036_2_alg».proof.Proof.Gen.KernelIdeal.Frame
import Idealize.ShloMosaic.PureOps.Ideal.Laws
import Idealize.ShloMosaic.Lib.ValueIdx
import Idealize.ShloMosaic.Lib.Pipeline.Value
import proofs.«152131_j81492709475036_2_alg».proof.Proof.KAPay2
import proofs.«152131_j81492709475036_2_alg».proof.Proof.KAIdx

set_option maxRecDepth 16384

noncomputable section

open scoped BigOperators

namespace Cert.KernelIdeal.KA

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 2: bias, positive part and product, from the blocks the grid points write back to the whole result array -/

variable (V : (c : Dev nD) → (b : Ref sig .tc) → Buf (Elt Ideal) ((c : Thread nD τ).loc b))

theorem hz2 : (![0, 0] : Fin 2 → Nat) = fun _ => 0 := funext fun a => by fin_cases a <;> rfl

/-- The result array from the region's entry contents. -/
def G2 (c : Dev nD) : S50000x256.Idx → Elt Ideal .f32 := brmArr (D := 256) (V c main_v62) (V c main_v16) (V c main_arg4)

/-- The printed index maps over the 25 grid points: the row-tile windows sit at tile t, column block 0; the whole-array
    windows at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 1000000 in
/-- What grid point t writes back is block t of the result array. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S2000x256) hz2, View.ld_unit_zero (S := S1x256) hz2, View.ld_unit_zero (S := S256x256) hz2]
  obtain ⟨e00, e01, e10, e11, e20, e21, e30, e31⟩ := idx_facts2 t
  funext j
  obtain ⟨p, q, rfl⟩ : ∃ (p : Fin 2000) (q : Fin 256), j = ix2 p q := ⟨j 0, j 1, eq_ix2 j⟩
  refine (pay2_apply (iblk2 V c 0 t) (iblk2 V c 1 t) (iblk2 V c 2 t) p q).trans ?_
  show _ = brmArr (D := 256) (V c main_v62) (V c main_v16) (V c main_arg4) (((cfg2.win 3).blk t).view.emb (ix2 p q))
  unfold brmArr
  refine Finset.sum_congr rfl fun k _ => ?_
  have h0 : ((cfg2.win 0).blk t).view.emb (ix2 p k) = ix2 ((((cfg2.win 3).blk t).view.emb (ix2 p q)) 0) k := by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 256 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 256 + 1 * k.val = k.val; omega
  have h2 : ((cfg2.win 2).blk t).view.emb (ix2 k q) = ix2 k ((((cfg2.win 3).blk t).view.emb (ix2 p q)) 1) := by
    funext a; apply Fin.ext
    match a with
    | ⟨0, _⟩ => show win2_2.index t (0 : Fin 2) * 256 + 1 * k.val = k.val; omega
    | ⟨1, _⟩ => show win2_2.index t (1 : Fin 2) * 256 + 1 * q.val = win2_3.index t (1 : Fin 2) * 256 + 1 * q.val; omega
  refine Eq.trans (b := (fun (A : S50000x256.Idx → EReal) (b : S1x256.Idx → EReal) (W : S256x256.Idx → EReal) =>
    max (A (((cfg2.win 0).blk t).view.emb (ix2 p k)) + b (((cfg2.win 1).blk t).view.emb (ix2 (0 : Fin 1) k))) (Ideal.ofBits .f32 0x00000000#32)
      * W (((cfg2.win 2).blk t).view.emb (ix2 k q))) (V c main_v62) (V c main_v16) (V c main_arg4)) rfl ?_
  dsimp only
  rw [h0, h1, h2]
  rfl

/-- An index of the array is in point t's block iff each coordinate is in the block's range on its axis. -/
theorem mem_blk2 (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v63).slice (win2_3.rect t)).set ↔ _
  rw [View.set_slice_whole, Rect.mem_set_unit]
  exact Iff.rfl

/-- Every index of the result array is in the block of the grid point its row's tile names. -/
theorem cover2 (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  obtain ⟨e00, e01, e10, e11, e20, e21, e30, e31⟩ := idx_facts2 t
  have ht : t.val = (i 0).val / 2000 := rfl
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- The result array after the region, for any entry contents. -/
theorem final2 (c : Dev nD) : (dat2 V c).arrAt 3 cfg2.N = G2 V c :=
  (dat2 V c).arrAt_eq_of_cover 3 (G2 V c) (fun t _ => flushed2_eq V c t) cover2

variable (m : (ℓ : Loc nD τ sig) → Buf (Elt Ideal) ℓ) (ρ : Dev nD → PrngReg)

/-- Region 2's result array by coordinates, from the region's entry contents. -/
theorem reg2 (c : Dev nD) (n : Fin 50000) (d : Fin 256) :
    at2 (V8 m ρ c main_v63) n d = ∑ k : Fin 256, max (at2 (V7 m ρ c main_v62) n k + at2 (V7 m ρ c main_v16) (0 : Fin 1) k) (Ideal.ofBits .f32 0x00000000#32) * at2 (V7 m ρ c main_arg4) k d :=
  congrFun ((hF2 m ρ c 3).symm.trans (final2 (V7 m ρ) c)) (ix2 n d)

end Cert.KernelIdeal.KA

end
-- ==== Proof.KAReg3.lean ====
import proofs.«152131_j81492709475036_2_alg».proof.Proof.Gen.KernelIdeal.Frame
import Idealize.ShloMosaic.PureOps.Ideal.Laws
import Idealize.ShloMosaic.Lib.ValueIdx
import Idealize.ShloMosaic.Lib.Pipeline.Value
import proofs.«152131_j81492709475036_2_alg».proof.Proof.KAPay2
import proofs.«152131_j81492709475036_2_alg».proof.Proof.KAIdx

set_option maxRecDepth 16384

noncomputable section

open scoped BigOperators

namespace Cert.KernelIdeal.KA

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 3: bias, positive part and product, from the blocks the grid points write back to the whole result array -/

variable (V : (c : Dev nD) → (b : Ref sig .tc) → Buf (Elt Ideal) ((c : Thread nD τ).loc b))

theorem hz3 : (![0, 0] : Fin 2 → Nat) = fun _ => 0 := funext fun a => by fin_cases a <;> rfl

/-- The result array from the region's entry contents. -/
def G3 (c : Dev nD) : S50000x256.Idx → Elt Ideal .f32 := brmArr (D := 256) (V c main_v84) (V c main_v16) (V c main_arg4)

/-- The printed index maps over the 25 grid points: the row-tile windows sit at tile t, column block 0; the whole-array
    windows at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 1000000 in
/-- What grid point t writes back is block t of the result array. -/
theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz3]
  simp only [View.ld_unit_zero (S := S2000x256) hz3, View.ld_unit_zero (S := S1x256) hz3, View.ld_unit_zero (S := S256x256) hz3]
  obtain ⟨e00, e01, e10, e11, e20, e21, e30, e31⟩ := idx_facts3 t
  funext j
  obtain ⟨p, q, rfl⟩ : ∃ (p : Fin 2000) (q : Fin 256), j = ix2 p q := ⟨j 0, j 1, eq_ix2 j⟩
  refine (pay3_apply (iblk3 V c 0 t) (iblk3 V c 1 t) (iblk3 V c 2 t) p q).trans ?_
  show _ = brmArr (D := 256) (V c main_v84) (V c main_v16) (V c main_arg4) (((cfg3.win 3).blk t).view.emb (ix2 p q))
  unfold brmArr
  refine Finset.sum_congr rfl fun k _ => ?_
  have h0 : ((cfg3.win 0).blk t).view.emb (ix2 p k) = ix2 ((((cfg3.win 3).blk t).view.emb (ix2 p q)) 0) k := by
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 256 + 1 * k.val = k.val; omega
  have h1 : ((cfg3.win 1).blk t).view.emb (ix2 (0 : Fin 1) k) = ix2 (0 : Fin 1) k := by
    funext a; apply Fin.ext
    match a with
    | ⟨0, _⟩ => show win3_1.index t (0 : Fin 2) * 1 + 1 * 0 = 0; omega
    | ⟨1, _⟩ => show win3_1.index t (1 : Fin 2) * 256 + 1 * k.val = k.val; omega
  have h2 : ((cfg3.win 2).blk t).view.emb (ix2 k q) = ix2 k ((((cfg3.win 3).blk t).view.emb (ix2 p q)) 1) := by
    funext a; apply Fin.ext
    match a with
    | ⟨0, _⟩ => show win3_2.index t (0 : Fin 2) * 256 + 1 * k.val = k.val; omega
    | ⟨1, _⟩ => show win3_2.index t (1 : Fin 2) * 256 + 1 * q.val = win3_3.index t (1 : Fin 2) * 256 + 1 * q.val; omega
  refine Eq.trans (b := (fun (A : S50000x256.Idx → EReal) (b : S1x256.Idx → EReal) (W : S256x256.Idx → EReal) =>
    max (A (((cfg3.win 0).blk t).view.emb (ix2 p k)) + b (((cfg3.win 1).blk t).view.emb (ix2 (0 : Fin 1) k))) (Ideal.ofBits .f32 0x00000000#32)
      * W (((cfg3.win 2).blk t).view.emb (ix2 k q))) (V c main_v84) (V c main_v16) (V c main_arg4)) rfl ?_
  dsimp only
  rw [h0, h1, h2]
  rfl

/-- An index of the array is in point t's block iff each coordinate is in the block's range on its axis. -/
theorem mem_blk3 (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v85).slice (win3_3.rect t)).set ↔ _
  rw [View.set_slice_whole, Rect.mem_set_unit]
  exact Iff.rfl

/-- Every index of the result array is in the block of the grid point its row's tile names. -/
theorem cover3 (i : S50000x256.Idx) : ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨e00, e01, e10, e11, e20, e21, e30, e31⟩ := idx_facts3 t
  have ht : t.val = (i 0).val / 2000 := rfl
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- The result array after the region, for any entry contents. -/
theorem final3 (c : Dev nD) : (dat3 V c).arrAt 3 cfg3.N = G3 V c :=
  (dat3 V c).arrAt_eq_of_cover 3 (G3 V c) (fun t _ => flushed3_eq V c t) cover3

variable (m : (ℓ : Loc nD τ sig) → Buf (Elt Ideal) ℓ) (ρ : Dev nD → PrngReg)

/-- Region 3's result array by coordinates, from the region's entry contents. -/
theorem reg3 (c : Dev nD) (n : Fin 50000) (d : Fin 256) :
    at2 (V10 m ρ c main_v85) n d = ∑ k : Fin 256, max (at2 (V9 m ρ c main_v84) n k + at2 (V9 m ρ c main_v16) (0 : Fin 1) k) (Ideal.ofBits .f32 0x00000000#32) * at2 (V9 m ρ c main_arg4) k d :=
  congrFun ((hF3 m ρ c 3).symm.trans (final3 (V9 m ρ) c)) (ix2 n d)

end Cert.KernelIdeal.KA

end
-- ==== Proof.KAReg4.lean ====
import proofs.«152131_j81492709475036_2_alg».proof.Proof.Gen.KernelIdeal.Frame
import Idealize.ShloMosaic.PureOps.Ideal.Laws
import Idealize.ShloMosaic.Lib.ValueIdx
import Idealize.ShloMosaic.Lib.Pipeline.Value
import proofs.«152131_j81492709475036_2_alg».proof.Proof.KAPay2
import proofs.«152131_j81492709475036_2_alg».proof.Proof.KAIdx

set_option maxRecDepth 16384

noncomputable section

open scoped BigOperators

namespace Cert.KernelIdeal.KA

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 4: bias, positive part and product, from the blocks the grid points write back to the whole result array -/

variable (V : (c : Dev nD) → (b : Ref sig .tc) → Buf (Elt Ideal) ((c : Thread nD τ).loc b))

theorem hz4 : (![0, 0] : Fin 2 → Nat) = fun _ => 0 := funext fun a => by fin_cases a <;> rfl

/-- The result array from the region's entry contents. -/
def G4 (c : Dev nD) : S50000x256.Idx → Elt Ideal .f32 := brmArr (D := 256) (V c main_v106) (V c main_v16) (V c main_arg4)

/-- The printed index maps over the 25 grid points: the row-tile windows sit at tile t, column block 0; the whole-array
    windows at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

set_option maxHeartbeats 1000000 in
/-- What grid point t writes back is block t of the result array. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold out4_3
  rw [View.canon_unit_zero hz4]
  simp only [View.ld_unit_zero (S := S2000x256) hz4, View.ld_unit_zero (S := S1x256) hz4, View.ld_unit_zero (S := S256x256) hz4]
  obtain ⟨e00, e01, e10, e11, e20, e21, e30, e31⟩ := idx_facts4 t
  funext j
  obtain ⟨p, q, rfl⟩ : ∃ (p : Fin 2000) (q : Fin 256), j = ix2 p q := ⟨j 0, j 1, eq_ix2 j⟩
  refine (pay4_apply (iblk4 V c 0 t) (iblk4 V c 1 t) (iblk4 V c 2 t) p q).trans ?_
  show _ = brmArr (D := 256) (V c main_v106) (V c main_v16) (V c main_arg4) (((cfg4.win 3).blk t).view.emb (ix2 p q))
  unfold brmArr
  refine Finset.sum_congr rfl fun k _ => ?_
  have h0 : ((cfg4.win 0).blk t).view.emb (ix2 p k) = ix2 ((((cfg4.win 3).blk t).view.emb (ix2 p q)) 0) k := by
    funext a; apply Fin.ext
    match a with
    | ⟨0, _⟩ => show win4_0.index t (0 : Fin 2) * 2000 + 1 * p.val = win4_3.index t (0 : Fin 2) * 2000 + 1 * p.val; omega
    | ⟨1, _⟩ => show win4_0.index t (1 : Fin 2) * 256 + 1 * k.val = k.val; omega
  have h1 : ((cfg4.win 1).blk t).view.emb (ix2 (0 : Fin 1) k) = ix2 (0 : Fin 1) k := by
    funext a; apply Fin.ext
    match a with
    | ⟨0, _⟩ => show win4_1.index t (0 : Fin 2) * 1 + 1 * 0 = 0; omega
    | ⟨1, _⟩ => show win4_1.index t (1 : Fin 2) * 256 + 1 * k.val = k.val; omega
  have h2 : ((cfg4.win 2).blk t).view.emb (ix2 k q) = ix2 k ((((cfg4.win 3).blk t).view.emb (ix2 p q)) 1) := by
    funext a; apply Fin.ext
    match a with
    | ⟨0, _⟩ => show win4_2.index t (0 : Fin 2) * 256 + 1 * k.val = k.val; omega
    | ⟨1, _⟩ => show win4_2.index t (1 : Fin 2) * 256 + 1 * q.val = win4_3.index t (1 : Fin 2) * 256 + 1 * q.val; omega
  refine Eq.trans (b := (fun (A : S50000x256.Idx → EReal) (b : S1x256.Idx → EReal) (W : S256x256.Idx → EReal) =>
    max (A (((cfg4.win 0).blk t).view.emb (ix2 p k)) + b (((cfg4.win 1).blk t).view.emb (ix2 (0 : Fin 1) k))) (Ideal.ofBits .f32 0x00000000#32)
      * W (((cfg4.win 2).blk t).view.emb (ix2 k q))) (V c main_v106) (V c main_v16) (V c main_arg4)) rfl ?_
  dsimp only
  rw [h0, h1, h2]
  rfl

/-- An index of the array is in point t's block iff each coordinate is in the block's range on its axis. -/
theorem mem_blk4 (t : Fin cfg4.N) (i : S50000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v107).slice (win4_3.rect t)).set ↔ _
  rw [View.set_slice_whole, Rect.mem_set_unit]
  exact Iff.rfl

/-- Every index of the result array is in the block of the grid point its row's tile names. -/
theorem cover4 (i : S50000x256.Idx) : ∃ t : Fin cfg4.N, (cfg4.win 3).flush t = true ∧ i ∈ ((cfg4.win 3).blk t).view.set := by
  have hi0 : (i 0).val < 50000 := (i 0).isLt
  have hi1 : (i 1).val < 256 := (i 1).isLt
  have hN : cfg4.N = 25 := N_4
  let t : Fin cfg4.N := ⟨(i 0).val / 2000, by rw [hN]; omega⟩
  obtain ⟨e00, e01, e10, e11, e20, e21, e30, e31⟩ := idx_facts4 t
  have ht : t.val = (i 0).val / 2000 := rfl
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 256 ≤ (i 1).val ∧ (i 1).val < win4_3.index t (1 : Fin 2) * 256 + 256; omega

/-- The result array after the region, for any entry contents. -/
theorem final4 (c : Dev nD) : (dat4 V c).arrAt 3 cfg4.N = G4 V c :=
  (dat4 V c).arrAt_eq_of_cover 3 (G4 V c) (fun t _ => flushed4_eq V c t) cover4

variable (m : (ℓ : Loc nD τ sig) → Buf (Elt Ideal) ℓ) (ρ : Dev nD → PrngReg)

/-- Region 4's result array by coordinates, from the region's entry contents. -/
theorem reg4 (c : Dev nD) (n : Fin 50000) (d : Fin 256) :
    at2 (V12 m ρ c main_v107) n d = ∑ k : Fin 256, max (at2 (V11 m ρ c main_v106) n k + at2 (V11 m ρ c main_v16) (0 : Fin 1) k) (Ideal.ofBits .f32 0x00000000#32) * at2 (V11 m ρ c main_arg4) k d :=
  congrFun ((hF4 m ρ c 3).symm.trans (final4 (V11 m ρ) c)) (ix2 n d)

end Cert.KernelIdeal.KA

end
-- ==== Proof.KAReg5.lean ====
import proofs.«152131_j81492709475036_2_alg».proof.Proof.Gen.KernelIdeal.Frame
import Idealize.ShloMosaic.PureOps.Ideal.Laws
import Idealize.ShloMosaic.Lib.ValueIdx
import Idealize.ShloMosaic.Lib.Pipeline.Value
import proofs.«152131_j81492709475036_2_alg».proof.Proof.KAPay2
import proofs.«152131_j81492709475036_2_alg».proof.Proof.KAIdx

set_option maxRecDepth 16384

noncomputable section

open scoped BigOperators

namespace Cert.KernelIdeal.KA

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 5: bias, positive part and product, from the blocks the grid points write back to the whole result array -/

variable (V : (c : Dev nD) → (b : Ref sig .tc) → Buf (Elt Ideal) ((c : Thread nD τ).loc b))

theorem hz5 : (![0, 0] : Fin 2 → Nat) = fun _ => 0 := funext fun a => by fin_cases a <;> rfl

/-- The result array from the region's entry contents. -/
def G5 (c : Dev nD) : S50000x64.Idx → Elt Ideal .f32 := brmArr (D := 64) (V c main_v128) (V c main_v16) (V c main_arg6)

/-- The printed index maps over the 25 grid points: the row-tile windows sit at tile t, column block 0; the whole-array
    windows at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 1000000 in
/-- What grid point t writes back is block t of the result array. -/
theorem flushed5_eq (c : Dev nD) (t : Fin cfg5.N) :
    (dat5 V c).flushed 3 t = ((cfg5.win 3).blk t).view.read (Elt Ideal) (G5 V c) := by
  show (cfg5.win 3).cut (grid5.coords t) ((dat5 V c).after 3 t) = _
  rw [after5_3]
  unfold out5_3
  rw [View.canon_unit_zero hz5]
  simp only [View.ld_unit_zero (S := S2000x256) hz5, View.ld_unit_zero (S := S1x256) hz5, View.ld_unit_zero (S := S256x64) hz5]
  obtain ⟨e00, e01, e10, e11, e20, e21, e30, e31⟩ := idx_facts5 t
  funext j
  obtain ⟨p, q, rfl⟩ : ∃ (p : Fin 2000) (q : Fin 64), j = ix2 p q := ⟨j 0, j 1, eq_ix2 j⟩
  refine (pay5_apply (iblk5 V c 0 t) (iblk5 V c 1 t) (iblk5 V c 2 t) p q).trans ?_
  show _ = brmArr (D := 64) (V c main_v128) (V c main_v16) (V c main_arg6) (((cfg5.win 3).blk t).view.emb (ix2 p q))
  unfold brmArr
  refine Finset.sum_congr rfl fun k _ => ?_
  have h0 : ((cfg5.win 0).blk t).view.emb (ix2 p k) = ix2 ((((cfg5.win 3).blk t).view.emb (ix2 p q)) 0) k := by
    funext a; apply Fin.ext
    match a with
    | ⟨0, _⟩ => show win5_0.index t (0 : Fin 2) * 2000 + 1 * p.val = win5_3.index t (0 : Fin 2) * 2000 + 1 * p.val; omega
    | ⟨1, _⟩ => show win5_0.index t (1 : Fin 2) * 256 + 1 * k.val = k.val; omega
  have h1 : ((cfg5.win 1).blk t).view.emb (ix2 (0 : Fin 1) k) = ix2 (0 : Fin 1) k := by
    funext a; apply Fin.ext
    match a with
    | ⟨0, _⟩ => show win5_1.index t (0 : Fin 2) * 1 + 1 * 0 = 0; omega
    | ⟨1, _⟩ => show win5_1.index t (1 : Fin 2) * 256 + 1 * k.val = k.val; omega
  have h2 : ((cfg5.win 2).blk t).view.emb (ix2 k q) = ix2 k ((((cfg5.win 3).blk t).view.emb (ix2 p q)) 1) := by
    funext a; apply Fin.ext
    match a with
    | ⟨0, _⟩ => show win5_2.index t (0 : Fin 2) * 256 + 1 * k.val = k.val; omega
    | ⟨1, _⟩ => show win5_2.index t (1 : Fin 2) * 64 + 1 * q.val = win5_3.index t (1 : Fin 2) * 64 + 1 * q.val; omega
  refine Eq.trans (b := (fun (A : S50000x256.Idx → EReal) (b : S1x256.Idx → EReal) (W : S256x64.Idx → EReal) =>
    max (A (((cfg5.win 0).blk t).view.emb (ix2 p k)) + b (((cfg5.win 1).blk t).view.emb (ix2 (0 : Fin 1) k))) (Ideal.ofBits .f32 0x00000000#32)
      * W (((cfg5.win 2).blk t).view.emb (ix2 k q))) (V c main_v128) (V c main_v16) (V c main_arg6)) rfl ?_
  dsimp only
  rw [h0, h1, h2]
  rfl

/-- An index of the array is in point t's block iff each coordinate is in the block's range on its axis. -/
theorem mem_blk5 (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v129).slice (win5_3.rect t)).set ↔ _
  rw [View.set_slice_whole, Rect.mem_set_unit]
  exact Iff.rfl

/-- Every index of the result array is in the block of the grid point its row's tile names. -/
theorem cover5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 25 := N_5
  let t : Fin cfg5.N := ⟨(i 0).val / 2000, by rw [hN]; omega⟩
  obtain ⟨e00, e01, e10, e11, e20, e21, e30, e31⟩ := idx_facts5 t
  have ht : t.val = (i 0).val / 2000 := rfl
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 64 ≤ (i 1).val ∧ (i 1).val < win5_3.index t (1 : Fin 2) * 64 + 64; omega

/-- The result array after the region, for any entry contents. -/
theorem final5 (c : Dev nD) : (dat5 V c).arrAt 3 cfg5.N = G5 V c :=
  (dat5 V c).arrAt_eq_of_cover 3 (G5 V c) (fun t _ => flushed5_eq V c t) cover5

variable (m : (ℓ : Loc nD τ sig) → Buf (Elt Ideal) ℓ) (ρ : Dev nD → PrngReg)

/-- Region 5's result array by coordinates, from the region's entry contents. -/
theorem reg5 (c : Dev nD) (n : Fin 50000) (d : Fin 64) :
    at2 (V14 m ρ c main_v129) n d = ∑ k : Fin 256, max (at2 (V13 m ρ c main_v128) n k + at2 (V13 m ρ c main_v16) (0 : Fin 1) k) (Ideal.ofBits .f32 0x00000000#32) * at2 (V13 m ρ c main_arg6) k d :=
  congrFun ((hF5 m ρ c 3).symm.trans (final5 (V13 m ρ) c)) (ix2 n d)

end Cert.KernelIdeal.KA

end
-- ==== Proof.KAReg6.lean ====
import proofs.«152131_j81492709475036_2_alg».proof.Proof.Gen.KernelIdeal.Frame
import Idealize.ShloMosaic.PureOps.Ideal.Laws
import Idealize.ShloMosaic.Lib.ValueIdx
import Idealize.ShloMosaic.Lib.Pipeline.Value
import proofs.«152131_j81492709475036_2_alg».proof.Proof.KAPay2
import proofs.«152131_j81492709475036_2_alg».proof.Proof.KAIdx

set_option maxRecDepth 16384

noncomputable section

open scoped BigOperators

namespace Cert.KernelIdeal.KA

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 6: bias, product, bias and the logistic function, from the blocks the grid points write back to the whole result array -/

variable (V : (c : Dev nD) → (b : Ref sig .tc) → Buf (Elt Ideal) ((c : Thread nD τ).loc b))

theorem hz6 : (![0, 0] : Fin 2 → Nat) = fun _ => 0 := funext fun a => by fin_cases a <;> rfl

/-- The result array from the region's entry contents. -/
def G6 (c : Dev nD) : S50000x64.Idx → Elt Ideal .f32 := bmbsArr (V c main_v150) (V c main_v17) (V c main_arg8) (V c main_v18)

/-- The printed index maps over the 25 grid points: the row-tile windows sit at tile t, column block 0; the whole-array
    windows at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

set_option maxHeartbeats 1000000 in
/-- What grid point t writes back is block t of the result array. -/
theorem flushed6_eq (c : Dev nD) (t : Fin cfg6.N) :
    (dat6 V c).flushed 4 t = ((cfg6.win 4).blk t).view.read (Elt Ideal) (G6 V c) := by
  show (cfg6.win 4).cut (grid6.coords t) ((dat6 V c).after 4 t) = _
  rw [after6_4]
  unfold out6_4
  rw [View.canon_unit_zero hz6]
  simp only [View.ld_unit_zero (S := S2000x64) hz6, View.ld_unit_zero (S := S1x64) hz6, View.ld_unit_zero (S := S64x64) hz6]
  obtain ⟨e00, e01, e10, e11, e20, e21, e30, e31, e40, e41⟩ := idx_facts6 t
  funext j
  obtain ⟨p, q, rfl⟩ : ∃ (p : Fin 2000) (q : Fin 64), j = ix2 p q := ⟨j 0, j 1, eq_ix2 j⟩
  refine (pay6_apply (iblk6 V c 0 t) (iblk6 V c 1 t) (iblk6 V c 2 t) (iblk6 V c 3 t) p q).trans ?_
  show _ = bmbsArr (V c main_v150) (V c main_v17) (V c main_arg8) (V c main_v18) (((cfg6.win 4).blk t).view.emb (ix2 p q))
  unfold bmbsArr
  have h1 : ∀ k : Fin 64, ((cfg6.win 1).blk t).view.emb (ix2 (0 : Fin 1) k) = ix2 (0 : Fin 1) k := fun k => by
    funext a; apply Fin.ext
    match a with
    | ⟨0, _⟩ => show win6_1.index t (0 : Fin 2) * 1 + 1 * 0 = 0; omega
    | ⟨1, _⟩ => show win6_1.index t (1 : Fin 2) * 64 + 1 * k.val = k.val; omega
  have h3 : ((cfg6.win 3).blk t).view.emb (ix2 (0 : Fin 1) q) = ix2 (0 : Fin 1) ((((cfg6.win 4).blk t).view.emb (ix2 p q)) 1) := by
    funext a; apply Fin.ext
    match a with
    | ⟨0, _⟩ => show win6_3.index t (0 : Fin 2) * 1 + 1 * 0 = 0; omega
    | ⟨1, _⟩ => show win6_3.index t (1 : Fin 2) * 64 + 1 * q.val = win6_4.index t (1 : Fin 2) * 64 + 1 * q.val; omega
  refine congrArg Ideal.logistic ?_
  refine congrArg₂ (· + ·) (Finset.sum_congr rfl fun k _ => ?_) ?_
  · have h0 : ((cfg6.win 0).blk t).view.emb (ix2 p k) = ix2 ((((cfg6.win 4).blk t).view.emb (ix2 p q)) 0) k := by
      funext a; apply Fin.ext
      match a with
      | ⟨0, _⟩ => show win6_0.index t (0 : Fin 2) * 2000 + 1 * p.val = win6_4.index t (0 : Fin 2) * 2000 + 1 * p.val; omega
      | ⟨1, _⟩ => show win6_0.index t (1 : Fin 2) * 64 + 1 * k.val = k.val; omega
    have h2 : ((cfg6.win 2).blk t).view.emb (ix2 k q) = ix2 k ((((cfg6.win 4).blk t).view.emb (ix2 p q)) 1) := by
      funext a; apply Fin.ext
      match a with
      | ⟨0, _⟩ => show win6_2.index t (0 : Fin 2) * 64 + 1 * k.val = k.val; omega
      | ⟨1, _⟩ => show win6_2.index t (1 : Fin 2) * 64 + 1 * q.val = win6_4.index t (1 : Fin 2) * 64 + 1 * q.val; omega
    refine Eq.trans (b := (fun (A : S50000x64.Idx → EReal) (b : S1x64.Idx → EReal) (W : S64x64.Idx → EReal) =>
      (A (((cfg6.win 0).blk t).view.emb (ix2 p k)) + b (((cfg6.win 1).blk t).view.emb (ix2 (0 : Fin 1) k)))
        * W (((cfg6.win 2).blk t).view.emb (ix2 k q))) (V c main_v150) (V c main_v17) (V c main_arg8)) rfl ?_
    dsimp only
    rw [h0, h1 k, h2]
    rfl
  · refine Eq.trans (b := (fun (b' : S1x64.Idx → EReal) => b' (((cfg6.win 3).blk t).view.emb (ix2 (0 : Fin 1) q))) (V c main_v18)) rfl ?_
    dsimp only
    rw [h3]
    rfl

/-- An index of the array is in point t's block iff each coordinate is in the block's range on its axis. -/
theorem mem_blk6 (t : Fin cfg6.N) (i : S50000x64.Idx) :
    i ∈ ((cfg6.win 4).blk t).view.set ↔ ∀ a : Fin 2, win6_4.index t a * S2000x64.size a ≤ (i a).val ∧ (i a).val < win6_4.index t a * S2000x64.size a + S2000x64.size a := by
  show i ∈ ((View.whole main_v151).slice (win6_4.rect t)).set ↔ _
  rw [View.set_slice_whole, Rect.mem_set_unit]
  exact Iff.rfl

/-- Every index of the result array is in the block of the grid point its row's tile names. -/
theorem cover6 (i : S50000x64.Idx) : ∃ t : Fin cfg6.N, (cfg6.win 4).flush t = true ∧ i ∈ ((cfg6.win 4).blk t).view.set := by
  have hi0 : (i 0).val < 50000 := (i 0).isLt
  have hi1 : (i 1).val < 64 := (i 1).isLt
  have hN : cfg6.N = 25 := N_6
  let t : Fin cfg6.N := ⟨(i 0).val / 2000, by rw [hN]; omega⟩
  obtain ⟨e00, e01, e10, e11, e20, e21, e30, e31, e40, e41⟩ := idx_facts6 t
  have ht : t.val = (i 0).val / 2000 := rfl
  refine ⟨t, flush6_4 t, ?_⟩
  rw [mem_blk6]
  intro a
  match a with
  | ⟨0, _⟩ => show win6_4.index t (0 : Fin 2) * 2000 ≤ (i 0).val ∧ (i 0).val < win6_4.index t (0 : Fin 2) * 2000 + 2000; omega
  | ⟨1, _⟩ => show win6_4.index t (1 : Fin 2) * 64 ≤ (i 1).val ∧ (i 1).val < win6_4.index t (1 : Fin 2) * 64 + 64; omega

/-- The result array after the region, for any entry contents. -/
theorem final6 (c : Dev nD) : (dat6 V c).arrAt 4 cfg6.N = G6 V c :=
  (dat6 V c).arrAt_eq_of_cover 4 (G6 V c) (fun t _ => flushed6_eq V c t) cover6

variable (m : (ℓ : Loc nD τ sig) → Buf (Elt Ideal) ℓ) (ρ : Dev nD → PrngReg)

/-- Region 6's result array by coordinates, from the region's entry contents. -/
theorem reg6 (c : Dev nD) (n : Fin 50000) (d : Fin 64) :
    at2 (V16 m ρ c main_v151) n d = Ideal.logistic ((∑ k : Fin 64, (at2 (V15 m ρ c main_v150) n k + at2 (V15 m ρ c main_v17) (0 : Fin 1) k) * at2 (V15 m ρ c main_arg8) k d) + at2 (V15 m ρ c main_v18) (0 : Fin 1) d) :=
  congrFun ((hF6 m ρ c 4).symm.trans (final6 (V15 m ρ) c)) (ix2 n d)

end Cert.KernelIdeal.KA

end
-- ==== Proof.KA1.lean ====
import proofs.«152131_j81492709475036_2_alg».proof.Proof.Gen.KernelIdeal.Frame
import Idealize.ShloMosaic.PureOps.Ideal.Laws

set_option maxRecDepth 16384

noncomputable section

namespace Cert.KernelIdeal.KA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The run of @main at the ideal numbers: every weakly fair execution terminates, and in every final state the
    result buffer holds the last boundary's contents of the fold, and each argument array is as launched. -/
theorem run_W16 : θ_run (defs (F := Ideal)) (onTc (τ := τ) (main (F := Ideal))) ⟨m, fun _ => 0, ρ⟩ (fun r => ∀ c : Dev nD,
      r.2.mem ((c.tc : Thread nD τ).loc main_v151) = W16 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨(h c _ (mem_uc main_v151 (by decide))),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.KA

end
-- ==== Proof.KBCarry.lean ====
/-
  The buffers that the later segments of the run read keep their contents through the fold of boundary contents:
  no host operation after the first three stretches writes them, and a region leaves its inputs and every buffer
  that is not one of its arrays as it found them.
-/
import Idealize.ShloMosaic.Lib.ValueIdx
import proofs.«152131_j81492709475036_2_alg».proof.Proof.Gen.KernelIdeal.Frame

set_option maxRecDepth 16384

noncomputable section

open scoped BigOperators

namespace Cert.KernelIdeal.KB

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

/-- A buffer that no operation of a host stretch writes keeps its contents across the stretch. -/
macro "stretch_carry" : tactic => `(tactic| (
  refine StableHlo.after_of_forall_not_mem _ _ (List.forall_iff_forall_mem.mp ?_)
  simp only [hostOps0, hostOps0_1, hostOps0_2, hostOps1, hostOps2, hostOps3, hostOps4, hostOps5, hostOps6,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The ten arguments up to region 0's entry -/

theorem W1_main_arg0 : W1 m ρ c (Proc.devRef .tc main_arg0) = m ((c : Thread nD τ).loc main_arg0) :=
  (show W1 m ρ c (Proc.devRef .tc main_arg0) = W0 m ρ c (Proc.devRef .tc main_arg0) by stretch_carry).trans rfl
theorem W2_main_arg0 : W2 m ρ c (Proc.devRef .tc main_arg0) = m ((c : Thread nD τ).loc main_arg0) :=
  (show W2 m ρ c (Proc.devRef .tc main_arg0) = W1 m ρ c (Proc.devRef .tc main_arg0) by stretch_carry).trans (W1_main_arg0 m ρ c)
theorem W3_main_arg0 : W3 m ρ c (Proc.devRef .tc main_arg0) = m ((c : Thread nD τ).loc main_arg0) :=
  (show W3 m ρ c (Proc.devRef .tc main_arg0) = W2 m ρ c (Proc.devRef .tc main_arg0) by stretch_carry).trans (W2_main_arg0 m ρ c)

theorem W1_main_arg1 : W1 m ρ c (Proc.devRef .tc main_arg1) = m ((c : Thread nD τ).loc main_arg1) :=
  (show W1 m ρ c (Proc.devRef .tc main_arg1) = W0 m ρ c (Proc.devRef .tc main_arg1) by stretch_carry).trans rfl
theorem W2_main_arg1 : W2 m ρ c (Proc.devRef .tc main_arg1) = m ((c : Thread nD τ).loc main_arg1) :=
  (show W2 m ρ c (Proc.devRef .tc main_arg1) = W1 m ρ c (Proc.devRef .tc main_arg1) by stretch_carry).trans (W1_main_arg1 m ρ c)
theorem W3_main_arg1 : W3 m ρ c (Proc.devRef .tc main_arg1) = m ((c : Thread nD τ).loc main_arg1) :=
  (show W3 m ρ c (Proc.devRef .tc main_arg1) = W2 m ρ c (Proc.devRef .tc main_arg1) by stretch_carry).trans (W2_main_arg1 m ρ c)

theorem W1_main_arg2 : W1 m ρ c (Proc.devRef .tc main_arg2) = m ((c : Thread nD τ).loc main_arg2) :=
  (show W1 m ρ c (Proc.devRef .tc main_arg2) = W0 m ρ c (Proc.devRef .tc main_arg2) by stretch_carry).trans rfl
theorem W2_main_arg2 : W2 m ρ c (Proc.devRef .tc main_arg2) = m ((c : Thread nD τ).loc main_arg2) :=
  (show W2 m ρ c (Proc.devRef .tc main_arg2) = W1 m ρ c (Proc.devRef .tc main_arg2) by stretch_carry).trans (W1_main_arg2 m ρ c)
theorem W3_main_arg2 : W3 m ρ c (Proc.devRef .tc main_arg2) = m ((c : Thread nD τ).loc main_arg2) :=
  (show W3 m ρ c (Proc.devRef .tc main_arg2) = W2 m ρ c (Proc.devRef .tc main_arg2) by stretch_carry).trans (W2_main_arg2 m ρ c)

theorem W1_main_arg3 : W1 m ρ c (Proc.devRef .tc main_arg3) = m ((c : Thread nD τ).loc main_arg3) :=
  (show W1 m ρ c (Proc.devRef .tc main_arg3) = W0 m ρ c (Proc.devRef .tc main_arg3) by stretch_carry).trans rfl
theorem W2_main_arg3 : W2 m ρ c (Proc.devRef .tc main_arg3) = m ((c : Thread nD τ).loc main_arg3) :=
  (show W2 m ρ c (Proc.devRef .tc main_arg3) = W1 m ρ c (Proc.devRef .tc main_arg3) by stretch_carry).trans (W1_main_arg3 m ρ c)
theorem W3_main_arg3 : W3 m ρ c (Proc.devRef .tc main_arg3) = m ((c : Thread nD τ).loc main_arg3) :=
  (show W3 m ρ c (Proc.devRef .tc main_arg3) = W2 m ρ c (Proc.devRef .tc main_arg3) by stretch_carry).trans (W2_main_arg3 m ρ c)

theorem W1_main_arg4 : W1 m ρ c (Proc.devRef .tc main_arg4) = m ((c : Thread nD τ).loc main_arg4) :=
  (show W1 m ρ c (Proc.devRef .tc main_arg4) = W0 m ρ c (Proc.devRef .tc main_arg4) by stretch_carry).trans rfl
theorem W2_main_arg4 : W2 m ρ c (Proc.devRef .tc main_arg4) = m ((c : Thread nD τ).loc main_arg4) :=
  (show W2 m ρ c (Proc.devRef .tc main_arg4) = W1 m ρ c (Proc.devRef .tc main_arg4) by stretch_carry).trans (W1_main_arg4 m ρ c)
theorem W3_main_arg4 : W3 m ρ c (Proc.devRef .tc main_arg4) = m ((c : Thread nD τ).loc main_arg4) :=
  (show W3 m ρ c (Proc.devRef .tc main_arg4) = W2 m ρ c (Proc.devRef .tc main_arg4) by stretch_carry).trans (W2_main_arg4 m ρ c)

theorem W1_main_arg5 : W1 m ρ c (Proc.devRef .tc main_arg5) = m ((c : Thread nD τ).loc main_arg5) :=
  (show W1 m ρ c (Proc.devRef .tc main_arg5) = W0 m ρ c (Proc.devRef .tc main_arg5) by stretch_carry).trans rfl
theorem W2_main_arg5 : W2 m ρ c (Proc.devRef .tc main_arg5) = m ((c : Thread nD τ).loc main_arg5) :=
  (show W2 m ρ c (Proc.devRef .tc main_arg5) = W1 m ρ c (Proc.devRef .tc main_arg5) by stretch_carry).trans (W1_main_arg5 m ρ c)
theorem W3_main_arg5 : W3 m ρ c (Proc.devRef .tc main_arg5) = m ((c : Thread nD τ).loc main_arg5) :=
  (show W3 m ρ c (Proc.devRef .tc main_arg5) = W2 m ρ c (Proc.devRef .tc main_arg5) by stretch_carry).trans (W2_main_arg5 m ρ c)

theorem W1_main_arg6 : W1 m ρ c (Proc.devRef .tc main_arg6) = m ((c : Thread nD τ).loc main_arg6) :=
  (show W1 m ρ c (Proc.devRef .tc main_arg6) = W0 m ρ c (Proc.devRef .tc main_arg6) by stretch_carry).trans rfl
theorem W2_main_arg6 : W2 m ρ c (Proc.devRef .tc main_arg6) = m ((c : Thread nD τ).loc main_arg6) :=
  (show W2 m ρ c (Proc.devRef .tc main_arg6) = W1 m ρ c (Proc.devRef .tc main_arg6) by stretch_carry).trans (W1_main_arg6 m ρ c)
theorem W3_main_arg6 : W3 m ρ c (Proc.devRef .tc main_arg6) = m ((c : Thread nD τ).loc main_arg6) :=
  (show W3 m ρ c (Proc.devRef .tc main_arg6) = W2 m ρ c (Proc.devRef .tc main_arg6) by stretch_carry).trans (W2_main_arg6 m ρ c)

theorem W1_main_arg7 : W1 m ρ c (Proc.devRef .tc main_arg7) = m ((c : Thread nD τ).loc main_arg7) :=
  (show W1 m ρ c (Proc.devRef .tc main_arg7) = W0 m ρ c (Proc.devRef .tc main_arg7) by stretch_carry).trans rfl
theorem W2_main_arg7 : W2 m ρ c (Proc.devRef .tc main_arg7) = m ((c : Thread nD τ).loc main_arg7) :=
  (show W2 m ρ c (Proc.devRef .tc main_arg7) = W1 m ρ c (Proc.devRef .tc main_arg7) by stretch_carry).trans (W1_main_arg7 m ρ c)
theorem W3_main_arg7 : W3 m ρ c (Proc.devRef .tc main_arg7) = m ((c : Thread nD τ).loc main_arg7) :=
  (show W3 m ρ c (Proc.devRef .tc main_arg7) = W2 m ρ c (Proc.devRef .tc main_arg7) by stretch_carry).trans (W2_main_arg7 m ρ c)

theorem W1_main_arg8 : W1 m ρ c (Proc.devRef .tc main_arg8) = m ((c : Thread nD τ).loc main_arg8) :=
  (show W1 m ρ c (Proc.devRef .tc main_arg8) = W0 m ρ c (Proc.devRef .tc main_arg8) by stretch_carry).trans rfl
theorem W2_main_arg8 : W2 m ρ c (Proc.devRef .tc main_arg8) = m ((c : Thread nD τ).loc main_arg8) :=
  (show W2 m ρ c (Proc.devRef .tc main_arg8) = W1 m ρ c (Proc.devRef .tc main_arg8) by stretch_carry).trans (W1_main_arg8 m ρ c)
theorem W3_main_arg8 : W3 m ρ c (Proc.devRef .tc main_arg8) = m ((c : Thread nD τ).loc main_arg8) :=
  (show W3 m ρ c (Proc.devRef .tc main_arg8) = W2 m ρ c (Proc.devRef .tc main_arg8) by stretch_carry).trans (W2_main_arg8 m ρ c)

theorem W1_main_arg9 : W1 m ρ c (Proc.devRef .tc main_arg9) = m ((c : Thread nD τ).loc main_arg9) :=
  (show W1 m ρ c (Proc.devRef .tc main_arg9) = W0 m ρ c (Proc.devRef .tc main_arg9) by stretch_carry).trans rfl
theorem W2_main_arg9 : W2 m ρ c (Proc.devRef .tc main_arg9) = m ((c : Thread nD τ).loc main_arg9) :=
  (show W2 m ρ c (Proc.devRef .tc main_arg9) = W1 m ρ c (Proc.devRef .tc main_arg9) by stretch_carry).trans (W1_main_arg9 m ρ c)
theorem W3_main_arg9 : W3 m ρ c (Proc.devRef .tc main_arg9) = m ((c : Thread nD τ).loc main_arg9) :=
  (show W3 m ρ c (Proc.devRef .tc main_arg9) = W2 m ρ c (Proc.devRef .tc main_arg9) by stretch_carry).trans (W2_main_arg9 m ρ c)

/-! ## The buffers the later segments read, from region 0's entry on: each keeps what it held there -/
theorem at4_main_v14 : W4 m ρ c (Proc.devRef .tc main_v14) = W3 m ρ c (Proc.devRef .tc main_v14) :=
  (show W4 m ρ c (Proc.devRef .tc main_v14) = W3 m ρ c (Proc.devRef .tc main_v14) from W4_of_ne m ρ c main_v14 (by decide))
theorem at5_main_v14 : W5 m ρ c (Proc.devRef .tc main_v14) = W3 m ρ c (Proc.devRef .tc main_v14) :=
  (show W5 m ρ c (Proc.devRef .tc main_v14) = W4 m ρ c (Proc.devRef .tc main_v14) from by stretch_carry).trans (at4_main_v14 m ρ c)
theorem at6_main_v14 : W6 m ρ c (Proc.devRef .tc main_v14) = W3 m ρ c (Proc.devRef .tc main_v14) :=
  (show W6 m ρ c (Proc.devRef .tc main_v14) = W5 m ρ c (Proc.devRef .tc main_v14) from W6_of_ne m ρ c main_v14 (by decide)).trans (at5_main_v14 m ρ c)
theorem at7_main_v14 : W7 m ρ c (Proc.devRef .tc main_v14) = W3 m ρ c (Proc.devRef .tc main_v14) :=
  (show W7 m ρ c (Proc.devRef .tc main_v14) = W6 m ρ c (Proc.devRef .tc main_v14) from by stretch_carry).trans (at6_main_v14 m ρ c)
theorem at8_main_v14 : W8 m ρ c (Proc.devRef .tc main_v14) = W3 m ρ c (Proc.devRef .tc main_v14) :=
  (show W8 m ρ c (Proc.devRef .tc main_v14) = W7 m ρ c (Proc.devRef .tc main_v14) from W8_of_ne m ρ c main_v14 (by decide)).trans (at7_main_v14 m ρ c)
theorem at9_main_v14 : W9 m ρ c (Proc.devRef .tc main_v14) = W3 m ρ c (Proc.devRef .tc main_v14) :=
  (show W9 m ρ c (Proc.devRef .tc main_v14) = W8 m ρ c (Proc.devRef .tc main_v14) from by stretch_carry).trans (at8_main_v14 m ρ c)
theorem at10_main_v14 : W10 m ρ c (Proc.devRef .tc main_v14) = W3 m ρ c (Proc.devRef .tc main_v14) :=
  (show W10 m ρ c (Proc.devRef .tc main_v14) = W9 m ρ c (Proc.devRef .tc main_v14) from W10_of_ne m ρ c main_v14 (by decide)).trans (at9_main_v14 m ρ c)
theorem at11_main_v14 : W11 m ρ c (Proc.devRef .tc main_v14) = W3 m ρ c (Proc.devRef .tc main_v14) :=
  (show W11 m ρ c (Proc.devRef .tc main_v14) = W10 m ρ c (Proc.devRef .tc main_v14) from by stretch_carry).trans (at10_main_v14 m ρ c)
theorem at12_main_v14 : W12 m ρ c (Proc.devRef .tc main_v14) = W3 m ρ c (Proc.devRef .tc main_v14) :=
  (show W12 m ρ c (Proc.devRef .tc main_v14) = W11 m ρ c (Proc.devRef .tc main_v14) from W12_of_ne m ρ c main_v14 (by decide)).trans (at11_main_v14 m ρ c)
theorem at13_main_v14 : W13 m ρ c (Proc.devRef .tc main_v14) = W3 m ρ c (Proc.devRef .tc main_v14) :=
  (show W13 m ρ c (Proc.devRef .tc main_v14) = W12 m ρ c (Proc.devRef .tc main_v14) from by stretch_carry).trans (at12_main_v14 m ρ c)
theorem at14_main_v14 : W14 m ρ c (Proc.devRef .tc main_v14) = W3 m ρ c (Proc.devRef .tc main_v14) :=
  (show W14 m ρ c (Proc.devRef .tc main_v14) = W13 m ρ c (Proc.devRef .tc main_v14) from W14_of_ne m ρ c main_v14 (by decide)).trans (at13_main_v14 m ρ c)
theorem at4_main_v1 : W4 m ρ c (Proc.devRef .tc main_v1) = W3 m ρ c (Proc.devRef .tc main_v1) :=
  (show W4 m ρ c (Proc.devRef .tc main_v1) = W3 m ρ c (Proc.devRef .tc main_v1) from W4_of_ne m ρ c main_v1 (by decide))
theorem at5_main_v1 : W5 m ρ c (Proc.devRef .tc main_v1) = W3 m ρ c (Proc.devRef .tc main_v1) :=
  (show W5 m ρ c (Proc.devRef .tc main_v1) = W4 m ρ c (Proc.devRef .tc main_v1) from by stretch_carry).trans (at4_main_v1 m ρ c)
theorem at6_main_v1 : W6 m ρ c (Proc.devRef .tc main_v1) = W3 m ρ c (Proc.devRef .tc main_v1) :=
  (show W6 m ρ c (Proc.devRef .tc main_v1) = W5 m ρ c (Proc.devRef .tc main_v1) from W6_of_ne m ρ c main_v1 (by decide)).trans (at5_main_v1 m ρ c)
theorem at7_main_v1 : W7 m ρ c (Proc.devRef .tc main_v1) = W3 m ρ c (Proc.devRef .tc main_v1) :=
  (show W7 m ρ c (Proc.devRef .tc main_v1) = W6 m ρ c (Proc.devRef .tc main_v1) from by stretch_carry).trans (at6_main_v1 m ρ c)
theorem at8_main_v1 : W8 m ρ c (Proc.devRef .tc main_v1) = W3 m ρ c (Proc.devRef .tc main_v1) :=
  (show W8 m ρ c (Proc.devRef .tc main_v1) = W7 m ρ c (Proc.devRef .tc main_v1) from W8_of_ne m ρ c main_v1 (by decide)).trans (at7_main_v1 m ρ c)
theorem at9_main_v1 : W9 m ρ c (Proc.devRef .tc main_v1) = W3 m ρ c (Proc.devRef .tc main_v1) :=
  (show W9 m ρ c (Proc.devRef .tc main_v1) = W8 m ρ c (Proc.devRef .tc main_v1) from by stretch_carry).trans (at8_main_v1 m ρ c)
theorem at10_main_v1 : W10 m ρ c (Proc.devRef .tc main_v1) = W3 m ρ c (Proc.devRef .tc main_v1) :=
  (show W10 m ρ c (Proc.devRef .tc main_v1) = W9 m ρ c (Proc.devRef .tc main_v1) from W10_of_ne m ρ c main_v1 (by decide)).trans (at9_main_v1 m ρ c)
theorem at11_main_v1 : W11 m ρ c (Proc.devRef .tc main_v1) = W3 m ρ c (Proc.devRef .tc main_v1) :=
  (show W11 m ρ c (Proc.devRef .tc main_v1) = W10 m ρ c (Proc.devRef .tc main_v1) from by stretch_carry).trans (at10_main_v1 m ρ c)
theorem at12_main_v1 : W12 m ρ c (Proc.devRef .tc main_v1) = W3 m ρ c (Proc.devRef .tc main_v1) :=
  (show W12 m ρ c (Proc.devRef .tc main_v1) = W11 m ρ c (Proc.devRef .tc main_v1) from W12_of_ne m ρ c main_v1 (by decide)).trans (at11_main_v1 m ρ c)
theorem at13_main_v1 : W13 m ρ c (Proc.devRef .tc main_v1) = W3 m ρ c (Proc.devRef .tc main_v1) :=
  (show W13 m ρ c (Proc.devRef .tc main_v1) = W12 m ρ c (Proc.devRef .tc main_v1) from by stretch_carry).trans (at12_main_v1 m ρ c)
theorem at14_main_v1 : W14 m ρ c (Proc.devRef .tc main_v1) = W3 m ρ c (Proc.devRef .tc main_v1) :=
  (show W14 m ρ c (Proc.devRef .tc main_v1) = W13 m ρ c (Proc.devRef .tc main_v1) from W14_of_ne m ρ c main_v1 (by decide)).trans (at13_main_v1 m ρ c)
theorem at4_main_v3 : W4 m ρ c (Proc.devRef .tc main_v3) = W3 m ρ c (Proc.devRef .tc main_v3) :=
  (show W4 m ρ c (Proc.devRef .tc main_v3) = W3 m ρ c (Proc.devRef .tc main_v3) from W4_of_ne m ρ c main_v3 (by decide))
theorem at5_main_v3 : W5 m ρ c (Proc.devRef .tc main_v3) = W3 m ρ c (Proc.devRef .tc main_v3) :=
  (show W5 m ρ c (Proc.devRef .tc main_v3) = W4 m ρ c (Proc.devRef .tc main_v3) from by stretch_carry).trans (at4_main_v3 m ρ c)
theorem at6_main_v3 : W6 m ρ c (Proc.devRef .tc main_v3) = W3 m ρ c (Proc.devRef .tc main_v3) :=
  (show W6 m ρ c (Proc.devRef .tc main_v3) = W5 m ρ c (Proc.devRef .tc main_v3) from W6_of_ne m ρ c main_v3 (by decide)).trans (at5_main_v3 m ρ c)
theorem at7_main_v3 : W7 m ρ c (Proc.devRef .tc main_v3) = W3 m ρ c (Proc.devRef .tc main_v3) :=
  (show W7 m ρ c (Proc.devRef .tc main_v3) = W6 m ρ c (Proc.devRef .tc main_v3) from by stretch_carry).trans (at6_main_v3 m ρ c)
theorem at8_main_v3 : W8 m ρ c (Proc.devRef .tc main_v3) = W3 m ρ c (Proc.devRef .tc main_v3) :=
  (show W8 m ρ c (Proc.devRef .tc main_v3) = W7 m ρ c (Proc.devRef .tc main_v3) from W8_of_ne m ρ c main_v3 (by decide)).trans (at7_main_v3 m ρ c)
theorem at9_main_v3 : W9 m ρ c (Proc.devRef .tc main_v3) = W3 m ρ c (Proc.devRef .tc main_v3) :=
  (show W9 m ρ c (Proc.devRef .tc main_v3) = W8 m ρ c (Proc.devRef .tc main_v3) from by stretch_carry).trans (at8_main_v3 m ρ c)
theorem at10_main_v3 : W10 m ρ c (Proc.devRef .tc main_v3) = W3 m ρ c (Proc.devRef .tc main_v3) :=
  (show W10 m ρ c (Proc.devRef .tc main_v3) = W9 m ρ c (Proc.devRef .tc main_v3) from W10_of_ne m ρ c main_v3 (by decide)).trans (at9_main_v3 m ρ c)
theorem at11_main_v3 : W11 m ρ c (Proc.devRef .tc main_v3) = W3 m ρ c (Proc.devRef .tc main_v3) :=
  (show W11 m ρ c (Proc.devRef .tc main_v3) = W10 m ρ c (Proc.devRef .tc main_v3) from by stretch_carry).trans (at10_main_v3 m ρ c)
theorem at12_main_v3 : W12 m ρ c (Proc.devRef .tc main_v3) = W3 m ρ c (Proc.devRef .tc main_v3) :=
  (show W12 m ρ c (Proc.devRef .tc main_v3) = W11 m ρ c (Proc.devRef .tc main_v3) from W12_of_ne m ρ c main_v3 (by decide)).trans (at11_main_v3 m ρ c)
theorem at13_main_v3 : W13 m ρ c (Proc.devRef .tc main_v3) = W3 m ρ c (Proc.devRef .tc main_v3) :=
  (show W13 m ρ c (Proc.devRef .tc main_v3) = W12 m ρ c (Proc.devRef .tc main_v3) from by stretch_carry).trans (at12_main_v3 m ρ c)
theorem at14_main_v3 : W14 m ρ c (Proc.devRef .tc main_v3) = W3 m ρ c (Proc.devRef .tc main_v3) :=
  (show W14 m ρ c (Proc.devRef .tc main_v3) = W13 m ρ c (Proc.devRef .tc main_v3) from W14_of_ne m ρ c main_v3 (by decide)).trans (at13_main_v3 m ρ c)
theorem at4_main_v15 : W4 m ρ c (Proc.devRef .tc main_v15) = W3 m ρ c (Proc.devRef .tc main_v15) :=
  (show W4 m ρ c (Proc.devRef .tc main_v15) = W3 m ρ c (Proc.devRef .tc main_v15) from W4_of_ne m ρ c main_v15 (by decide))
theorem at5_main_v15 : W5 m ρ c (Proc.devRef .tc main_v15) = W3 m ρ c (Proc.devRef .tc main_v15) :=
  (show W5 m ρ c (Proc.devRef .tc main_v15) = W4 m ρ c (Proc.devRef .tc main_v15) from by stretch_carry).trans (at4_main_v15 m ρ c)
theorem at4_main_v16 : W4 m ρ c (Proc.devRef .tc main_v16) = W3 m ρ c (Proc.devRef .tc main_v16) :=
  (show W4 m ρ c (Proc.devRef .tc main_v16) = W3 m ρ c (Proc.devRef .tc main_v16) from W4_of_ne m ρ c main_v16 (by decide))
theorem at5_main_v16 : W5 m ρ c (Proc.devRef .tc main_v16) = W3 m ρ c (Proc.devRef .tc main_v16) :=
  (show W5 m ρ c (Proc.devRef .tc main_v16) = W4 m ρ c (Proc.devRef .tc main_v16) from by stretch_carry).trans (at4_main_v16 m ρ c)
theorem at6_main_v16 : W6 m ρ c (Proc.devRef .tc main_v16) = W3 m ρ c (Proc.devRef .tc main_v16) :=
  (show W6 m ρ c (Proc.devRef .tc main_v16) = W5 m ρ c (Proc.devRef .tc main_v16) from W6_of_ne m ρ c main_v16 (by decide)).trans (at5_main_v16 m ρ c)
theorem at7_main_v16 : W7 m ρ c (Proc.devRef .tc main_v16) = W3 m ρ c (Proc.devRef .tc main_v16) :=
  (show W7 m ρ c (Proc.devRef .tc main_v16) = W6 m ρ c (Proc.devRef .tc main_v16) from by stretch_carry).trans (at6_main_v16 m ρ c)
theorem at8_main_v16 : W8 m ρ c (Proc.devRef .tc main_v16) = W3 m ρ c (Proc.devRef .tc main_v16) :=
  (show W8 m ρ c (Proc.devRef .tc main_v16) = W7 m ρ c (Proc.devRef .tc main_v16) from (W8_arr m ρ c 1).trans (((dat2 (V7 m ρ) c).arrAt_in 1 rfl _).trans (A_eq2 (V7 m ρ) c 1))).trans (at7_main_v16 m ρ c)
theorem at9_main_v16 : W9 m ρ c (Proc.devRef .tc main_v16) = W3 m ρ c (Proc.devRef .tc main_v16) :=
  (show W9 m ρ c (Proc.devRef .tc main_v16) = W8 m ρ c (Proc.devRef .tc main_v16) from by stretch_carry).trans (at8_main_v16 m ρ c)
theorem at10_main_v16 : W10 m ρ c (Proc.devRef .tc main_v16) = W3 m ρ c (Proc.devRef .tc main_v16) :=
  (show W10 m ρ c (Proc.devRef .tc main_v16) = W9 m ρ c (Proc.devRef .tc main_v16) from (W10_arr m ρ c 1).trans (((dat3 (V9 m ρ) c).arrAt_in 1 rfl _).trans (A_eq3 (V9 m ρ) c 1))).trans (at9_main_v16 m ρ c)
theorem at11_main_v16 : W11 m ρ c (Proc.devRef .tc main_v16) = W3 m ρ c (Proc.devRef .tc main_v16) :=
  (show W11 m ρ c (Proc.devRef .tc main_v16) = W10 m ρ c (Proc.devRef .tc main_v16) from by stretch_carry).trans (at10_main_v16 m ρ c)
theorem at12_main_v16 : W12 m ρ c (Proc.devRef .tc main_v16) = W3 m ρ c (Proc.devRef .tc main_v16) :=
  (show W12 m ρ c (Proc.devRef .tc main_v16) = W11 m ρ c (Proc.devRef .tc main_v16) from (W12_arr m ρ c 1).trans (((dat4 (V11 m ρ) c).arrAt_in 1 rfl _).trans (A_eq4 (V11 m ρ) c 1))).trans (at11_main_v16 m ρ c)
theorem at13_main_v16 : W13 m ρ c (Proc.devRef .tc main_v16) = W3 m ρ c (Proc.devRef .tc main_v16) :=
  (show W13 m ρ c (Proc.devRef .tc main_v16) = W12 m ρ c (Proc.devRef .tc main_v16) from by stretch_carry).trans (at12_main_v16 m ρ c)
theorem at4_main_v17 : W4 m ρ c (Proc.devRef .tc main_v17) = W3 m ρ c (Proc.devRef .tc main_v17) :=
  (show W4 m ρ c (Proc.devRef .tc main_v17) = W3 m ρ c (Proc.devRef .tc main_v17) from W4_of_ne m ρ c main_v17 (by decide))
theorem at5_main_v17 : W5 m ρ c (Proc.devRef .tc main_v17) = W3 m ρ c (Proc.devRef .tc main_v17) :=
  (show W5 m ρ c (Proc.devRef .tc main_v17) = W4 m ρ c (Proc.devRef .tc main_v17) from by stretch_carry).trans (at4_main_v17 m ρ c)
theorem at6_main_v17 : W6 m ρ c (Proc.devRef .tc main_v17) = W3 m ρ c (Proc.devRef .tc main_v17) :=
  (show W6 m ρ c (Proc.devRef .tc main_v17) = W5 m ρ c (Proc.devRef .tc main_v17) from W6_of_ne m ρ c main_v17 (by decide)).trans (at5_main_v17 m ρ c)
theorem at7_main_v17 : W7 m ρ c (Proc.devRef .tc main_v17) = W3 m ρ c (Proc.devRef .tc main_v17) :=
  (show W7 m ρ c (Proc.devRef .tc main_v17) = W6 m ρ c (Proc.devRef .tc main_v17) from by stretch_carry).trans (at6_main_v17 m ρ c)
theorem at8_main_v17 : W8 m ρ c (Proc.devRef .tc main_v17) = W3 m ρ c (Proc.devRef .tc main_v17) :=
  (show W8 m ρ c (Proc.devRef .tc main_v17) = W7 m ρ c (Proc.devRef .tc main_v17) from W8_of_ne m ρ c main_v17 (by decide)).trans (at7_main_v17 m ρ c)
theorem at9_main_v17 : W9 m ρ c (Proc.devRef .tc main_v17) = W3 m ρ c (Proc.devRef .tc main_v17) :=
  (show W9 m ρ c (Proc.devRef .tc main_v17) = W8 m ρ c (Proc.devRef .tc main_v17) from by stretch_carry).trans (at8_main_v17 m ρ c)
theorem at10_main_v17 : W10 m ρ c (Proc.devRef .tc main_v17) = W3 m ρ c (Proc.devRef .tc main_v17) :=
  (show W10 m ρ c (Proc.devRef .tc main_v17) = W9 m ρ c (Proc.devRef .tc main_v17) from W10_of_ne m ρ c main_v17 (by decide)).trans (at9_main_v17 m ρ c)
theorem at11_main_v17 : W11 m ρ c (Proc.devRef .tc main_v17) = W3 m ρ c (Proc.devRef .tc main_v17) :=
  (show W11 m ρ c (Proc.devRef .tc main_v17) = W10 m ρ c (Proc.devRef .tc main_v17) from by stretch_carry).trans (at10_main_v17 m ρ c)
theorem at12_main_v17 : W12 m ρ c (Proc.devRef .tc main_v17) = W3 m ρ c (Proc.devRef .tc main_v17) :=
  (show W12 m ρ c (Proc.devRef .tc main_v17) = W11 m ρ c (Proc.devRef .tc main_v17) from W12_of_ne m ρ c main_v17 (by decide)).trans (at11_main_v17 m ρ c)
theorem at13_main_v17 : W13 m ρ c (Proc.devRef .tc main_v17) = W3 m ρ c (Proc.devRef .tc main_v17) :=
  (show W13 m ρ c (Proc.devRef .tc main_v17) = W12 m ρ c (Proc.devRef .tc main_v17) from by stretch_carry).trans (at12_main_v17 m ρ c)
theorem at14_main_v17 : W14 m ρ c (Proc.devRef .tc main_v17) = W3 m ρ c (Proc.devRef .tc main_v17) :=
  (show W14 m ρ c (Proc.devRef .tc main_v17) = W13 m ρ c (Proc.devRef .tc main_v17) from W14_of_ne m ρ c main_v17 (by decide)).trans (at13_main_v17 m ρ c)
theorem at15_main_v17 : W15 m ρ c (Proc.devRef .tc main_v17) = W3 m ρ c (Proc.devRef .tc main_v17) :=
  (show W15 m ρ c (Proc.devRef .tc main_v17) = W14 m ρ c (Proc.devRef .tc main_v17) from by stretch_carry).trans (at14_main_v17 m ρ c)
theorem at4_main_v18 : W4 m ρ c (Proc.devRef .tc main_v18) = W3 m ρ c (Proc.devRef .tc main_v18) :=
  (show W4 m ρ c (Proc.devRef .tc main_v18) = W3 m ρ c (Proc.devRef .tc main_v18) from W4_of_ne m ρ c main_v18 (by decide))
theorem at5_main_v18 : W5 m ρ c (Proc.devRef .tc main_v18) = W3 m ρ c (Proc.devRef .tc main_v18) :=
  (show W5 m ρ c (Proc.devRef .tc main_v18) = W4 m ρ c (Proc.devRef .tc main_v18) from by stretch_carry).trans (at4_main_v18 m ρ c)
theorem at6_main_v18 : W6 m ρ c (Proc.devRef .tc main_v18) = W3 m ρ c (Proc.devRef .tc main_v18) :=
  (show W6 m ρ c (Proc.devRef .tc main_v18) = W5 m ρ c (Proc.devRef .tc main_v18) from W6_of_ne m ρ c main_v18 (by decide)).trans (at5_main_v18 m ρ c)
theorem at7_main_v18 : W7 m ρ c (Proc.devRef .tc main_v18) = W3 m ρ c (Proc.devRef .tc main_v18) :=
  (show W7 m ρ c (Proc.devRef .tc main_v18) = W6 m ρ c (Proc.devRef .tc main_v18) from by stretch_carry).trans (at6_main_v18 m ρ c)
theorem at8_main_v18 : W8 m ρ c (Proc.devRef .tc main_v18) = W3 m ρ c (Proc.devRef .tc main_v18) :=
  (show W8 m ρ c (Proc.devRef .tc main_v18) = W7 m ρ c (Proc.devRef .tc main_v18) from W8_of_ne m ρ c main_v18 (by decide)).trans (at7_main_v18 m ρ c)
theorem at9_main_v18 : W9 m ρ c (Proc.devRef .tc main_v18) = W3 m ρ c (Proc.devRef .tc main_v18) :=
  (show W9 m ρ c (Proc.devRef .tc main_v18) = W8 m ρ c (Proc.devRef .tc main_v18) from by stretch_carry).trans (at8_main_v18 m ρ c)
theorem at10_main_v18 : W10 m ρ c (Proc.devRef .tc main_v18) = W3 m ρ c (Proc.devRef .tc main_v18) :=
  (show W10 m ρ c (Proc.devRef .tc main_v18) = W9 m ρ c (Proc.devRef .tc main_v18) from W10_of_ne m ρ c main_v18 (by decide)).trans (at9_main_v18 m ρ c)
theorem at11_main_v18 : W11 m ρ c (Proc.devRef .tc main_v18) = W3 m ρ c (Proc.devRef .tc main_v18) :=
  (show W11 m ρ c (Proc.devRef .tc main_v18) = W10 m ρ c (Proc.devRef .tc main_v18) from by stretch_carry).trans (at10_main_v18 m ρ c)
theorem at12_main_v18 : W12 m ρ c (Proc.devRef .tc main_v18) = W3 m ρ c (Proc.devRef .tc main_v18) :=
  (show W12 m ρ c (Proc.devRef .tc main_v18) = W11 m ρ c (Proc.devRef .tc main_v18) from W12_of_ne m ρ c main_v18 (by decide)).trans (at11_main_v18 m ρ c)
theorem at13_main_v18 : W13 m ρ c (Proc.devRef .tc main_v18) = W3 m ρ c (Proc.devRef .tc main_v18) :=
  (show W13 m ρ c (Proc.devRef .tc main_v18) = W12 m ρ c (Proc.devRef .tc main_v18) from by stretch_carry).trans (at12_main_v18 m ρ c)
theorem at14_main_v18 : W14 m ρ c (Proc.devRef .tc main_v18) = W3 m ρ c (Proc.devRef .tc main_v18) :=
  (show W14 m ρ c (Proc.devRef .tc main_v18) = W13 m ρ c (Proc.devRef .tc main_v18) from W14_of_ne m ρ c main_v18 (by decide)).trans (at13_main_v18 m ρ c)
theorem at15_main_v18 : W15 m ρ c (Proc.devRef .tc main_v18) = W3 m ρ c (Proc.devRef .tc main_v18) :=
  (show W15 m ρ c (Proc.devRef .tc main_v18) = W14 m ρ c (Proc.devRef .tc main_v18) from by stretch_carry).trans (at14_main_v18 m ρ c)
theorem at4_main_arg4 : W4 m ρ c (Proc.devRef .tc main_arg4) = W3 m ρ c (Proc.devRef .tc main_arg4) :=
  (show W4 m ρ c (Proc.devRef .tc main_arg4) = W3 m ρ c (Proc.devRef .tc main_arg4) from W4_of_ne m ρ c main_arg4 (by decide))
theorem at5_main_arg4 : W5 m ρ c (Proc.devRef .tc main_arg4) = W3 m ρ c (Proc.devRef .tc main_arg4) :=
  (show W5 m ρ c (Proc.devRef .tc main_arg4) = W4 m ρ c (Proc.devRef .tc main_arg4) from by stretch_carry).trans (at4_main_arg4 m ρ c)
theorem at6_main_arg4 : W6 m ρ c (Proc.devRef .tc main_arg4) = W3 m ρ c (Proc.devRef .tc main_arg4) :=
  (show W6 m ρ c (Proc.devRef .tc main_arg4) = W5 m ρ c (Proc.devRef .tc main_arg4) from (W6_arr m ρ c 2).trans (((dat1 (V5 m ρ) c).arrAt_in 2 rfl _).trans (A_eq1 (V5 m ρ) c 2))).trans (at5_main_arg4 m ρ c)
theorem at7_main_arg4 : W7 m ρ c (Proc.devRef .tc main_arg4) = W3 m ρ c (Proc.devRef .tc main_arg4) :=
  (show W7 m ρ c (Proc.devRef .tc main_arg4) = W6 m ρ c (Proc.devRef .tc main_arg4) from by stretch_carry).trans (at6_main_arg4 m ρ c)
theorem at8_main_arg4 : W8 m ρ c (Proc.devRef .tc main_arg4) = W3 m ρ c (Proc.devRef .tc main_arg4) :=
  (show W8 m ρ c (Proc.devRef .tc main_arg4) = W7 m ρ c (Proc.devRef .tc main_arg4) from (W8_arr m ρ c 2).trans (((dat2 (V7 m ρ) c).arrAt_in 2 rfl _).trans (A_eq2 (V7 m ρ) c 2))).trans (at7_main_arg4 m ρ c)
theorem at9_main_arg4 : W9 m ρ c (Proc.devRef .tc main_arg4) = W3 m ρ c (Proc.devRef .tc main_arg4) :=
  (show W9 m ρ c (Proc.devRef .tc main_arg4) = W8 m ρ c (Proc.devRef .tc main_arg4) from by stretch_carry).trans (at8_main_arg4 m ρ c)
theorem at10_main_arg4 : W10 m ρ c (Proc.devRef .tc main_arg4) = W3 m ρ c (Proc.devRef .tc main_arg4) :=
  (show W10 m ρ c (Proc.devRef .tc main_arg4) = W9 m ρ c (Proc.devRef .tc main_arg4) from (W10_arr m ρ c 2).trans (((dat3 (V9 m ρ) c).arrAt_in 2 rfl _).trans (A_eq3 (V9 m ρ) c 2))).trans (at9_main_arg4 m ρ c)
theorem at11_main_arg4 : W11 m ρ c (Proc.devRef .tc main_arg4) = W3 m ρ c (Proc.devRef .tc main_arg4) :=
  (show W11 m ρ c (Proc.devRef .tc main_arg4) = W10 m ρ c (Proc.devRef .tc main_arg4) from by stretch_carry).trans (at10_main_arg4 m ρ c)
theorem at4_main_arg6 : W4 m ρ c (Proc.devRef .tc main_arg6) = W3 m ρ c (Proc.devRef .tc main_arg6) :=
  (show W4 m ρ c (Proc.devRef .tc main_arg6) = W3 m ρ c (Proc.devRef .tc main_arg6) from W4_of_ne m ρ c main_arg6 (by decide))
theorem at5_main_arg6 : W5 m ρ c (Proc.devRef .tc main_arg6) = W3 m ρ c (Proc.devRef .tc main_arg6) :=
  (show W5 m ρ c (Proc.devRef .tc main_arg6) = W4 m ρ c (Proc.devRef .tc main_arg6) from by stretch_carry).trans (at4_main_arg6 m ρ c)
theorem at6_main_arg6 : W6 m ρ c (Proc.devRef .tc main_arg6) = W3 m ρ c (Proc.devRef .tc main_arg6) :=
  (show W6 m ρ c (Proc.devRef .tc main_arg6) = W5 m ρ c (Proc.devRef .tc main_arg6) from W6_of_ne m ρ c main_arg6 (by decide)).trans (at5_main_arg6 m ρ c)
theorem at7_main_arg6 : W7 m ρ c (Proc.devRef .tc main_arg6) = W3 m ρ c (Proc.devRef .tc main_arg6) :=
  (show W7 m ρ c (Proc.devRef .tc main_arg6) = W6 m ρ c (Proc.devRef .tc main_arg6) from by stretch_carry).trans (at6_main_arg6 m ρ c)
theorem at8_main_arg6 : W8 m ρ c (Proc.devRef .tc main_arg6) = W3 m ρ c (Proc.devRef .tc main_arg6) :=
  (show W8 m ρ c (Proc.devRef .tc main_arg6) = W7 m ρ c (Proc.devRef .tc main_arg6) from W8_of_ne m ρ c main_arg6 (by decide)).trans (at7_main_arg6 m ρ c)
theorem at9_main_arg6 : W9 m ρ c (Proc.devRef .tc main_arg6) = W3 m ρ c (Proc.devRef .tc main_arg6) :=
  (show W9 m ρ c (Proc.devRef .tc main_arg6) = W8 m ρ c (Proc.devRef .tc main_arg6) from by stretch_carry).trans (at8_main_arg6 m ρ c)
theorem at10_main_arg6 : W10 m ρ c (Proc.devRef .tc main_arg6) = W3 m ρ c (Proc.devRef .tc main_arg6) :=
  (show W10 m ρ c (Proc.devRef .tc main_arg6) = W9 m ρ c (Proc.devRef .tc main_arg6) from W10_of_ne m ρ c main_arg6 (by decide)).trans (at9_main_arg6 m ρ c)
theorem at11_main_arg6 : W11 m ρ c (Proc.devRef .tc main_arg6) = W3 m ρ c (Proc.devRef .tc main_arg6) :=
  (show W11 m ρ c (Proc.devRef .tc main_arg6) = W10 m ρ c (Proc.devRef .tc main_arg6) from by stretch_carry).trans (at10_main_arg6 m ρ c)
theorem at12_main_arg6 : W12 m ρ c (Proc.devRef .tc main_arg6) = W3 m ρ c (Proc.devRef .tc main_arg6) :=
  (show W12 m ρ c (Proc.devRef .tc main_arg6) = W11 m ρ c (Proc.devRef .tc main_arg6) from W12_of_ne m ρ c main_arg6 (by decide)).trans (at11_main_arg6 m ρ c)
theorem at13_main_arg6 : W13 m ρ c (Proc.devRef .tc main_arg6) = W3 m ρ c (Proc.devRef .tc main_arg6) :=
  (show W13 m ρ c (Proc.devRef .tc main_arg6) = W12 m ρ c (Proc.devRef .tc main_arg6) from by stretch_carry).trans (at12_main_arg6 m ρ c)
theorem at4_main_arg8 : W4 m ρ c (Proc.devRef .tc main_arg8) = W3 m ρ c (Proc.devRef .tc main_arg8) :=
  (show W4 m ρ c (Proc.devRef .tc main_arg8) = W3 m ρ c (Proc.devRef .tc main_arg8) from W4_of_ne m ρ c main_arg8 (by decide))
theorem at5_main_arg8 : W5 m ρ c (Proc.devRef .tc main_arg8) = W3 m ρ c (Proc.devRef .tc main_arg8) :=
  (show W5 m ρ c (Proc.devRef .tc main_arg8) = W4 m ρ c (Proc.devRef .tc main_arg8) from by stretch_carry).trans (at4_main_arg8 m ρ c)
theorem at6_main_arg8 : W6 m ρ c (Proc.devRef .tc main_arg8) = W3 m ρ c (Proc.devRef .tc main_arg8) :=
  (show W6 m ρ c (Proc.devRef .tc main_arg8) = W5 m ρ c (Proc.devRef .tc main_arg8) from W6_of_ne m ρ c main_arg8 (by decide)).trans (at5_main_arg8 m ρ c)
theorem at7_main_arg8 : W7 m ρ c (Proc.devRef .tc main_arg8) = W3 m ρ c (Proc.devRef .tc main_arg8) :=
  (show W7 m ρ c (Proc.devRef .tc main_arg8) = W6 m ρ c (Proc.devRef .tc main_arg8) from by stretch_carry).trans (at6_main_arg8 m ρ c)
theorem at8_main_arg8 : W8 m ρ c (Proc.devRef .tc main_arg8) = W3 m ρ c (Proc.devRef .tc main_arg8) :=
  (show W8 m ρ c (Proc.devRef .tc main_arg8) = W7 m ρ c (Proc.devRef .tc main_arg8) from W8_of_ne m ρ c main_arg8 (by decide)).trans (at7_main_arg8 m ρ c)
theorem at9_main_arg8 : W9 m ρ c (Proc.devRef .tc main_arg8) = W3 m ρ c (Proc.devRef .tc main_arg8) :=
  (show W9 m ρ c (Proc.devRef .tc main_arg8) = W8 m ρ c (Proc.devRef .tc main_arg8) from by stretch_carry).trans (at8_main_arg8 m ρ c)
theorem at10_main_arg8 : W10 m ρ c (Proc.devRef .tc main_arg8) = W3 m ρ c (Proc.devRef .tc main_arg8) :=
  (show W10 m ρ c (Proc.devRef .tc main_arg8) = W9 m ρ c (Proc.devRef .tc main_arg8) from W10_of_ne m ρ c main_arg8 (by decide)).trans (at9_main_arg8 m ρ c)
theorem at11_main_arg8 : W11 m ρ c (Proc.devRef .tc main_arg8) = W3 m ρ c (Proc.devRef .tc main_arg8) :=
  (show W11 m ρ c (Proc.devRef .tc main_arg8) = W10 m ρ c (Proc.devRef .tc main_arg8) from by stretch_carry).trans (at10_main_arg8 m ρ c)
theorem at12_main_arg8 : W12 m ρ c (Proc.devRef .tc main_arg8) = W3 m ρ c (Proc.devRef .tc main_arg8) :=
  (show W12 m ρ c (Proc.devRef .tc main_arg8) = W11 m ρ c (Proc.devRef .tc main_arg8) from W12_of_ne m ρ c main_arg8 (by decide)).trans (at11_main_arg8 m ρ c)
theorem at13_main_arg8 : W13 m ρ c (Proc.devRef .tc main_arg8) = W3 m ρ c (Proc.devRef .tc main_arg8) :=
  (show W13 m ρ c (Proc.devRef .tc main_arg8) = W12 m ρ c (Proc.devRef .tc main_arg8) from by stretch_carry).trans (at12_main_arg8 m ρ c)
theorem at14_main_arg8 : W14 m ρ c (Proc.devRef .tc main_arg8) = W3 m ρ c (Proc.devRef .tc main_arg8) :=
  (show W14 m ρ c (Proc.devRef .tc main_arg8) = W13 m ρ c (Proc.devRef .tc main_arg8) from W14_of_ne m ρ c main_arg8 (by decide)).trans (at13_main_arg8 m ρ c)
theorem at15_main_arg8 : W15 m ρ c (Proc.devRef .tc main_arg8) = W3 m ρ c (Proc.devRef .tc main_arg8) :=
  (show W15 m ρ c (Proc.devRef .tc main_arg8) = W14 m ρ c (Proc.devRef .tc main_arg8) from by stretch_carry).trans (at14_main_arg8 m ρ c)

end Cert.KernelIdeal.KB

end
-- ==== Proof.KBTerms.lean ====
/-
  The terms the three host stretches before the first region compute, over the edge argument: the two rows of edge
  words, the degrees and their inverse square roots, and a bias vector as a row; each read by coordinates.
-/
import Idealize.ShloMosaic.Lib.ValueIdx
import Idealize.ShloMosaic.Lib.Pipeline.Value
import proofs.«152131_j81492709475036_2_alg».proof.Proof.Gen.KernelIdeal
import proofs.«152131_j81492709475036_2_alg».proof.Proof.Spec
import proofs.«152131_j81492709475036_2_alg».proof.Proof.LibScatterAdd
import proofs.«152131_j81492709475036_2_alg».proof.Proof.LibHostKeepdims

noncomputable section

open scoped BigOperators

namespace Cert.KernelIdeal.KB

open Cert.KernelIdeal Cert.KernelIdeal.Gen
open Idealize.ShloMosaic Idealize.ShloMosaic.ValueIdx

/-! ## The rows of edge words and the inverse square roots of the degrees, as terms over the edge argument -/

/-- Row 0 of the edge argument (the source words) as the program slices and reshapes it. -/
def rowT (a1 : IVec S2x800000 32) : IVec S800000 32 :=
  shapeCast S800000 (extractStridedSlice S1x800000 ![0, 0] a1 slices_S2x800000_S1x800000_0_0) shapeCasts_S1x800000_S800000

/-- Row 1 of the edge argument (the target words). -/
def colT (a1 : IVec S2x800000 32) : IVec S800000 32 :=
  shapeCast S800000 (extractStridedSlice S1x800000 ![1, 0] a1 slices_S2x800000_S1x800000_1_0) shapeCasts_S1x800000_S800000

/-- The degrees: ones added into zeros at the target words, plus one. -/
def degT (cc : IVec S800000 32) : FVec Ideal S50000 .f32 :=
  addf
    (Host.scatterAdd scatter_S50000_S800000x1_S800000_n_0_0_1
      (broadcastInDim S50000 ![] bcast_S_S50000 (constant S_ .f32 0x00000000#32))
      (broadcastInDim S800000x1 ![0] bcast_S800000_S800000x1_0 cc)
      (broadcastInDim S800000 ![] bcast_S_S800000 (constant S_ .f32 0x3F800000#32)))
    (broadcastInDim S50000 ![] bcast_S_S50000 (constant S_ .f32 0x3F800000#32))

/-- The comparison of the degrees with zero. -/
def posT (cc : IVec S800000 32) : IVec S50000 1 :=
  cmpf .ogt (degT cc) (broadcastInDim S50000 ![] bcast_S_S50000 (constant S_ .f32 0x00000000#32))

/-- The degrees to the power -1/2. -/
def powT (cc : IVec S800000 32) : FVec Ideal S50000 .f32 :=
  Host.powf (degT cc) (broadcastInDim S50000 ![] bcast_S_S50000 (constant S_ .f32 0xBF000000#32))

theorem rowT_apply (a1 : IVec S2x800000 32) (e : Fin 800000) : rowT a1 (ix1 e) = a1 (ix2 (0 : Fin 2) e) := by
  unfold rowT
  rw [shapeCast_apply _ _ (ix1 e) (ix2 (0 : Fin 1) e) (by
    rw [Shape.rowMajor_val_two, Shape.rowMajor_val_one]
    show 0 * 800000 + e.val = e.val
    omega)]
  refine extractStridedSlice_apply _ _ _ _ (ix2 (0 : Fin 2) e) fun a => ?_
  match a with
  | ⟨0, _⟩ => rfl
  | ⟨1, _⟩ => exact (Nat.zero_add _).symm

theorem colT_apply (a1 : IVec S2x800000 32) (e : Fin 800000) : colT a1 (ix1 e) = a1 (ix2 (1 : Fin 2) e) := by
  unfold colT
  rw [shapeCast_apply _ _ (ix1 e) (ix2 (0 : Fin 1) e) (by
    rw [Shape.rowMajor_val_two, Shape.rowMajor_val_one]
    show 0 * 800000 + e.val = e.val
    omega)]
  refine extractStridedSlice_apply _ _ _ _ (ix2 (1 : Fin 2) e) fun a => ?_
  match a with
  | ⟨0, _⟩ => rfl
  | ⟨1, _⟩ => exact (Nat.zero_add _).symm

theorem degT_apply (cc : IVec S800000 32) (n : Fin 50000) :
    degT cc (ix1 n) = Cert.Spec.deg (fun e => cc (ix1 e)) n := by
  unfold degT Cert.Spec.deg
  rw [addf_apply, Cert.LibScatterAdd.scatterAdd_vec_apply _ rfl rfl rfl rfl, broadcastInDim_scalar_apply,
    broadcastInDim_scalar_apply]
  simp only [broadcastInDim_a_a1_apply _ bcast_S800000_S800000x1_0 rfl, broadcastInDim_scalar_apply]
  rfl

/-- The inverse square roots of the degrees: the power where the degree is positive, else zero. -/
def dinvT (cc : IVec S800000 32) : FVec Ideal S50000 .f32 :=
  select (posT cc) (powT cc) (broadcastInDim S50000 ![] bcast_S_S50000 (constant S_ .f32 0x00000000#32))

/-- A bias vector as the row the program reshapes it to. -/
theorem bias256_apply (x : FVec Ideal S256 .f32) (k : Fin 256) :
    shapeCast S1x256 x shapeCasts_S256_S1x256 (ix2 (0 : Fin 1) k) = x (ix1 k) :=
  shapeCast_apply x _ _ _ (by
    rw [Shape.rowMajor_val_two, Shape.rowMajor_val_one]
    show k.val = 0 * 256 + k.val
    omega)

theorem bias64_apply (x : FVec Ideal S64 .f32) (k : Fin 64) :
    shapeCast S1x64 x shapeCasts_S64_S1x64 (ix2 (0 : Fin 1) k) = x (ix1 k) :=
  shapeCast_apply x _ _ _ (by
    rw [Shape.rowMajor_val_two, Shape.rowMajor_val_one]
    show k.val = 0 * 64 + k.val
    omega)

end Cert.KernelIdeal.KB

end
-- ==== Proof.KBDinv.lean ====
/-
  The inverse square roots of the degrees the first host stretches compute, by coordinates.
-/
import proofs.«152131_j81492709475036_2_alg».proof.Proof.KBTerms

noncomputable section

open scoped BigOperators

namespace Cert.KernelIdeal.KB

open Cert.KernelIdeal Cert.KernelIdeal.Gen
open Idealize.ShloMosaic Idealize.ShloMosaic.ValueIdx

/-! ## The inverse square roots of the degrees, by coordinates -/

/-- The select / compare / power of the normalisation, at one index, over any operands. -/
theorem dinv_point (dg zr mh z2 : FVec Ideal S50000 .f32) (i : S50000.Idx) :
    select (cmpf (F := Ideal) .ogt dg zr) (Host.powf (F := Ideal) dg mh) z2 i
      = Scalar.select (Ideal.cmp .ogt (dg i) (zr i)) (Ideal.pow (dg i) (mh i)) (z2 i) := rfl

theorem mhalf_const : constant (F := Ideal) S_ .f32 0xBF000000#32 ix0 = Cert.Spec.mhalfW := rfl
theorem zero_const : constant (F := Ideal) S_ .f32 0x00000000#32 ix0 = Cert.Spec.zeroW := rfl

/-- At node n the normalisation is the degree to the power -1/2 where the degree is positive, else zero. -/
theorem dinvT_apply (cc : IVec S800000 32) (n : Fin 50000) :
    dinvT cc (ix1 n) = Cert.Spec.dinv (fun e => cc (ix1 e)) n := by
  unfold dinvT posT powT Cert.Spec.dinv
  rw [dinv_point, degT_apply, broadcastInDim_scalar_apply, broadcastInDim_scalar_apply, mhalf_const, zero_const]

end Cert.KernelIdeal.KB

end
-- ==== Proof.KBHost0.lean ====
/-
  What the three host stretches before the first region leave in the buffers the later segments read: the two
  rows of edge words, the inverse square roots of the degrees and the four bias vectors as rows, each as a term
  (KBTerms) over the launch memory's arguments.
-/
import Idealize.ShloMosaic.Lib.ValueIdx
import proofs.«152131_j81492709475036_2_alg».proof.Proof.Gen.KernelIdeal.Frame
import proofs.«152131_j81492709475036_2_alg».proof.Proof.KBTerms
import proofs.«152131_j81492709475036_2_alg».proof.Proof.KBCarry

set_option maxRecDepth 16384

noncomputable section

open scoped BigOperators

namespace Cert.KernelIdeal.KB

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

/-! ## What the first three host stretches leave -/

set_option maxHeartbeats 2000000

theorem W1_main_v1 : W1 m ρ c (Proc.devRef .tc main_v1) = rowT (m ((c : Thread nD τ).loc main_arg1)) := by
  show StableHlo.after hostOps0 _ (Proc.devRef .tc main_v1) = _
  after_results_simp
  rfl

theorem W1_main_v3 : W1 m ρ c (Proc.devRef .tc main_v3) = colT (m ((c : Thread nD τ).loc main_arg1)) := by
  show StableHlo.after hostOps0 _ (Proc.devRef .tc main_v3) = _
  after_results_simp
  rfl

theorem W1_main_v11 : W1 m ρ c (Proc.devRef .tc main_v11) = posT (colT (m ((c : Thread nD τ).loc main_arg1))) := by
  show StableHlo.after hostOps0 _ (Proc.devRef .tc main_v11) = _
  after_results_simp
  rfl

theorem W1_main_v13 : W1 m ρ c (Proc.devRef .tc main_v13) = powT (colT (m ((c : Thread nD τ).loc main_arg1))) := by
  show StableHlo.after hostOps0 _ (Proc.devRef .tc main_v13) = _
  after_results_simp
  rfl

theorem W1_main_cst_4 : W1 m ρ c (Proc.devRef .tc main_cst_4) = constant (F := Ideal) S_ .f32 0x00000000#32 := by
  show StableHlo.after hostOps0 _ (Proc.devRef .tc main_cst_4) = _
  after_results_simp

theorem W2_main_v14 : W2 m ρ c (Proc.devRef .tc main_v14) = dinvT (colT (m ((c : Thread nD τ).loc main_arg1))) := by
  have e : W2 m ρ c (Proc.devRef .tc main_v14)
      = select (W1 m ρ c (Proc.devRef .tc main_v11)) (W1 m ρ c (Proc.devRef .tc main_v13))
          (broadcastInDim S50000 ![] bcast_S_S50000 (W1 m ρ c (Proc.devRef .tc main_cst_4))) := by
    show StableHlo.after hostOps0_1 (W1 m ρ c) (Proc.devRef .tc main_v14) = _
    generalize W1 m ρ c = V1
    after_results_simp
    rfl
  rw [e, W1_main_v11, W1_main_v13, W1_main_cst_4]
  unfold dinvT
  rfl

theorem W3_main_v14 : W3 m ρ c (Proc.devRef .tc main_v14) = dinvT (colT (m ((c : Thread nD τ).loc main_arg1))) :=
  (show W3 m ρ c (Proc.devRef .tc main_v14) = W2 m ρ c (Proc.devRef .tc main_v14) by stretch_carry).trans (W2_main_v14 m ρ c)

theorem W3_main_v1 : W3 m ρ c (Proc.devRef .tc main_v1) = rowT (m ((c : Thread nD τ).loc main_arg1)) :=
  (show W3 m ρ c (Proc.devRef .tc main_v1) = W2 m ρ c (Proc.devRef .tc main_v1) by stretch_carry).trans
    ((show W2 m ρ c (Proc.devRef .tc main_v1) = W1 m ρ c (Proc.devRef .tc main_v1) by stretch_carry).trans (W1_main_v1 m ρ c))

theorem W3_main_v3 : W3 m ρ c (Proc.devRef .tc main_v3) = colT (m ((c : Thread nD τ).loc main_arg1)) :=
  (show W3 m ρ c (Proc.devRef .tc main_v3) = W2 m ρ c (Proc.devRef .tc main_v3) by stretch_carry).trans
    ((show W2 m ρ c (Proc.devRef .tc main_v3) = W1 m ρ c (Proc.devRef .tc main_v3) by stretch_carry).trans (W1_main_v3 m ρ c))

theorem W3_main_v15 : W3 m ρ c (Proc.devRef .tc main_v15) = shapeCast S1x256 (m ((c : Thread nD τ).loc main_arg3)) shapeCasts_S256_S1x256 := by
  have e : W3 m ρ c (Proc.devRef .tc main_v15) = shapeCast S1x256 (W2 m ρ c (Proc.devRef .tc main_arg3)) shapeCasts_S256_S1x256 := by
    show StableHlo.after hostOps0_2 (W2 m ρ c) (Proc.devRef .tc main_v15) = _
    generalize W2 m ρ c = V2
    after_results_simp
    rfl
  rw [e, W2_main_arg3]

theorem W3_main_v16 : W3 m ρ c (Proc.devRef .tc main_v16) = shapeCast S1x256 (m ((c : Thread nD τ).loc main_arg5)) shapeCasts_S256_S1x256 := by
  have e : W3 m ρ c (Proc.devRef .tc main_v16) = shapeCast S1x256 (W2 m ρ c (Proc.devRef .tc main_arg5)) shapeCasts_S256_S1x256 := by
    show StableHlo.after hostOps0_2 (W2 m ρ c) (Proc.devRef .tc main_v16) = _
    generalize W2 m ρ c = V2
    after_results_simp
    rfl
  rw [e, W2_main_arg5]

theorem W3_main_v17 : W3 m ρ c (Proc.devRef .tc main_v17) = shapeCast S1x64 (m ((c : Thread nD τ).loc main_arg7)) shapeCasts_S64_S1x64 := by
  have e : W3 m ρ c (Proc.devRef .tc main_v17) = shapeCast S1x64 (W2 m ρ c (Proc.devRef .tc main_arg7)) shapeCasts_S64_S1x64 := by
    show StableHlo.after hostOps0_2 (W2 m ρ c) (Proc.devRef .tc main_v17) = _
    generalize W2 m ρ c = V2
    after_results_simp
    rfl
  rw [e, W2_main_arg7]

theorem W3_main_v18 : W3 m ρ c (Proc.devRef .tc main_v18) = shapeCast S1x64 (m ((c : Thread nD τ).loc main_arg9)) shapeCasts_S64_S1x64 := by
  have e : W3 m ρ c (Proc.devRef .tc main_v18) = shapeCast S1x64 (W2 m ρ c (Proc.devRef .tc main_arg9)) shapeCasts_S64_S1x64 := by
    show StableHlo.after hostOps0_2 (W2 m ρ c) (Proc.devRef .tc main_v18) = _
    generalize W2 m ρ c = V2
    after_results_simp
    rfl
  rw [e, W2_main_arg9]

end Cert.KernelIdeal.KB

end
-- ==== Proof.KBAgg.lean ====
/-
  One normalised aggregation over the graph as a host program computes it, read by coordinates.

  The program scales the feature matrix by the inverse square roots of the degrees along the rows, shifts the
  negative source words up by the number of nodes, gathers the scaled rows at the source words, adds them into a
  zero matrix at the target words, scales the sum by the inverse square roots again and adds the self-loop term.
  For any column count C and any dimension-number records with the printed fields, the composite read at (n, d)
  is Spec.agg of the feature matrix, when the vector of inverse square roots is Spec.dinv of the target words.
-/
import Idealize.ShloMosaic.PureOps.Ideal
import Idealize.ShloMosaic.PureOps.Ideal.Laws
import Idealize.ShloMosaic.Lib.ValueIdx
import proofs.«152131_j81492709475036_2_alg».proof.Proof.Spec
import proofs.«152131_j81492709475036_2_alg».proof.Proof.LibScatterAdd
import proofs.«152131_j81492709475036_2_alg».proof.Proof.LibGatherRows
import proofs.«152131_j81492709475036_2_alg».proof.Proof.LibHostKeepdims

noncomputable section

open scoped BigOperators

namespace Cert.KernelIdeal.KB

open Idealize.ShloMosaic Idealize.ShloMosaic.ValueIdx

section Agg

variable {C : Nat}
  (wf : GatherDims.WF ⟨2, ![50000, C]⟩ ⟨2, ![800000, 1]⟩ ⟨2, ![800000, C]⟩ [1] [0] [] [0] [] 1 ![1, C])
  (gd : GatherDims ⟨2, ![50000, C]⟩ ⟨2, ![800000, 1]⟩ ⟨2, ![800000, C]⟩)
  (sd : ScatterDims ⟨2, ![50000, C]⟩ ⟨2, ![800000, 1]⟩ ⟨2, ![800000, C]⟩)
  (dN1 : Fin 1 → Fin 2) (bN1 : (⟨1, ![50000]⟩ : Shape).BroadcastsInDim ⟨2, ![50000, 1]⟩ dN1)
  (dNC : Fin 2 → Fin 2) (bNC : (⟨2, ![50000, 1]⟩ : Shape).BroadcastsInDim ⟨2, ![50000, C]⟩ dNC)
  (d0NC : Fin 0 → Fin 2) (b0NC : (⟨0, ![]⟩ : Shape).BroadcastsInDim ⟨2, ![50000, C]⟩ d0NC)
  (d0E : Fin 0 → Fin 1) (b0E : (⟨0, ![]⟩ : Shape).BroadcastsInDim ⟨1, ![800000]⟩ d0E)
  (dE1 : Fin 1 → Fin 2) (bE1 : (⟨1, ![800000]⟩ : Shape).BroadcastsInDim ⟨2, ![800000, 1]⟩ dE1)

/-- A vector over the nodes laid along the rows of a matrix with C columns. -/
def rowsOf (v : FVec Ideal ⟨1, ![50000]⟩ .f32) : FVec Ideal ⟨2, ![50000, C]⟩ .f32 :=
  broadcastInDim ⟨2, ![50000, C]⟩ dNC bNC (broadcastInDim ⟨2, ![50000, 1]⟩ dN1 bN1 v)

/-- The source words with the negative ones shifted up by the number of nodes. -/
def wrapped (r : IVec ⟨1, ![800000]⟩ 32) : IVec ⟨1, ![800000]⟩ 32 :=
  select (cmpi .slt r (broadcastInDim ⟨1, ![800000]⟩ d0E b0E (constantI ⟨0, ![]⟩ 32 0#32)))
    (addi r (broadcastInDim ⟨1, ![800000]⟩ d0E b0E (constantI ⟨0, ![]⟩ 32 50000#32))) r

/-- The host program's aggregation, operation by operation. -/
def stretchC (h : FVec Ideal ⟨2, ![50000, C]⟩ .f32) (dv : FVec Ideal ⟨1, ![50000]⟩ .f32)
    (r c : IVec ⟨1, ![800000]⟩ 32) : FVec Ideal ⟨2, ![50000, C]⟩ .f32 :=
  addf
    (mulf (rowsOf dN1 bN1 dNC bNC dv)
      (Host.scatterAdd sd
        (broadcastInDim ⟨2, ![50000, C]⟩ d0NC b0NC (constant ⟨0, ![]⟩ .f32 0x00000000#32))
        (broadcastInDim ⟨2, ![800000, 1]⟩ dE1 bE1 c)
        (Host.gather gd (mulf h (rowsOf dN1 bN1 dNC bNC dv))
          (broadcastInDim ⟨2, ![800000, 1]⟩ dE1 bE1 (wrapped d0E b0E r)))))
    (mulf (rowsOf dN1 bN1 dNC bNC (mulf dv dv)) h)

variable (hgd : gd = Cert.Lib.GatherRows.rowDims 50000 C 800000 wf)
  (huw : sd.updateWindowDims = [1]) (hiw : sd.insertedWindowDims = [0]) (hsd : sd.scatterDimsToOperandDims = [0])
  (hiv : sd.indexVectorDim = 1)
  (hN1 : dN1 0 = 0) (hNC : dNC 0 = 0) (hE1 : dE1 0 = 0)

include hN1 hNC in
theorem rowsOf_apply (v : FVec Ideal ⟨1, ![50000]⟩ .f32) (n : Fin 50000) (d : Fin C) :
    rowsOf dN1 bN1 dNC bNC v (ix2 n d) = v (ix1 n) := by
  unfold rowsOf
  rw [broadcastInDim_a1_ab_apply dNC bNC hNC _ n d, broadcastInDim_a_a1_apply dN1 bN1 hN1 v n 0]

theorem wrapped_apply (r : IVec ⟨1, ![800000]⟩ 32) (e : Fin 800000) :
    wrapped d0E b0E r (ix1 e) = Cert.Spec.wrapW (r (ix1 e)) := by
  unfold wrapped Cert.Spec.wrapW
  rw [select_apply]
  rfl

include hgd huw hiw hsd hiv hN1 hNC hE1 in
/-- The aggregation read at (n, d). -/
theorem stretchC_apply (h : FVec Ideal ⟨2, ![50000, C]⟩ .f32) (dv : FVec Ideal ⟨1, ![50000]⟩ .f32)
    (r c : IVec ⟨1, ![800000]⟩ 32) (rw cw : Fin 800000 → BitVec 32)
    (hdv : ∀ p : Fin 50000, dv (ix1 p) = Cert.Spec.dinv cw p)
    (hr : ∀ e : Fin 800000, r (ix1 e) = rw e) (hc : ∀ e : Fin 800000, c (ix1 e) = cw e)
    (n : Fin 50000) (d : Fin C) :
    stretchC gd sd dN1 bN1 dNC bNC d0NC b0NC d0E b0E dE1 bE1 h dv r c (ix2 n d)
      = Cert.Spec.agg rw cw (fun p q => h (ix2 p q)) n d := by
  unfold stretchC Cert.Spec.agg
  rw [addf_apply, mulf_apply, mulf_apply, rowsOf_apply dN1 bN1 dNC bNC hN1 hNC, rowsOf_apply dN1 bN1 dNC bNC hN1 hNC,
    Cert.LibScatterAdd.scatterAdd_rows_apply sd huw hiw hsd hiv, broadcastInDim_scalar_apply, mulf_apply, hdv n]
  have hsum : ∀ e : Fin 800000,
      (if (broadcastInDim ⟨2, ![800000, 1]⟩ dE1 bE1 c (ix2 e 0)).toInt = (n.val : Int) then
        Host.gather gd (mulf h (rowsOf dN1 bN1 dNC bNC dv))
          (broadcastInDim ⟨2, ![800000, 1]⟩ dE1 bE1 (wrapped d0E b0E r)) (ix2 e d) else 0)
      = (if (cw e).toInt = (n.val : Int) then
          h (ix2 (Cert.Spec.pos (rw e)) d) * Cert.Spec.dinv cw (Cert.Spec.pos (rw e)) else 0) := by
    intro e
    rw [broadcastInDim_a_a1_apply dE1 bE1 hE1 c e 0, hc e, hgd,
      Cert.Lib.GatherRows.gather_rows_apply wf _ _ e d (Cert.Spec.pos (rw e))
        (by rw [broadcastInDim_a_a1_apply dE1 bE1 hE1 _ e 0, wrapped_apply, hr e]; rfl),
      mulf_apply, rowsOf_apply dN1 bN1 dNC bNC hN1 hNC, hdv]
  rw [Finset.sum_congr rfl (fun e _ => hsum e)]
  rfl

end Agg

end Cert.KernelIdeal.KB

end
-- ==== Proof.KBStretch.lean ====
/-
  The six host stretches between the regions, each read as one aggregation (KBAgg) of the buffer the region
  before it wrote, the inverse square roots of the degrees and the two rows of edge words.
-/
import proofs.«152131_j81492709475036_2_alg».proof.Proof.Gen.KernelIdeal.Frame
import proofs.«152131_j81492709475036_2_alg».proof.Proof.KBAgg

set_option maxRecDepth 16384

noncomputable section

open scoped BigOperators

namespace Cert.KernelIdeal.KB

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

/-- The aggregation of a matrix with 256 columns, at the program's printed dimension numbers. -/
def stretch256 (h : FVec Ideal S50000x256 .f32) (dv : FVec Ideal S50000 .f32) (r cc : IVec S800000 32) :
    FVec Ideal S50000x256 .f32 :=
  stretchC gather_S50000x256_S800000x1_S800000x256_1_0_n_n_0_1_1256 scatter_S50000x256_S800000x1_S800000x256_1_0_0_1
    ![0] bcast_S50000_S50000x1_0 ![0, 1] bcast_S50000x1_S50000x256_0_1 ![] bcast_S_S50000x256 ![] bcast_S_S800000
    ![0] bcast_S800000_S800000x1_0 h dv r cc

/-- The aggregation of a matrix with 64 columns, at the program's printed dimension numbers. -/
def stretch64 (h : FVec Ideal S50000x64 .f32) (dv : FVec Ideal S50000 .f32) (r cc : IVec S800000 32) :
    FVec Ideal S50000x64 .f32 :=
  stretchC gather_S50000x64_S800000x1_S800000x64_1_0_n_n_0_1_164 scatter_S50000x64_S800000x1_S800000x64_1_0_0_1
    ![0] bcast_S50000_S50000x1_0 ![0, 1] bcast_S50000x1_S50000x64_0_1 ![] bcast_S_S50000x64 ![] bcast_S_S800000
    ![0] bcast_S800000_S800000x1_0 h dv r cc

theorem stretch256_apply (h : FVec Ideal S50000x256 .f32) (dv : FVec Ideal S50000 .f32) (r cc : IVec S800000 32)
    (rw cw : Fin 800000 → BitVec 32)
    (hdv : ∀ p : Fin 50000, dv (ix1 p) = Cert.Spec.dinv cw p)
    (hr : ∀ e : Fin 800000, r (ix1 e) = rw e) (hc : ∀ e : Fin 800000, cc (ix1 e) = cw e)
    (n : Fin 50000) (d : Fin 256) :
    stretch256 h dv r cc (ix2 n d) = Cert.Spec.agg rw cw (fun p q => h (ix2 p q)) n d :=
  stretchC_apply gather_S50000x256_S800000x1_S800000x256_1_0_n_n_0_1_1256_wf _ _ _ _ _ _ _ _ _ _ _ _
    rfl rfl rfl rfl rfl rfl rfl rfl h dv r cc rw cw hdv hr hc n d

theorem stretch64_apply (h : FVec Ideal S50000x64 .f32) (dv : FVec Ideal S50000 .f32) (r cc : IVec S800000 32)
    (rw cw : Fin 800000 → BitVec 32)
    (hdv : ∀ p : Fin 50000, dv (ix1 p) = Cert.Spec.dinv cw p)
    (hr : ∀ e : Fin 800000, r (ix1 e) = rw e) (hc : ∀ e : Fin 800000, cc (ix1 e) = cw e)
    (n : Fin 50000) (d : Fin 64) :
    stretch64 h dv r cc (ix2 n d) = Cert.Spec.agg rw cw (fun p q => h (ix2 p q)) n d :=
  stretchC_apply gather_S50000x64_S800000x1_S800000x64_1_0_n_n_0_1_164_wf _ _ _ _ _ _ _ _ _ _ _ _
    rfl rfl rfl rfl rfl rfl rfl rfl h dv r cc rw cw hdv hr hc n d

set_option maxHeartbeats 2000000

/-- What host stretch 1 leaves in its last buffer: the aggregation of the region's output before it. -/
theorem W5_main_v40 :
    W5 m ρ c (Proc.devRef .tc main_v40)
      = stretch256 (W4 m ρ c (Proc.devRef .tc main_v19)) (W4 m ρ c (Proc.devRef .tc main_v14))
          (W4 m ρ c (Proc.devRef .tc main_v1)) (W4 m ρ c (Proc.devRef .tc main_v3)) := by
  show StableHlo.after hostOps1 _ (Proc.devRef .tc main_v40) = _
  after_results_simp
  rfl

/-- What host stretch 2 leaves in its last buffer: the aggregation of the region's output before it. -/
theorem W7_main_v62 :
    W7 m ρ c (Proc.devRef .tc main_v62)
      = stretch256 (W6 m ρ c (Proc.devRef .tc main_v41)) (W6 m ρ c (Proc.devRef .tc main_v14))
          (W6 m ρ c (Proc.devRef .tc main_v1)) (W6 m ρ c (Proc.devRef .tc main_v3)) := by
  show StableHlo.after hostOps2 _ (Proc.devRef .tc main_v62) = _
  after_results_simp
  rfl

/-- What host stretch 3 leaves in its last buffer: the aggregation of the region's output before it. -/
theorem W9_main_v84 :
    W9 m ρ c (Proc.devRef .tc main_v84)
      = stretch256 (W8 m ρ c (Proc.devRef .tc main_v63)) (W8 m ρ c (Proc.devRef .tc main_v14))
          (W8 m ρ c (Proc.devRef .tc main_v1)) (W8 m ρ c (Proc.devRef .tc main_v3)) := by
  show StableHlo.after hostOps3 _ (Proc.devRef .tc main_v84) = _
  after_results_simp
  rfl

/-- What host stretch 4 leaves in its last buffer: the aggregation of the region's output before it. -/
theorem W11_main_v106 :
    W11 m ρ c (Proc.devRef .tc main_v106)
      = stretch256 (W10 m ρ c (Proc.devRef .tc main_v85)) (W10 m ρ c (Proc.devRef .tc main_v14))
          (W10 m ρ c (Proc.devRef .tc main_v1)) (W10 m ρ c (Proc.devRef .tc main_v3)) := by
  show StableHlo.after hostOps4 _ (Proc.devRef .tc main_v106) = _
  after_results_simp
  rfl

/-- What host stretch 5 leaves in its last buffer: the aggregation of the region's output before it. -/
theorem W13_main_v128 :
    W13 m ρ c (Proc.devRef .tc main_v128)
      = stretch256 (W12 m ρ c (Proc.devRef .tc main_v107)) (W12 m ρ c (Proc.devRef .tc main_v14))
          (W12 m ρ c (Proc.devRef .tc main_v1)) (W12 m ρ c (Proc.devRef .tc main_v3)) := by
  show StableHlo.after hostOps5 _ (Proc.devRef .tc main_v128) = _
  after_results_simp
  rfl

/-- What host stretch 6 leaves in its last buffer: the aggregation of the region's output before it. -/
theorem W15_main_v150 :
    W15 m ρ c (Proc.devRef .tc main_v150)
      = stretch64 (W14 m ρ c (Proc.devRef .tc main_v129)) (W14 m ρ c (Proc.devRef .tc main_v14))
          (W14 m ρ c (Proc.devRef .tc main_v1)) (W14 m ρ c (Proc.devRef .tc main_v3)) := by
  show StableHlo.after hostOps6 _ (Proc.devRef .tc main_v150) = _
  after_results_simp
  rfl

end Cert.KernelIdeal.KB

end
-- ==== Proof.KBChain.lean ====
/-
  The chain: from the pipeline side's eight facts (taken as hypotheses), the carried buffers and the host
  stretches read as aggregations, the run's last boundary holds the contract's result, layer by layer.
-/
import Idealize.ShloMosaic.Lib.ValueIdx
import proofs.«152131_j81492709475036_2_alg».proof.Proof.Gen.KernelIdeal.Frame
import proofs.«152131_j81492709475036_2_alg».proof.Proof.Spec
import proofs.«152131_j81492709475036_2_alg».proof.Proof.KAIdx
import proofs.«152131_j81492709475036_2_alg».proof.Proof.KBCarry
import proofs.«152131_j81492709475036_2_alg».proof.Proof.KBTerms
import proofs.«152131_j81492709475036_2_alg».proof.Proof.KBDinv
import proofs.«152131_j81492709475036_2_alg».proof.Proof.KBHost0
import proofs.«152131_j81492709475036_2_alg».proof.Proof.KBStretch

set_option maxRecDepth 16384

noncomputable section

open scoped BigOperators

namespace Cert.KernelIdeal.KB

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

open Cert.KernelIdeal.KA (at2)
open Idealize.SL.Sem

/-- A vector over the extended reals read at its coordinate. -/
abbrev at1 {a : Nat} (A : (⟨1, ![a]⟩ : Shape).Idx → EReal) (i : Fin a) : EReal := A (ix1 i)
/-- A vector of 32-bit words read at its coordinate. -/
abbrev wat1 {a : Nat} (A : (⟨1, ![a]⟩ : Shape).Idx → BitVec 32) (i : Fin a) : BitVec 32 := A (ix1 i)
/-- A matrix of 32-bit words read at its two coordinates. -/
abbrev wat2 {a b : Nat} (A : (⟨2, ![a, b]⟩ : Shape).Idx → BitVec 32) (i : Fin a) (j : Fin b) : BitVec 32 := A (ix2 i j)

/-! ## The pipeline side, taken as given: the run ends at the last boundary's contents, and each region's output
    array by coordinates from the region's entry contents -/

structure PipeFacts : Prop where
  run_W16 : θ_run (defs (F := Ideal)) (onTc (τ := τ) (main (F := Ideal))) ⟨m, fun _ => 0, ρ⟩ (fun r => ∀ c : Dev nD,
      r.2.mem ((c.tc : Thread nD τ).loc main_v151) = W16 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
  reg0 : ∀ (c : Dev nD) (n : Fin 50000) (d : Fin 256), at2 (V4 m ρ c main_v19) n d
      = ∑ k : Fin 256, at2 (V3 m ρ c main_arg0) n k * at2 (V3 m ρ c main_arg2) k d
  reg1 : ∀ (c : Dev nD) (n : Fin 50000) (d : Fin 256), at2 (V6 m ρ c main_v41) n d
      = ∑ k : Fin 256, max (at2 (V5 m ρ c main_v40) n k + at2 (V5 m ρ c main_v15) (0 : Fin 1) k) (Ideal.ofBits .f32 0x00000000#32)
          * at2 (V5 m ρ c main_arg4) k d
  reg2 : ∀ (c : Dev nD) (n : Fin 50000) (d : Fin 256), at2 (V8 m ρ c main_v63) n d
      = ∑ k : Fin 256, max (at2 (V7 m ρ c main_v62) n k + at2 (V7 m ρ c main_v16) (0 : Fin 1) k) (Ideal.ofBits .f32 0x00000000#32)
          * at2 (V7 m ρ c main_arg4) k d
  reg3 : ∀ (c : Dev nD) (n : Fin 50000) (d : Fin 256), at2 (V10 m ρ c main_v85) n d
      = ∑ k : Fin 256, max (at2 (V9 m ρ c main_v84) n k + at2 (V9 m ρ c main_v16) (0 : Fin 1) k) (Ideal.ofBits .f32 0x00000000#32)
          * at2 (V9 m ρ c main_arg4) k d
  reg4 : ∀ (c : Dev nD) (n : Fin 50000) (d : Fin 256), at2 (V12 m ρ c main_v107) n d
      = ∑ k : Fin 256, max (at2 (V11 m ρ c main_v106) n k + at2 (V11 m ρ c main_v16) (0 : Fin 1) k) (Ideal.ofBits .f32 0x00000000#32)
          * at2 (V11 m ρ c main_arg4) k d
  reg5 : ∀ (c : Dev nD) (n : Fin 50000) (d : Fin 64), at2 (V14 m ρ c main_v129) n d
      = ∑ k : Fin 256, max (at2 (V13 m ρ c main_v128) n k + at2 (V13 m ρ c main_v16) (0 : Fin 1) k) (Ideal.ofBits .f32 0x00000000#32)
          * at2 (V13 m ρ c main_arg6) k d
  reg6 : ∀ (c : Dev nD) (n : Fin 50000) (d : Fin 64), at2 (V16 m ρ c main_v151) n d
      = Ideal.logistic ((∑ k : Fin 64, (at2 (V15 m ρ c main_v150) n k + at2 (V15 m ρ c main_v17) (0 : Fin 1) k) * at2 (V15 m ρ c main_arg8) k d)
          + at2 (V15 m ρ c main_v18) (0 : Fin 1) d)

/-! ## The contract's inputs, read off the launch memory -/

abbrev sX : Fin 50000 → Fin 256 → EReal := fun p k => at2 (m ((c : Thread nD τ).loc main_arg0)) p k
abbrev srw : Fin 800000 → BitVec 32 := fun e => wat2 (m ((c : Thread nD τ).loc main_arg1)) (0 : Fin 2) e
abbrev scw : Fin 800000 → BitVec 32 := fun e => wat2 (m ((c : Thread nD τ).loc main_arg1)) (1 : Fin 2) e
abbrev sW1 : Fin 256 → Fin 256 → EReal := fun k j => at2 (m ((c : Thread nD τ).loc main_arg2)) k j
abbrev sb1 : Fin 256 → EReal := fun k => at1 (m ((c : Thread nD τ).loc main_arg3)) k
abbrev sW2 : Fin 256 → Fin 256 → EReal := fun k j => at2 (m ((c : Thread nD τ).loc main_arg4)) k j
abbrev sb2 : Fin 256 → EReal := fun k => at1 (m ((c : Thread nD τ).loc main_arg5)) k
abbrev sW3 : Fin 256 → Fin 64 → EReal := fun k j => at2 (m ((c : Thread nD τ).loc main_arg6)) k j
abbrev sb3 : Fin 64 → EReal := fun k => at1 (m ((c : Thread nD τ).loc main_arg7)) k
abbrev sW4 : Fin 64 → Fin 64 → EReal := fun k j => at2 (m ((c : Thread nD τ).loc main_arg8)) k j
abbrev sb4 : Fin 64 → EReal := fun k => at1 (m ((c : Thread nD τ).loc main_arg9)) k

/-! ## The graph data at region 0's entry -/

theorem v14_spec (p : Fin 50000) : at1 (W3 m ρ c (Proc.devRef .tc main_v14)) p = Cert.Spec.dinv (scw m c) p := by
  show (W3 m ρ c (Proc.devRef .tc main_v14) : FVec Ideal S50000 .f32) (ix1 p) = _
  rw [W3_main_v14, dinvT_apply]
  exact congrArg (fun f => Cert.Spec.dinv f p) (funext fun e => colT_apply _ e)

theorem v1_spec (e : Fin 800000) : wat1 (W3 m ρ c (Proc.devRef .tc main_v1)) e = srw m c e := by
  show (W3 m ρ c (Proc.devRef .tc main_v1) : IVec S800000 32) (ix1 e) = _
  rw [W3_main_v1]
  exact rowT_apply _ e

theorem v3_spec (e : Fin 800000) : wat1 (W3 m ρ c (Proc.devRef .tc main_v3)) e = scw m c e := by
  show (W3 m ρ c (Proc.devRef .tc main_v3) : IVec S800000 32) (ix1 e) = _
  rw [W3_main_v3]
  exact colT_apply _ e

/-! ## One layer's two steps, over any arrays -/

theorem agg_step256 (h : FVec Ideal S50000x256 .f32) (dv : FVec Ideal S50000 .f32) (r cc : IVec S800000 32)
    (rw cw : Fin 800000 → BitVec 32) (f : Fin 50000 → Fin 256 → EReal) (hf : ∀ p q, at2 h p q = f p q)
    (hdv : ∀ p : Fin 50000, at1 dv p = Cert.Spec.dinv cw p)
    (hr : ∀ e : Fin 800000, wat1 r e = rw e) (hc : ∀ e : Fin 800000, wat1 cc e = cw e) (n : Fin 50000) (d : Fin 256) :
    stretch256 h dv r cc (ix2 n d) = Cert.Spec.agg rw cw f n d := by
  rw [stretch256_apply h dv r cc rw cw hdv hr hc n d,
    show (fun p q => h (ix2 p q)) = f from funext fun p => funext fun q => hf p q]

theorem agg_step64 (h : FVec Ideal S50000x64 .f32) (dv : FVec Ideal S50000 .f32) (r cc : IVec S800000 32)
    (rw cw : Fin 800000 → BitVec 32) (f : Fin 50000 → Fin 64 → EReal) (hf : ∀ p q, at2 h p q = f p q)
    (hdv : ∀ p : Fin 50000, at1 dv p = Cert.Spec.dinv cw p)
    (hr : ∀ e : Fin 800000, wat1 r e = rw e) (hc : ∀ e : Fin 800000, wat1 cc e = cw e) (n : Fin 50000) (d : Fin 64) :
    stretch64 h dv r cc (ix2 n d) = Cert.Spec.agg rw cw f n d := by
  rw [stretch64_apply h dv r cc rw cw hdv hr hc n d,
    show (fun p q => h (ix2 p q)) = f from funext fun p => funext fun q => hf p q]

theorem layer_step {K D : Nat} (a : Fin 50000 → Fin K → EReal) (b : Fin K → EReal) (W : Fin K → Fin D → EReal)
    (x : (⟨2, ![50000, K]⟩ : Shape).Idx → EReal) (bb : (⟨2, ![1, K]⟩ : Shape).Idx → EReal)
    (ww : (⟨2, ![K, D]⟩ : Shape).Idx → EReal)
    (hx : ∀ n k, at2 x n k = a n k) (hb : ∀ k, at2 bb (0 : Fin 1) k = b k) (hw : ∀ k d, at2 ww k d = W k d)
    (n : Fin 50000) (d : Fin D) :
    (∑ k : Fin K, max (at2 x n k + at2 bb (0 : Fin 1) k) (Ideal.ofBits .f32 0x00000000#32) * at2 ww k d)
      = Cert.Spec.mm (Cert.Spec.biasRelu a b) W n d := by
  unfold Cert.Spec.mm Cert.Spec.biasRelu
  exact Finset.sum_congr rfl fun k _ => by rw [hx, hb, hw]; rfl

variable (hP : PipeFacts m ρ)
include hP

/-! ## The chain, layer by layer -/

theorem L0 (n : Fin 50000) (d : Fin 256) : at2 (V4 m ρ c main_v19) n d = Cert.Spec.mm (sX m c) (sW1 m c) n d :=
  (hP.reg0 c n d).trans (Finset.sum_congr rfl fun k _ => by
    rw [show V3 m ρ c main_arg0 = m ((c : Thread nD τ).loc main_arg0) from W3_main_arg0 m ρ c,
      show V3 m ρ c main_arg2 = m ((c : Thread nD τ).loc main_arg2) from W3_main_arg2 m ρ c])

theorem S1 (n : Fin 50000) (d : Fin 256) :
    at2 (V5 m ρ c main_v40) n d = Cert.Spec.a1 (sX m c) (sW1 m c) (srw m c) (scw m c) n d :=
  (congrFun (W5_main_v40 m ρ c) (ix2 n d)).trans
    (agg_step256 _ _ _ _ (srw m c) (scw m c) _ (L0 m ρ c hP)
      (fun p => (congrFun (at4_main_v14 m ρ c) (ix1 p)).trans (v14_spec m ρ c p))
      (fun e => (congrFun (at4_main_v1 m ρ c) (ix1 e)).trans (v1_spec m ρ c e))
      (fun e => (congrFun (at4_main_v3 m ρ c) (ix1 e)).trans (v3_spec m ρ c e)) n d)

theorem R1 (n : Fin 50000) (d : Fin 256) :
    at2 (V6 m ρ c main_v41) n d
      = Cert.Spec.mm (Cert.Spec.biasRelu (Cert.Spec.a1 (sX m c) (sW1 m c) (srw m c) (scw m c)) (sb1 m c)) (sW2 m c) n d :=
  (hP.reg1 c n d).trans
    (layer_step (K := 256) (D := 256) _ _ _ (V5 m ρ c main_v40) (V5 m ρ c main_v15) (V5 m ρ c main_arg4)
      (S1 m ρ c hP)
      (fun k => (congrFun (at5_main_v15 m ρ c) (ix2 (0 : Fin 1) k)).trans
        ((congrFun (W3_main_v15 m ρ c) (ix2 (0 : Fin 1) k)).trans (bias256_apply _ k)))
      (fun k d => congrFun ((at5_main_arg4 m ρ c).trans (W3_main_arg4 m ρ c)) (ix2 k d)) n d)

theorem S2 (n : Fin 50000) (d : Fin 256) :
    at2 (V7 m ρ c main_v62) n d = Cert.Spec.a2 (sX m c) (sW1 m c) (sb1 m c) (sW2 m c) (srw m c) (scw m c) n d :=
  (congrFun (W7_main_v62 m ρ c) (ix2 n d)).trans
    (agg_step256 _ _ _ _ (srw m c) (scw m c) _ (R1 m ρ c hP)
      (fun p => (congrFun (at6_main_v14 m ρ c) (ix1 p)).trans (v14_spec m ρ c p))
      (fun e => (congrFun (at6_main_v1 m ρ c) (ix1 e)).trans (v1_spec m ρ c e))
      (fun e => (congrFun (at6_main_v3 m ρ c) (ix1 e)).trans (v3_spec m ρ c e)) n d)

theorem R2 (n : Fin 50000) (d : Fin 256) :
    at2 (V8 m ρ c main_v63) n d
      = Cert.Spec.mm (Cert.Spec.biasRelu (Cert.Spec.a2 (sX m c) (sW1 m c) (sb1 m c) (sW2 m c) (srw m c) (scw m c)) (sb2 m c)) (sW2 m c) n d :=
  (hP.reg2 c n d).trans
    (layer_step (K := 256) (D := 256) _ _ _ (V7 m ρ c main_v62) (V7 m ρ c main_v16) (V7 m ρ c main_arg4)
      (S2 m ρ c hP)
      (fun k => (congrFun (at7_main_v16 m ρ c) (ix2 (0 : Fin 1) k)).trans
        ((congrFun (W3_main_v16 m ρ c) (ix2 (0 : Fin 1) k)).trans (bias256_apply _ k)))
      (fun k d => congrFun ((at7_main_arg4 m ρ c).trans (W3_main_arg4 m ρ c)) (ix2 k d)) n d)

theorem S3 (n : Fin 50000) (d : Fin 256) :
    at2 (V9 m ρ c main_v84) n d = Cert.Spec.a3 (sX m c) (sW1 m c) (sb1 m c) (sW2 m c) (sb2 m c) (srw m c) (scw m c) n d :=
  (congrFun (W9_main_v84 m ρ c) (ix2 n d)).trans
    (agg_step256 _ _ _ _ (srw m c) (scw m c) _ (R2 m ρ c hP)
      (fun p => (congrFun (at8_main_v14 m ρ c) (ix1 p)).trans (v14_spec m ρ c p))
      (fun e => (congrFun (at8_main_v1 m ρ c) (ix1 e)).trans (v1_spec m ρ c e))
      (fun e => (congrFun (at8_main_v3 m ρ c) (ix1 e)).trans (v3_spec m ρ c e)) n d)

theorem R3 (n : Fin 50000) (d : Fin 256) :
    at2 (V10 m ρ c main_v85) n d
      = Cert.Spec.mm (Cert.Spec.biasRelu (Cert.Spec.a3 (sX m c) (sW1 m c) (sb1 m c) (sW2 m c) (sb2 m c) (srw m c) (scw m c)) (sb2 m c)) (sW2 m c) n d :=
  (hP.reg3 c n d).trans
    (layer_step (K := 256) (D := 256) _ _ _ (V9 m ρ c main_v84) (V9 m ρ c main_v16) (V9 m ρ c main_arg4)
      (S3 m ρ c hP)
      (fun k => (congrFun (at9_main_v16 m ρ c) (ix2 (0 : Fin 1) k)).trans
        ((congrFun (W3_main_v16 m ρ c) (ix2 (0 : Fin 1) k)).trans (bias256_apply _ k)))
      (fun k d => congrFun ((at9_main_arg4 m ρ c).trans (W3_main_arg4 m ρ c)) (ix2 k d)) n d)

theorem S4 (n : Fin 50000) (d : Fin 256) :
    at2 (V11 m ρ c main_v106) n d = Cert.Spec.a4 (sX m c) (sW1 m c) (sb1 m c) (sW2 m c) (sb2 m c) (srw m c) (scw m c) n d :=
  (congrFun (W11_main_v106 m ρ c) (ix2 n d)).trans
    (agg_step256 _ _ _ _ (srw m c) (scw m c) _ (R3 m ρ c hP)
      (fun p => (congrFun (at10_main_v14 m ρ c) (ix1 p)).trans (v14_spec m ρ c p))
      (fun e => (congrFun (at10_main_v1 m ρ c) (ix1 e)).trans (v1_spec m ρ c e))
      (fun e => (congrFun (at10_main_v3 m ρ c) (ix1 e)).trans (v3_spec m ρ c e)) n d)

theorem R4 (n : Fin 50000) (d : Fin 256) :
    at2 (V12 m ρ c main_v107) n d
      = Cert.Spec.mm (Cert.Spec.biasRelu (Cert.Spec.a4 (sX m c) (sW1 m c) (sb1 m c) (sW2 m c) (sb2 m c) (srw m c) (scw m c)) (sb2 m c)) (sW2 m c) n d :=
  (hP.reg4 c n d).trans
    (layer_step (K := 256) (D := 256) _ _ _ (V11 m ρ c main_v106) (V11 m ρ c main_v16) (V11 m ρ c main_arg4)
      (S4 m ρ c hP)
      (fun k => (congrFun (at11_main_v16 m ρ c) (ix2 (0 : Fin 1) k)).trans
        ((congrFun (W3_main_v16 m ρ c) (ix2 (0 : Fin 1) k)).trans (bias256_apply _ k)))
      (fun k d => congrFun ((at11_main_arg4 m ρ c).trans (W3_main_arg4 m ρ c)) (ix2 k d)) n d)

theorem S5 (n : Fin 50000) (d : Fin 256) :
    at2 (V13 m ρ c main_v128) n d = Cert.Spec.a5 (sX m c) (sW1 m c) (sb1 m c) (sW2 m c) (sb2 m c) (srw m c) (scw m c) n d :=
  (congrFun (W13_main_v128 m ρ c) (ix2 n d)).trans
    (agg_step256 _ _ _ _ (srw m c) (scw m c) _ (R4 m ρ c hP)
      (fun p => (congrFun (at12_main_v14 m ρ c) (ix1 p)).trans (v14_spec m ρ c p))
      (fun e => (congrFun (at12_main_v1 m ρ c) (ix1 e)).trans (v1_spec m ρ c e))
      (fun e => (congrFun (at12_main_v3 m ρ c) (ix1 e)).trans (v3_spec m ρ c e)) n d)

theorem R5 (n : Fin 50000) (d : Fin 64) :
    at2 (V14 m ρ c main_v129) n d
      = Cert.Spec.mm (Cert.Spec.biasRelu (Cert.Spec.a5 (sX m c) (sW1 m c) (sb1 m c) (sW2 m c) (sb2 m c) (srw m c) (scw m c)) (sb2 m c)) (sW3 m c) n d :=
  (hP.reg5 c n d).trans
    (layer_step (K := 256) (D := 64) _ _ _ (V13 m ρ c main_v128) (V13 m ρ c main_v16) (V13 m ρ c main_arg6)
      (S5 m ρ c hP)
      (fun k => (congrFun (at13_main_v16 m ρ c) (ix2 (0 : Fin 1) k)).trans
        ((congrFun (W3_main_v16 m ρ c) (ix2 (0 : Fin 1) k)).trans (bias256_apply _ k)))
      (fun k d => congrFun ((at13_main_arg6 m ρ c).trans (W3_main_arg6 m ρ c)) (ix2 k d)) n d)

theorem S6 (n : Fin 50000) (d : Fin 64) :
    at2 (V15 m ρ c main_v150) n d = Cert.Spec.a6 (sX m c) (sW1 m c) (sb1 m c) (sW2 m c) (sb2 m c) (sW3 m c) (srw m c) (scw m c) n d :=
  (congrFun (W15_main_v150 m ρ c) (ix2 n d)).trans
    (agg_step64 _ _ _ _ (srw m c) (scw m c) _ (R5 m ρ c hP)
      (fun p => (congrFun (at14_main_v14 m ρ c) (ix1 p)).trans (v14_spec m ρ c p))
      (fun e => (congrFun (at14_main_v1 m ρ c) (ix1 e)).trans (v1_spec m ρ c e))
      (fun e => (congrFun (at14_main_v3 m ρ c) (ix1 e)).trans (v3_spec m ρ c e)) n d)

/-- The run's last boundary holds the contract's result in the result buffer, by coordinates. -/
theorem R6 (n : Fin 50000) (d : Fin 64) :
    at2 (V16 m ρ c main_v151) n d
      = Cert.Spec.out (sX m c) (sW1 m c) (sb1 m c) (sW2 m c) (sb2 m c) (sW3 m c) (sb3 m c) (sW4 m c) (sb4 m c) (srw m c) (scw m c) n d := by
  rw [hP.reg6 c n d]
  unfold Cert.Spec.out Cert.Spec.mm
  have hb4 : at2 (V15 m ρ c main_v18) (0 : Fin 1) d = sb4 m c d :=
    (congrFun (at15_main_v18 m ρ c) (ix2 (0 : Fin 1) d)).trans
      ((congrFun (W3_main_v18 m ρ c) (ix2 (0 : Fin 1) d)).trans (bias64_apply _ d))
  rw [hb4]
  refine congrArg (fun s => Ideal.logistic (s + sb4 m c d)) (Finset.sum_congr rfl fun k _ => ?_)
  have hx : at2 (V15 m ρ c main_v150) n k = _ := S6 m ρ c hP n k
  have hb3 : at2 (V15 m ρ c main_v17) (0 : Fin 1) k = sb3 m c k :=
    (congrFun (at15_main_v17 m ρ c) (ix2 (0 : Fin 1) k)).trans
      ((congrFun (W3_main_v17 m ρ c) (ix2 (0 : Fin 1) k)).trans (bias64_apply _ k))
  have hw : at2 (V15 m ρ c main_arg8) k d = sW4 m c k d :=
    congrFun ((at15_main_arg8 m ρ c).trans (W3_main_arg8 m ρ c)) (ix2 k d)
  rw [hx, hb3, hw]

omit hP in
/-- The contract's result as an array of the ten argument arrays. -/
def G (x0 : (⟨S50000x256, .f32⟩ : BufTy).Contents (Elt Ideal)) (x1 : (⟨S2x800000, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal)) :
    (⟨S50000x64, .f32⟩ : BufTy).Contents (Elt Ideal) :=
  fun (i : S50000x64.Idx) =>
    Cert.Spec.out (fun p k => x0 (ix2 p k)) (fun k j => x2 (ix2 k j)) (fun k => x3 (ix1 k)) (fun k j => x4 (ix2 k j))
      (fun k => x5 (ix1 k)) (fun k j => x6 (ix2 k j)) (fun k => x7 (ix1 k)) (fun k j => x8 (ix2 k j)) (fun k => x9 (ix1 k))
      (fun e => x1 (ix2 (0 : Fin 2) e)) (fun e => x1 (ix2 (1 : Fin 2) e)) (i (0 : Fin 2)) (i (1 : Fin 2))

omit hP in
theorem G_apply (x0 : (⟨S50000x256, .f32⟩ : BufTy).Contents (Elt Ideal)) (x1 : (⟨S2x800000, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (n : Fin 50000) (d : Fin 64) :
    G x0 x1 x2 x3 x4 x5 x6 x7 x8 x9 (ix2 n d)
      = Cert.Spec.out (fun p k => x0 (ix2 p k)) (fun k j => x2 (ix2 k j)) (fun k => x3 (ix1 k)) (fun k j => x4 (ix2 k j))
          (fun k => x5 (ix1 k)) (fun k j => x6 (ix2 k j)) (fun k => x7 (ix1 k)) (fun k j => x8 (ix2 k j)) (fun k => x9 (ix1 k))
          (fun e => x1 (ix2 (0 : Fin 2) e)) (fun e => x1 (ix2 (1 : Fin 2) e)) n d := rfl

/-- The last boundary's result buffer is the contract's result of the launch memory's argument arrays. -/
theorem W16_main_v151 :
    W16 m ρ c (Proc.devRef .tc main_v151)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show (W16 m ρ c (Proc.devRef .tc main_v151) : S50000x64.Idx → EReal) = _
  funext i
  have h := R6 m ρ c hP (i (0 : Fin 2)) (i (1 : Fin 2))
  exact (congrArg (W16 m ρ c (Proc.devRef .tc main_v151) : S50000x64.Idx → EReal) (eq_ix2 i)).trans h

/-- The run of @main at the ideal numbers ends with the contract's result of the arguments in the result buffer and
    every argument array as launched. -/
theorem run_of : θ_run (defs (F := Ideal)) (onTc (τ := τ) (main (F := Ideal))) ⟨m, fun _ => 0, ρ⟩ (fun r => ∀ c : Dev nD,
      r.2.mem ((c.tc : Thread nD τ).loc main_v151)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c => ⟨(h c).1.trans (W16_main_v151 m ρ c hP), (h c).2⟩) hP.run_W16

end Cert.KernelIdeal.KB

end
-- ==== Proof.KBFinal.lean ====
/-
  The kernel's run ends with the contract's result: the chain (KBChain) at the pipeline side's proved facts.
-/
import Idealize.ShloMosaic.Lib.ValueIdx
import proofs.«152131_j81492709475036_2_alg».proof.Proof.Gen.KernelIdeal.Frame
import proofs.«152131_j81492709475036_2_alg».proof.Proof.KAIdx
import proofs.«152131_j81492709475036_2_alg».proof.Proof.KA0
import proofs.«152131_j81492709475036_2_alg».proof.Proof.KAReg1
import proofs.«152131_j81492709475036_2_alg».proof.Proof.KAReg2
import proofs.«152131_j81492709475036_2_alg».proof.Proof.KAReg3
import proofs.«152131_j81492709475036_2_alg».proof.Proof.KAReg4
import proofs.«152131_j81492709475036_2_alg».proof.Proof.KAReg5
import proofs.«152131_j81492709475036_2_alg».proof.Proof.KAReg6
import proofs.«152131_j81492709475036_2_alg».proof.Proof.KA1
import proofs.«152131_j81492709475036_2_alg».proof.Proof.KBChain

set_option maxRecDepth 16384

noncomputable section

open scoped BigOperators

namespace Cert.KernelIdeal.KB

open Cert.KernelIdeal Cert.KernelIdeal.Gen
open Idealize.ShloMosaic Idealize.ShloMosaic.TcCoe Idealize.ShloMosaic.ValueIdx

open Idealize.SL.Sem

variable (m : (ℓ : Loc nD τ sig) → Buf (Elt Ideal) ℓ) (ρ : Dev nD → PrngReg)

/-- The pipeline side's eight facts. -/
theorem pipeFacts : PipeFacts m ρ :=
  ⟨Cert.KernelIdeal.KA.run_W16 m ρ, Cert.KernelIdeal.KA.reg0 m ρ, Cert.KernelIdeal.KA.reg1 m ρ, Cert.KernelIdeal.KA.reg2 m ρ,
    Cert.KernelIdeal.KA.reg3 m ρ, Cert.KernelIdeal.KA.reg4 m ρ, Cert.KernelIdeal.KA.reg5 m ρ, Cert.KernelIdeal.KA.reg6 m ρ⟩

/-- The run of @main at the ideal numbers ends with the contract's result of the arguments in the result buffer and
    every argument array as launched. -/
theorem run : θ_run (defs (F := Ideal)) (onTc (τ := τ) (main (F := Ideal))) ⟨m, fun _ => 0, ρ⟩ (fun r => ∀ c : Dev nD,
      r.2.mem ((c.tc : Thread nD τ).loc main_v151)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of m ρ (pipeFacts m ρ)

end Cert.KernelIdeal.KB

end
-- ==== Proof.lean ====
/-
  A six-layer graph-convolution network on 50000 nodes and 800000 edges, then a dense layer and the logistic function:
  the kernel against its reference, over the extended reals.

  Both programs compute, at node n and output column d, the same function of the arguments (Proof/Spec.lean, out):
  each convolution is a row-by-weight product followed by the normalised aggregation
      agg h n d = dinv n * (sum over edges e whose target word hits n of h (src e) d * dinv (src e)) + (dinv n * dinv n) * h n d,
  dinv n the inverse square root of one plus the number of edges hitting n.
  * The kernel does the products in seven tiled regions (25 tiles of 2000 rows; the previous layer's bias and relu
    are applied on the way into the next product) and the aggregations on the host between them, the self-loop as
    its own term. Its run ends with the result array at that function (Proof/KBFinal.lean; the regions' output
    arrays by coordinates are Proof/KA0.lean, KAReg1 … KAReg6.lean; the run itself Proof/KA1.lean).
  * The reference appends one self-loop per node to the edge list, weights edge e by dinv (src e) * 1 * dinv (tgt e)
    and scatter-adds once (Proof/RWords.lean, RDeg.lean, RAgg.lean, RLayers.lean).
  * The law between the two forms (Proof/Law.lean): the loops contribute the node's own term, and on an edge hitting
    n the target's weight is dinv n, a nonnegative real, which moves out of the edge sum whatever the summands are;
    the rest is commutativity and associativity, which hold at the infinities too — so the precondition (finite
    inputs) is never opened.
  The kernel's logistic and the reference's 1 / (1 + exp (-x)) are one function of the extended reals.
  Nothing was rewritten when the kernel was idealized, so there is nothing for the idealization to preserve.
-/
import proofs.«152131_j81492709475036_2_alg».proof.Defs
import proofs.«152131_j81492709475036_2_alg».proof.Proof.Gen.Kernel
import proofs.«152131_j81492709475036_2_alg».proof.Proof.Gen.Kernel.Skeleton
import proofs.«152131_j81492709475036_2_alg».proof.Proof.Gen.Kernel.Launch
import proofs.«152131_j81492709475036_2_alg».proof.Proof.Gen.Kernel.Points
import proofs.«152131_j81492709475036_2_alg».proof.Proof.Gen.Kernel.Frame
import proofs.«152131_j81492709475036_2_alg».proof.Proof.Gen.KernelIdeal
import proofs.«152131_j81492709475036_2_alg».proof.Proof.Gen.KernelIdeal.Skeleton
import proofs.«152131_j81492709475036_2_alg».proof.Proof.Gen.KernelIdeal.Launch
import proofs.«152131_j81492709475036_2_alg».proof.Proof.Gen.KernelIdeal.Points
import proofs.«152131_j81492709475036_2_alg».proof.Proof.Gen.KernelIdeal.Frame
import proofs.«152131_j81492709475036_2_alg».proof.Proof.Gen.ReferenceIdeal
import proofs.«152131_j81492709475036_2_alg».proof.Proof.Gen.Pre_finite_inputs
import proofs.«152131_j81492709475036_2_alg».proof.Proof.RunP
import proofs.«152131_j81492709475036_2_alg».proof.Proof.ReadP
import proofs.«152131_j81492709475036_2_alg».proof.Proof.RLayers
import proofs.«152131_j81492709475036_2_alg».proof.Proof.KBFinal
import Idealize.ShloMosaic.Adequacy
import Idealize.ShloMosaic.Init

noncomputable section

namespace Cert.Proof

open Idealize.ShloMosaic Idealize.SL.Sem Idealize.ShloMosaic.ValueIdx

/-- The reference's last stage is the composition of its layers (the stages unfold to it). -/
theorem stages_eq (x0 : FVec Ideal Cert.ReferenceIdeal.S50000x256 .f32) (x1 : IVec Cert.ReferenceIdeal.S2x800000 32)
    (x2 : FVec Ideal Cert.ReferenceIdeal.S256x256 .f32) (x3 : FVec Ideal Cert.ReferenceIdeal.S256 .f32)
    (x4 : FVec Ideal Cert.ReferenceIdeal.S256x256 .f32) (x5 : FVec Ideal Cert.ReferenceIdeal.S256 .f32)
    (x6 : FVec Ideal Cert.ReferenceIdeal.S256x64 .f32) (x7 : FVec Ideal Cert.ReferenceIdeal.S64 .f32)
    (x8 : FVec Ideal Cert.ReferenceIdeal.S64x64 .f32) (x9 : FVec Ideal Cert.ReferenceIdeal.S64 .f32) :
    Cert.ReferenceIdeal.ReadP.val_main_v288 (F := Ideal) x0 x1 x2 x3 x4 x5 x6 x7 x8 x9
      = Cert.ReferenceIdeal.RForm.refOut x0 x1 x2 x3 x4 x5 x6 x7 x8 x9 := rfl

/-- The two results are one function of the arguments: both are Spec.out at every node and column. -/
theorem results_eq (x0 : FVec Ideal Cert.ReferenceIdeal.S50000x256 .f32) (x1 : IVec Cert.ReferenceIdeal.S2x800000 32)
    (x2 : FVec Ideal Cert.ReferenceIdeal.S256x256 .f32) (x3 : FVec Ideal Cert.ReferenceIdeal.S256 .f32)
    (x4 : FVec Ideal Cert.ReferenceIdeal.S256x256 .f32) (x5 : FVec Ideal Cert.ReferenceIdeal.S256 .f32)
    (x6 : FVec Ideal Cert.ReferenceIdeal.S256x64 .f32) (x7 : FVec Ideal Cert.ReferenceIdeal.S64 .f32)
    (x8 : FVec Ideal Cert.ReferenceIdeal.S64x64 .f32) (x9 : FVec Ideal Cert.ReferenceIdeal.S64 .f32) :
    Cert.ReferenceIdeal.ReadP.val_main_v288 (F := Ideal) x0 x1 x2 x3 x4 x5 x6 x7 x8 x9
      = Cert.KernelIdeal.KB.G x0 x1 x2 x3 x4 x5 x6 x7 x8 x9 := by
  funext i
  obtain ⟨n, d, rfl⟩ : ∃ (n : Fin 50000) (d : Fin 64), i = ix2 n d := ⟨i 0, i 1, eq_ix2 i⟩
  rw [stages_eq, Cert.ReferenceIdeal.RForm.refOut_apply, Cert.KernelIdeal.KB.G_apply]

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments, the kernel's run ends with its result at the network's function
    of them, and the reference's run with its result at the same function. -/
theorem algebraic : Cert.algebraic_KernelIdeal_ReferenceIdeal := by
  intro m ρ m' ρ' _ hagree
  refine ⟨fun c => Cert.KernelIdeal.KB.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.KB.run m ρ, ?_⟩
  refine (θ_run (Cert.ReferenceIdeal.defs (F := Ideal)) _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  refine (Cert.ReferenceIdeal.ReadP.val_main_v288_eq m' c).trans ?_
  rw [h0, h1, h2, h3, h4, h5, h6, h7, h8, h9]
  exact results_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
